-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S100000x128 : Shape := ⟨2, ![100000, 128]⟩
abbrev S256x128 : Shape := ⟨2, ![256, 128]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S4096x50 : S_.BroadcastsInDim S4096x50 (![] : Fin 0 → Fin S4096x50.rank)
  reducesTo_S4096x50_S_d0_1 : S4096x50.ReducesTo [0, 1] S_

variable [Facts]

def fn_part1 {F : FTy → Type} [FloatOps F] (main_arg0 : IVec S4096x50 32) (main_v13 : IVec S_ 1) (main_v15 : IVec S4096x50 1) (main_c_5 : IVec S_ 32) : IVec S_ 1 :=
  let main_v16 : IVec S4096x50 32 := broadcastInDim S4096x50 ![] bcast_S_S4096x50 main_c_5
  let main_v17 : IVec S4096x50 1 := cmpi .sle main_arg0 main_v16
  let main_v18 : IVec S4096x50 1 := andi main_v15 main_v17
  let main_c_6 : IVec S_ 1 := constantI S_ 1 1#1
  let main_v19 : IVec S_ 1 := (fun x v => Host.reduce IntOp.andi x v reducesTo_S4096x50_S_d0_1 h_S_) main_v18 main_c_6
  let main_v20 : IVec S_ 1 := andi main_v13 main_v19
  main_v20

def fn {F : FTy → Type} [FloatOps F] (main_arg0 : IVec S4096x50 32) (main_arg1 : FVec F S100000x128 .f32) (main_arg2 : FVec F S256x128 .f32) (main_arg3 : FVec F S256 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_c_4 : IVec S_ 32 := constantI S_ 32 0#32
  let main_v14 : IVec S4096x50 32 := broadcastInDim S4096x50 ![] bcast_S_S4096x50 main_c_4
  let main_v15 : IVec S4096x50 1 := cmpi .sge main_arg0 main_v14
  let main_c_5 : IVec S_ 32 := constantI S_ 32 99999#32
  fn_part1 (F := F) main_arg0 main_v13 main_v15 main_c_5
-- ==== Kernel.lean ====
abbrev S4096x50 : Shape := ⟨2, ![4096, 50]⟩
abbrev S100000x128 : Shape := ⟨2, ![100000, 128]⟩
abbrev S256x128 : Shape := ⟨2, ![256, 128]⟩
abbrev S256 : Shape := ⟨1, ![256]⟩
abbrev S32x50x128 : Shape := ⟨3, ![32, 50, 128]⟩
abbrev S204800x128 : Shape := ⟨2, ![204800, 128]⟩
abbrev S50x128 : Shape := ⟨2, ![50, 128]⟩
abbrev S128x128 : Shape := ⟨2, ![128, 128]⟩
abbrev S_ : Shape := ⟨0, ![]⟩
abbrev S1x50x128 : Shape := ⟨3, ![1, 50, 128]⟩
abbrev S1x128 : Shape := ⟨2, ![1, 128]⟩
abbrev S128 : Shape := ⟨1, ![128]⟩
abbrev S1x256 : Shape := ⟨2, ![1, 256]⟩
abbrev S4096x50x256 : Shape := ⟨3, ![4096, 50, 256]⟩
abbrev S3200x128 : Shape := ⟨2, ![3200, 128]⟩
abbrev S64x50x256 : Shape := ⟨3, ![64, 50, 256]⟩
abbrev S3200x256 : Shape := ⟨2, ![3200, 256]⟩

abbrev nBuf : Table → Nat
  | .hbm => 8
  | .local .tc .vmem => 6
  | .local .scVector .vmem => 2
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S256x128, .f32⟩
  | .hbm, ⟨3, _⟩ => ⟨S256, .f32⟩
  | .hbm, ⟨4, _⟩ => ⟨S32x50x128, .i32⟩
  | .hbm, ⟨5, _⟩ => ⟨S204800x128, .f32⟩
  | .hbm, ⟨6, _⟩ => ⟨S1x256, .f32⟩
  | .hbm, ⟨7, _⟩ => ⟨S4096x50x256, .f32⟩
  | .local .tc .vmem, ⟨0, _⟩ => ⟨S3200x128, .f32⟩
  | .local .tc .vmem, ⟨1, _⟩ => ⟨S3200x128, .f32⟩
  | .local .tc .vmem, ⟨2, _⟩ => ⟨S256x128, .f32⟩
  | .local .tc .vmem, ⟨3, _⟩ => ⟨S1x256, .f32⟩
  | .local .tc .vmem, ⟨4, _⟩ => ⟨S64x50x256, .f32⟩
  | .local .tc .vmem, ⟨5, _⟩ => ⟨S64x50x256, .f32⟩
  | .local .scVector .vmem, ⟨0, _⟩ => ⟨S50x128, .i32⟩
  | .local .scVector .vmem, ⟨1, _⟩ => ⟨S128x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 4, rfl⟩
abbrev main_arg1_scv : Ref sig .scVector := ⟨.hbm, 1, rfl⟩
abbrev main_v1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  let c0_i32_3_r0 : BitVec 32 := 0#32
  ![v1.toNat, 0, 0]
@[reducible] def k0_t1_loop : Scf.Loop 32 :=
  let c0_i32_0 : BitVec 32 := 0#32
  let c50_i32 : BitVec 32 := 50#32
  let v3 : BitVec 32 := Scalar.addi c0_i32_0 c50_i32
  let c1_i32 : BitVec 32 := 1#32
  ⟨c0_i32_0, v3, c1_i32⟩
def k0_off2 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let c0_i32_2 : BitVec 32 := 0#32
  ![arg8.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_0 : BitVec 32 := 0#32
  let c1_i32 : BitVec 32 := 1#32
  let arg8 : BitVec 32 := Scf.iv c0_i32_0 c1_i32 k0_t1
  let c128_i32 : BitVec 32 := 128#32
  let v10 : BitVec 32 := Scalar.muli arg8 c128_i32
  let v11 : BitVec 32 := Scalar.addi v2 v10
  let c0_i32_8_r1 : BitVec 32 := 0#32
  ![v11.toNat, 0]
abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x50x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x50_S32x50x128 : S4096x50.ShapeCasts S32x50x128
  squeezes_S1x50x128_S50x128 : S1x50x128.Squeezes S50x128
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  shapeCasts_S256_S1x256 : S256.ShapeCasts S1x256
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3200x256 : S1x256.Broadcasts S3200x256
  shapeCasts_S3200x256_S64x50x256 : S3200x256.ShapeCasts S64x50x256
  inb_S64x50x256_S64x50x256_0_0_0 : ∀ a, (![0, 0, 0] : Fin 3 → Nat) a + S64x50x256.size a ≤ S64x50x256.size a
  h_S64x50x256 : 0 < S64x50x256.numel
  dot_S3200x128_S256x128_S3200x256_1_1_0_0_n_n_wf : DotDims.WF S3200x128 S256x128 S3200x256 [1] [1] [0] [0] [] []
  hcc0_scratch2 : 0 + S_.numel ≤ 9
  hcc0_scoped0 : 1 + S_.numel ≤ 9
  hcc0_scoped1 : 2 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x50x128.size a ≤ S32x50x128.size a
  k0_t1_ok : k0_t1_loop.OK
  k0_off2_inb : ∀ k0_t1 : Fin k0_t1_loop.trips, ∀ a, (k0_off2 k0_t1) a + S1x128.size a ≤ S50x128.size a
  k0_off3_inb : ∀ (i : grid0.Coords) (k0_t1 : Fin k0_t1_loop.trips), ∀ a, (k0_off3 i k0_t1) a + S128x128.size a ≤ S204800x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x128.size a ≤ S204800x128.size a
  hwx1_0 : ∀ i : grid1.Coords, EltTy.bits .f32 = 32 ∨ (Rect.block (s := S204800x128) S3200x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x50x256.size a ≤ S4096x50x256.size a
  hwx1_3 : ∀ i : grid1.Coords, EltTy.bits .f32 = 32 ∨ (Rect.block (s := S4096x50x256) S64x50x256.size (cc1_transform_3 i) (hinb1_3 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
def dot_S3200x128_S256x128_S3200x256_1_1_0_0_n_n : DotDims S3200x128 S256x128 S3200x256 where
  lhsContracting := [1]
  rhsContracting := [1]
  lhsNonContracting := [0]
  rhsNonContracting := [0]
  lhsBatch := []
  rhsBatch := []
  wf := dot_S3200x128_S256x128_S3200x256_1_1_0_0_n_n_wf

abbrev win1_0 : Pipeline.Window sig grid1 :=
  Pipeline.Window.ofSpec (Memref.whole main_v1) S3200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S64x50x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x50 : Shape := ⟨2, ![4096, 50]⟩
abbrev S100000x128 : Shape := ⟨2, ![100000, 128]⟩
abbrev S256x128 : Shape := ⟨2, ![256, 128]⟩
abbrev S256 : Shape := ⟨1, ![256]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩
abbrev S4096x50x256 : Shape := ⟨3, ![4096, 50, 256]⟩
abbrev S1x1x256 : Shape := ⟨3, ![1, 1, 256]⟩

abbrev nBuf : Space → Nat
  | .hbm => 31
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S256x128, .f32⟩
  | .hbm, ⟨3, _⟩ => ⟨S256, .f32⟩
  | .hbm, ⟨4, _⟩ => ⟨S_, .i32⟩
  | .hbm, ⟨5, _⟩ => ⟨S4096x50, .i32⟩
  | .hbm, ⟨6, _⟩ => ⟨S4096x50, .i1⟩
  | .hbm, ⟨7, _⟩ => ⟨S_, .i32⟩
  | .hbm, ⟨8, _⟩ => ⟨S4096x50, .i32⟩
  | .hbm, ⟨9, _⟩ => ⟨S4096x50, .i32⟩
  | .hbm, ⟨10, _⟩ => ⟨S4096x50, .i32⟩
  | .hbm, ⟨11, _⟩ => ⟨S4096x50x1, .i32⟩
  | .hbm, ⟨12, _⟩ => ⟨S1, .i32⟩
  | .hbm, ⟨13, _⟩ => ⟨S_, .i32⟩
  | .hbm, ⟨14, _⟩ => ⟨S4096x50x1, .i32⟩
  | .hbm, ⟨15, _⟩ => ⟨S4096x50x1, .i1⟩
  | .hbm, ⟨16, _⟩ => ⟨S1x1x1, .i32⟩
  | .hbm, ⟨17, _⟩ => ⟨S4096x50x1, .i32⟩
  | .hbm, ⟨18, _⟩ => ⟨S4096x50x1, .i1⟩
  | .hbm, ⟨19, _⟩ => ⟨S4096x50x1, .i1⟩
  | .hbm, ⟨20, _⟩ => ⟨S_, .i1⟩
  | .hbm, ⟨21, _⟩ => ⟨S4096x50, .i1⟩
  | .hbm, ⟨22, _⟩ => ⟨S4096x50x128, .f32⟩
  | .hbm, ⟨23, _⟩ => ⟨S4096x50x128, .i1⟩
  | .hbm, ⟨24, _⟩ => ⟨S_, .f32⟩
  | .hbm, ⟨25, _⟩ => ⟨S4096x50x128, .f32⟩
  | .hbm, ⟨26, _⟩ => ⟨S4096x50x128, .f32⟩
  | .hbm, ⟨27, _⟩ => ⟨S4096x50x256, .f32⟩
  | .hbm, ⟨28, _⟩ => ⟨S1x1x256, .f32⟩
  | .hbm, ⟨29, _⟩ => ⟨S4096x50x256, .f32⟩
  | .hbm, ⟨30, _⟩ => ⟨S4096x50x256, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  bcast_S256_S1x1x256_2 : S256.BroadcastsInDim S1x1x256 (![2] : Fin 1 → Fin S1x1x256.rank)
  bcast_S1x1x256_S4096x50x256_0_1_2 : S1x1x256.BroadcastsInDim S4096x50x256 (![0, 1, 2] : Fin 3 → Fin S4096x50x256.rank)
  gather_S100000x128_S4096x50x1_S4096x50x128_2_0_n_n_0_2_1128_wf : GatherDims.WF S100000x128 S4096x50x1 S4096x50x128 [2] [0] [] [0] [] 2 ![1, 128]
  dot_S4096x50x128_S256x128_S4096x50x256_2_1_01_0_n_n_wf : DotDims.WF S4096x50x128 S256x128 S4096x50x256 [2] [1] [0, 1] [0] [] []

variable [Facts₀]

def gather_S100000x128_S4096x50x1_S4096x50x128_2_0_n_n_0_2_1128 : GatherDims S100000x128 S4096x50x1 S4096x50x128 where
  offsetDims := [2]
  collapsedSliceDims := [0]
  operandBatchingDims := []
  startIndicesBatchingDims := []
  startIndexMap := [0]
  indexVectorDim := 2
  sliceSizes := ![1, 128]
  wf := gather_S100000x128_S4096x50x1_S4096x50x128_2_0_n_n_0_2_1128_wf
def dot_S4096x50x128_S256x128_S4096x50x256_2_1_01_0_n_n : DotDims S4096x50x128 S256x128 S4096x50x256 where
  lhsContracting := [2]
  rhsContracting := [1]
  lhsNonContracting := [0, 1]
  rhsNonContracting := [0]
  lhsBatch := []
  rhsBatch := []
  wf := dot_S4096x50x128_S256x128_S4096x50x256_2_1_01_0_n_n_wf

class Facts : Prop extends Facts₀ where

variable [Facts]
-- ==== Proof.Spec.lean ====
/-
  The function both programs compute, stated once over the argument arrays and importing neither program.

  An index word `w` names the table row `w mod 100000` (the reduction only makes the definition total: a word in
  [0, 99999], the only case either program is read at, names itself).  The looked-up rows, laid out flat, form a
  [204800, 128] array whose row `f = b·50 + l` is the table row that `indices[b, l]` names; the result at `(b, l, h)` is
  `∑ₖ table[indices[b,l], k] · W[h, k] + bias[h]`, a sum over the 128 columns on the extended reals.
-/
import Idealize.ShloMosaic.PureOps.Ideal
import Idealize.ShloMosaic.Lib.ValueIdx

noncomputable section

open scoped BigOperators

namespace Cert.Spec

open Idealize.ShloMosaic Idealize.ShloMosaic.ValueIdx

abbrev SIdx : Shape := ⟨2, ![4096, 50]⟩
abbrev STbl : Shape := ⟨2, ![100000, 128]⟩
abbrev SW : Shape := ⟨2, ![256, 128]⟩
abbrev SB : Shape := ⟨1, ![256]⟩
abbrev SEmb : Shape := ⟨2, ![204800, 128]⟩
abbrev SOut : Shape := ⟨3, ![4096, 50, 256]⟩

/-- The table row an index word names. -/
def row (w : BitVec 32) : Fin 100000 := ⟨w.toNat % 100000, Nat.mod_lt _ (by norm_num)⟩

/-- A word in [0, 99999] (read signed) names the row of its own value. -/
theorem row_val_of_range (w : BitVec 32) (h0 : 0 ≤ w.toInt) (h1 : w.toInt ≤ 99999) : (row w).val = w.toNat := by
  have hlt : w.toNat < 100000 := by
    have := BitVec.toInt_eq_toNat_cond w
    split at this <;> omega
  show w.toNat % 100000 = w.toNat
  exact Nat.mod_eq_of_lt hlt

/-- Every index word is in [0, 99999], read signed. -/
def InRange (idx : IVec SIdx 32) : Prop := ∀ e : SIdx.Idx, 0 ≤ (idx e).toInt ∧ (idx e).toInt ≤ 99999

/-- The batch row and history position of a flat row number `f = b·50 + l`. -/
def batchOf (f : Fin 204800) : Fin 4096 := ⟨f.val / 50, by have := f.isLt; omega⟩
def histOf (f : Fin 204800) : Fin 50 := ⟨f.val % 50, Nat.mod_lt _ (by norm_num)⟩

/-- The looked-up rows, flat: row `b·50 + l` is the table row `indices[b, l]` names (any float instance: pure data movement). -/
def emb {F : FTy → Type} (idx : IVec SIdx 32) (tbl : FVec F STbl .f32) : FVec F SEmb .f32 :=
  fun j => tbl (ix2 (row (idx (ix2 (batchOf (j 0)) (histOf (j 0))))) (j 1))

/-- The projection of a flat [204800, 128] array of rows: at `(b, l, h)` the sum over `k` of `rows[b·50 + l, k] · W[h, k]`, plus `bias[h]`. -/
def proj (rows : FVec Ideal SEmb .f32) (W : FVec Ideal SW .f32) (bias : FVec Ideal SB .f32) : FVec Ideal SOut .f32 :=
  fun j => (∑ k : Fin 128, rows (ix2 (⟨(j 0).val * 50 + (j 1).val, by have := (j 0).isLt; have := (j 1).isLt; simp only [Matrix.cons_val_zero, Matrix.cons_val_one] at *; omega⟩ : Fin 204800) k) * W (ix2 (j 2) k)) + bias (ix1 (j 2))

/-- The result: at `(b, l, h)`, `∑ₖ table[indices[b,l], k] · W[h, k] + bias[h]`. -/
def out (idx : IVec SIdx 32) (tbl : FVec Ideal STbl .f32) (W : FVec Ideal SW .f32) (bias : FVec Ideal SB .f32) : FVec Ideal SOut .f32 :=
  fun j => (∑ k : Fin 128, tbl (ix2 (row (idx (ix2 (j 0) (j 1)))) k) * W (ix2 (j 2) k)) + bias (ix1 (j 2))

/-- Projecting the looked-up rows is the result. -/
theorem proj_emb (idx : IVec SIdx 32) (tbl : FVec Ideal STbl .f32) (W : FVec Ideal SW .f32) (bias : FVec Ideal SB .f32) :
    proj (emb idx tbl) W bias = out idx tbl W bias := by
  funext j
  have hb : (j 0).val < 4096 := (j 0).isLt
  have hl : (j 1).val < 50 := (j 1).isLt
  have e0 : batchOf (⟨(j 0).val * 50 + (j 1).val, by omega⟩ : Fin 204800) = j 0 := Fin.ext (by show ((j 0).val * 50 + (j 1).val) / 50 = _; omega)
  have e1 : histOf (⟨(j 0).val * 50 + (j 1).val, by omega⟩ : Fin 204800) = j 1 := Fin.ext (by show ((j 0).val * 50 + (j 1).val) % 50 = _; omega)
  unfold proj out emb
  dsimp only
  refine congrArg (· + bias (ix1 (j 2))) (Finset.sum_congr rfl fun k _ => ?_)
  show tbl (ix2 (row (idx (ix2 (batchOf ⟨(j 0).val * 50 + (j 1).val, _⟩) (histOf ⟨(j 0).val * 50 + (j 1).val, _⟩)))) k) * _ = _
  rw [e0, e1]

end Cert.Spec

end
-- ==== Proof.PreRange.lean ====
/-
  The index range, read out of the precondition.

  The precondition is a conjunction of four scalar bits: three say that the float arrays are finite, the fourth is the
  conjunction, over every position of the index array, of the two signed comparisons `0 ≤ indices[b, l]` and
  `indices[b, l] ≤ 99999`.  When the whole conjunction is 1 the fourth bit is 1, so both comparisons are 1 at every
  position; read signed, that is the range statement.
-/
import proofs.«206693_g6700148982047_cont_9to1_m_1101_3_alg».proof.Pre_input_domain
import proofs.«206693_g6700148982047_cont_9to1_m_1101_3_alg».proof.Proof.Spec
import Idealize.ShloMosaic.Lib.ReduceAll

noncomputable section

namespace Cert.PreRange

open Idealize.ShloMosaic

/-- A rank-0 array has one index. -/
instance : Subsingleton Cert.Pre_input_domain.S_.Idx := ⟨fun a b => funext fun d => d.elim0⟩

theorem inRange_of_pre {F : FTy → Type} [FloatOps F] [Cert.Pre_input_domain.Facts]
    (a0 : IVec Cert.Pre_input_domain.S4096x50 32) (a1 : FVec F Cert.Pre_input_domain.S100000x128 .f32)
    (a2 : FVec F Cert.Pre_input_domain.S256x128 .f32) (a3 : FVec F Cert.Pre_input_domain.S256 .f32)
    (h : Cert.Pre_input_domain.fn (F := F) a0 a1 a2 a3 = (fun _ => 1#1)) : Cert.Spec.InRange a0 := by
  intro e
  -- the scalar result is 1
  have h0 := congrFun h ValueIdx.ix0
  dsimp only [Cert.Pre_input_domain.fn, Cert.Pre_input_domain.fn_part1] at h0
  -- its last conjunct is the conjunction over all positions
  have hall := (IntOp.andi_eq_one.1 h0).2
  -- so the conjunction of the two comparisons is 1 at position e
  have he := Host.reduce_andi_all _ _ _ _ _ hall e
  obtain ⟨hge, hle⟩ := IntOp.andi_eq_one.1 he
  have hge' := IntOp.cmpi_sge.1 hge
  have hle' := IntOp.cmpi_sle.1 hle
  -- the two bounds are the literals 0 and 99999
  have z0 : (0#32 : BitVec 32).toInt = 0 := by decide
  have z1 : (99999#32 : BitVec 32).toInt = 99999 := by decide
  exact ⟨z0 ▸ hge', z1 ▸ hle'⟩

end Cert.PreRange

end
-- ==== Proof.RefTerm.lean ====
/-
  The reference's result as one term of its four arguments, stage by stage.

  The lookup index is `select (i < 0) (i + 100000) i`; with a trailing unit axis it is the gather's array of start
  indices; the mask `0 ≤ i ∧ i ≤ 99999` is reduced by `and` over that unit axis; the looked-up rows are the gathered
  table rows where the mask holds and a NaN elsewhere; the result contracts the rows with the weights over the 128
  columns and adds the bias broadcast over the first two axes.
-/
import proofs.«206693_g6700148982047_cont_9to1_m_1101_3_alg».proof.ReferenceIdeal

noncomputable section

namespace Cert.RefSide

open Cert.ReferenceIdeal Idealize.ShloMosaic
open Cert.ReferenceIdeal.Facts₀

variable {F : FTy → Type} [FloatOps F] [Cert.ReferenceIdeal.Facts]

/-- The index the lookup uses: `i + 100000` where `i` is negative, `i` elsewhere. -/
def selIdx (idx : IVec S4096x50 32) : IVec S4096x50 32 :=
  select (cmpi .slt idx (broadcastInDim S4096x50 ![] bcast_S_S4096x50 (constantI S_ 32 0#32)))
    (addi idx (broadcastInDim S4096x50 ![] bcast_S_S4096x50 (constantI S_ 32 100000#32))) idx

/-- That index with a trailing unit axis: the gather's start indices. -/
def idx3 (idx : IVec S4096x50 32) : IVec S4096x50x1 32 :=
  broadcastInDim S4096x50x1 ![0, 1] bcast_S4096x50_S4096x50x1_0_1 (selIdx idx)

/-- The mask: `0 ≤ i ∧ i ≤ 99999`, reduced by `and` over the unit axis. -/
def mask (idx : IVec S4096x50 32) : IVec S4096x50 1 :=
  Host.reduce IntOp.andi
    (andi (cmpi .sge (idx3 idx) (broadcastInDim S4096x50x1 ![] bcast_S_S4096x50x1 (constantI S_ 32 0#32)))
      (cmpi .sle (idx3 idx) (broadcastInDim S4096x50x1 ![0, 1, 2] bcast_S1x1x1_S4096x50x1_0_1_2
        (broadcastInDim S1x1x1 ![2] bcast_S1_S1x1x1_2 (constantI S1 32 99999#32)))))
    (constantI S_ 1 1#1) reducesTo_S4096x50x1_S4096x50_d2 h_S_

/-- The looked-up rows: the gathered row where the mask holds, a NaN elsewhere. -/
def rows (idx : IVec S4096x50 32) (tbl : FVec F S100000x128 .f32) : FVec F S4096x50x128 .f32 :=
  select (broadcastInDim S4096x50x128 ![0, 1] bcast_S4096x50_S4096x50x128_0_1 (mask idx))
    (Host.gather gather_S100000x128_S4096x50x1_S4096x50x128_2_0_n_n_0_2_1128 tbl (idx3 idx))
    (broadcastInDim S4096x50x128 ![] bcast_S_S4096x50x128 (constant S_ .f32 0x7FC00000#32))

/-- The reference's result: the rows contracted with the weights over the columns, plus the bias broadcast over the
    first two axes. -/
def refOut (idx : IVec S4096x50 32) (tbl : FVec F S100000x128 .f32) (W : FVec F S256x128 .f32) (b : FVec F S256 .f32) :
    FVec F S4096x50x256 .f32 :=
  addf (Host.dotGeneral dot_S4096x50x128_S256x128_S4096x50x256_2_1_01_0_n_n none (rows idx tbl) W)
    (broadcastInDim S4096x50x256 ![0, 1, 2] bcast_S1x1x256_S4096x50x256_0_1_2
      (broadcastInDim S1x1x256 ![2] bcast_S256_S1x1x256_2 b))

end Cert.RefSide

end
-- ==== Proof.RefRun.lean ====
/-
  The reference's @main as a list of its host operations, the calls unfolded, and its run read back: every
  weakly fair execution terminates with each buffer at the operations' fold over the launch contents.

  @main calls @_take(table, indices), which computes the index `select (i < 0) (i + 100000) i` (through @_where),
  appends a unit axis, forms the mask `0 ≤ i ∧ i ≤ 99999` reduced by `and` over the unit axis, gathers the rows and
  selects the gathered row under the mask (a NaN elsewhere); then @main contracts the rows with the weights over the
  128 columns and adds the bias broadcast over the first two axes.  Twenty-three operations come from the calls
  (the callee's operations over the call's buffer record), four are @main's own.
-/
import proofs.«206693_g6700148982047_cont_9to1_m_1101_3_alg».proof.Proof.RefTerm
import Idealize.ShloMosaic.Lib.StableHlo.Run

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- @main's twenty-seven operations in order, the calls unfolded. -/
abbrev ops : List (HloOp τ sig (Elt F)) :=
  [ TRef.nullary main_call0.c (constantI S_ 32 0#32),
    TRef.unary main_call0.c main_call0.v0 (broadcastInDim S4096x50 ![] bcast_S_S4096x50),
    TRef.binary (.of main_arg0) main_call0.v0 main_call0.v1 (cmpi .slt),
    TRef.nullary main_call0.c_0 (constantI S_ 32 100000#32),
    TRef.unary main_call0.c_0 main_call0.v2 (broadcastInDim S4096x50 ![] bcast_S_S4096x50),
    TRef.binary (.of main_arg0) main_call0.v2 main_call0.v3 addi,
    TRef.ternary main_call0.v1 main_call0.v3 (.of main_arg0) main_call0.call0.v0 select,
    TRef.unary main_call0.call0.v0 main_call0.v5 (broadcastInDim S4096x50x1 ![0, 1] bcast_S4096x50_S4096x50x1_0_1),
    TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg1) main_call0.v5 main_call0.v13 (fun x i => Host.gather gather_S100000x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select,
    binary main_v0 main_arg2 main_v1 ((fun l r => Host.dotGeneral dot_S4096x50x128_S256x128_S4096x50x256_2_1_01_0_n_n none l r) : (⟨S4096x50x128, .f32⟩ : BufTy).Contents (Elt F) → (⟨S256x128, .f32⟩ : BufTy).Contents (Elt F) → (⟨S4096x50x256, .f32⟩ : BufTy).Contents (Elt F)),
    unary main_arg3 main_v2 (broadcastInDim S1x1x256 ![2] bcast_S256_S1x1x256_2 : (⟨S256, .f32⟩ : BufTy).Contents (Elt F) → (⟨S1x1x256, .f32⟩ : BufTy).Contents (Elt F)),
    unary main_v2 main_v3 (broadcastInDim S4096x50x256 ![0, 1, 2] bcast_S1x1x256_S4096x50x256_0_1_2 : (⟨S1x1x256, .f32⟩ : BufTy).Contents (Elt F) → (⟨S4096x50x256, .f32⟩ : BufTy).Contents (Elt F)),
    binary main_v1 main_v3 main_v4 (addf : (⟨S4096x50x256, .f32⟩ : BufTy).Contents (Elt F) → (⟨S4096x50x256, .f32⟩ : BufTy).Contents (Elt F) → (⟨S4096x50x256, .f32⟩ : BufTy).Contents (Elt F)) ]

set_option maxRecDepth 1024 in
/-- @main is that straight line: the callees' definitions unfolded at their calls, both sides are one chain of
    `hlo` steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., binary_bufs_sub ..⟩

/-- From any memory with zero counters every weakly fair execution of @main on the TensorCores terminates, and every
    final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as one term of the arguments -/

attribute [local irreducible] Host.reduce Host.gather in
set_option maxRecDepth 8192 in
/-- The fold at the result buffer is `refOut` of the contents of the four arguments: each operation's result at its own
    buffer is its function's value, and the typed references' casts are the identity at these literal references. -/
theorem after_v4 (V : Valuation τ sig (Elt F)) :
    after ops V (main_v4 : DevRef τ sig)
      = refOut (V (main_arg0 : DevRef τ sig)) (V (main_arg1 : DevRef τ sig)) (V (main_arg2 : DevRef τ sig))
          (V (main_arg3 : DevRef τ sig)) := by
  after_results_simp
  rfl

theorem after_arg0 (V : Valuation τ sig (Elt F)) : after ops V (main_arg0 : DevRef τ sig) = V (main_arg0 : DevRef τ sig) := by
  after_results
theorem after_arg1 (V : Valuation τ sig (Elt F)) : after ops V (main_arg1 : DevRef τ sig) = V (main_arg1 : DevRef τ sig) := by
  after_results
theorem after_arg2 (V : Valuation τ sig (Elt F)) : after ops V (main_arg2 : DevRef τ sig) = V (main_arg2 : DevRef τ sig) := by
  after_results
theorem after_arg3 (V : Valuation τ sig (Elt F)) : after ops V (main_arg3 : DevRef τ sig) = V (main_arg3 : DevRef τ sig) := by
  after_results

/-- Every weakly fair execution of @main terminates with the result at `refOut` of the arguments and the arguments
    unchanged. -/
theorem run_refOut (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v4).trans (after_v4 _), (h c main_arg0).trans (after_arg0 _),
      (h c main_arg1).trans (after_arg1 _), (h c main_arg2).trans (after_arg2 _), (h c main_arg3).trans (after_arg3 _)⟩)
    (run_main m ρ)

end Cert.RefSide

end
-- ==== Proof.LibTakeRows.lean ====
/-
  Two general facts about host operations read at an index, stated over any sizes.

  (1) Looking rows up in a table. `x[idx]` for a table `x : [N, D]` and an integer array `idx : [R, C]` lowers
  to a gather with offset axis 2, collapsed operand axis 0, start index map [0], the index vector on a trailing
  unit axis of the indices (`[R, C, 1]`) and slices of one whole row (`[1, D]`). `gather_rows_apply` reads it
  at `(r, c, d)`: the table at the row `idx[r, c, 0]` read as a signed integer and clamped into `[0, N − 1]`,
  column `d`. On the row axis the operand index is the clamped start alone (the axis is collapsed, so the result
  contributes no offset there); on the column axis no start is named, and the offset is the result's last
  coordinate.

  (2) An and-reduction all of whose operands are 1, started from 1, is 1 at every result index
  (`reduce_andi_of_all_one`): the left fold never leaves 1.
-/
import Idealize.ShloMosaic.Lib.ValueIdx
import Idealize.ShloMosaic.Lib.ReduceAll

noncomputable section

namespace Cert.TakeRows

open Idealize.ShloMosaic Idealize.ShloMosaic.ValueIdx

/-! ## A row gather read at an index -/

section Rows
variable {α : Type}

/-- The dimension numbers of a row lookup: operand `[N, D]`, start indices `[R, C, 1]`, result `[R, C, D]`;
    their conditions `wf` are decided on a program's literal shapes. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- THE ROW GATHER READ AT `(r, c, d)`: the table at row `idx[r, c, 0]`, read signed and clamped into
    `[0, N − 1]`, column `d`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (d : Fin D) :
    Host.gather (rowDims N D R C wf) x idx (ix3 r c d)
      = x (ix2 (⟨min (idx (ix3 r c (0 : Fin 1))).toInt.toNat (N - 1), by omega⟩ : Fin N) d) := by
  unfold Host.gather
  congr 1
  funext a
  refine Fin.ext ?_
  match a with
  | ⟨0, _⟩ =>
    show (rowDims N D R C wf).start (ix3 r c d) idx 0 + (rowDims N D R C wf).batchCoord (ix3 r c d) 0
        + (rowDims N D R C wf).offCoord (ix3 r c d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx (ix3 r c d) ⟨List.idxOf (0 : Fin 2) (rowDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims N D R C wf).start (ix3 r c d) idx 1 + (rowDims N D R C wf).batchCoord (ix3 r c d) 1
        + (rowDims N D R C wf).offCoord (ix3 r c d) 1 = d.val
    rw [GatherDims.batchCoord_eq_zero _ _ _ List.not_mem_nil]
    unfold GatherDims.start
    rw [dif_neg (show (1 : Fin 2) ∉ (rowDims N D R C wf).startIndexMap from
      fun h => absurd (show (1 : Nat) = 0 from congrArg Fin.val (List.mem_singleton.mp h)) Nat.one_ne_zero)]
    simp only [Nat.add_zero, Nat.zero_add]
    rfl

end Rows

/-! ## An and-reduction of ones -/

/-- A left fold by `and` from 1 over words that are all 1 is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_of_all_one f hf l

/-- A `stablehlo.reduce` by `and` from 1 of an array of ones is 1 at every result index. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_of_all_one x hx _

end Cert.TakeRows

end
-- ==== Proof.RefValue.lean ====
/-
  The reference's result term read at an index, under in-range indices.

  Where every index word `w` satisfies `0 ≤ w ≤ 99999` (read signed): the comparison `w < 0` fails, so the lookup index
  is `w` itself; both bounds of the mask hold, so the `and`-reduction over the unit axis is 1 everywhere and the select
  keeps the gathered row; the gather reads the table at row `w` clamped into `[0, 99999]`, which is `w`, the row the
  word names.  The contraction over the one contracting axis is a sum over the 128 columns, and the bias broadcast
  reads the bias at the last coordinate.  Term by term this is the shared specification's result.
-/
import proofs.«206693_g6700148982047_cont_9to1_m_1101_3_alg».proof.Proof.RefTerm
import proofs.«206693_g6700148982047_cont_9to1_m_1101_3_alg».proof.Proof.Spec
import proofs.«206693_g6700148982047_cont_9to1_m_1101_3_alg».proof.Proof.LibTakeRows
import Idealize.ShloMosaic.PureOps.Ideal.Laws
import Idealize.ShloMosaic.Lib.IdealHost
import Idealize.ShloMosaic.Lib.Pipeline.Value
import Idealize.ShloMosaic.Lib.ValueLayout
import Idealize.ShloMosaic.Lib.Affine

noncomputable section

open scoped BigOperators

namespace Cert.RefSide

open Cert.ReferenceIdeal Idealize.ShloMosaic Idealize.ShloMosaic.ValueIdx
open Cert.ReferenceIdeal.Facts₀

variable [Cert.ReferenceIdeal.Facts]

/-! ## The lookup index -/

/-- Where the word is not negative the lookup index is the word. -/
theorem selIdx_apply (idx : IVec S4096x50 32) (e : S4096x50.Idx) (h0 : 0 ≤ (idx e).toInt) : selIdx idx e = idx e := by
  unfold selIdx
  rw [select_apply]
  have hc : ¬ (cmpi .slt idx (broadcastInDim S4096x50 ![] bcast_S_S4096x50 (constantI S_ 32 0#32)) e = 1#1) := by
    show ¬ (IntOp.cmpi .slt (idx e) (broadcastInDim S4096x50 ![] bcast_S_S4096x50 (constantI S_ 32 0#32) e) = 1#1)
    rw [broadcastInDim_scalar_apply, constantI_apply, IntOp.cmpi_slt]
    have : (0#32 : BitVec 32).toInt = 0 := by decide
    omega
  rw [eq_zero_of_ne_one hc, select_zero]

/-- The start indices at `(b, l, u)` are the lookup index at `(b, l)`. -/
theorem idx3_apply (idx : IVec S4096x50 32) (i : S4096x50x1.Idx) : idx3 idx i = selIdx idx (ix2 (i 0) (i 1)) := by
  unfold idx3
  exact broadcastInDim_apply _ _ _ i (ix2 (i 0) (i 1)) (fun a => match a with | ⟨0, _⟩ => rfl | ⟨1, _⟩ => rfl)

/-! ## The mask -/

/-- Under in-range indices the mask is 1 everywhere. -/
theorem mask_apply (idx : IVec S4096x50 32) (hr : Cert.Spec.InRange idx) (j : S4096x50.Idx) : mask idx j = 1#1 := by
  unfold mask
  refine Cert.TakeRows.reduce_andi_of_all_one _ _ _ _ (fun i => ?_) (fun _ => rfl) j
  obtain ⟨h0, h1⟩ := hr (ix2 (i 0) (i 1))
  show IntOp.andi (IntOp.cmpi .sge (idx3 idx i) (broadcastInDim S4096x50x1 ![] bcast_S_S4096x50x1 (constantI S_ 32 0#32) i))
      (IntOp.cmpi .sle (idx3 idx i) (broadcastInDim S4096x50x1 ![0, 1, 2] bcast_S1x1x1_S4096x50x1_0_1_2
        (broadcastInDim S1x1x1 ![2] bcast_S1_S1x1x1_2 (constantI S1 32 99999#32)) i)) = 1#1
  rw [idx3_apply, selIdx_apply idx _ h0, broadcastInDim_scalar_apply, constantI_apply]
  have hb : broadcastInDim S4096x50x1 ![0, 1, 2] bcast_S1x1x1_S4096x50x1_0_1_2
      (broadcastInDim S1x1x1 ![2] bcast_S1_S1x1x1_2 (constantI S1 32 99999#32)) i = 99999#32 := by
    rw [broadcastInDim_apply _ _ _ i (ix3 (0 : Fin 1) (0 : Fin 1) (0 : Fin 1))
      (fun a => match a with | ⟨0, _⟩ => rfl | ⟨1, _⟩ => rfl | ⟨2, _⟩ => rfl)]
    rw [broadcastInDim_apply _ _ _ (ix3 (0 : Fin 1) (0 : Fin 1) (0 : Fin 1)) (ix1 (0 : Fin 1))
      (fun a => match a with | ⟨0, _⟩ => rfl)]
    rfl
  rw [hb]
  have e0 : (0#32 : BitVec 32).toInt = 0 := by decide
  have e1 : (99999#32 : BitVec 32).toInt = 99999 := by decide
  have c0 : IntOp.cmpi .sge (idx (ix2 (i 0) (i 1))) 0#32 = 1#1 := IntOp.cmpi_sge.mpr (by omega)
  have c1 : IntOp.cmpi .sle (idx (ix2 (i 0) (i 1))) 99999#32 = 1#1 := IntOp.cmpi_sle.mpr (by omega)
  rw [c0, c1]
  rfl

/-! ## The looked-up rows -/

/-- Under in-range indices the rows at `(b, l, k)` are the table at the row `indices[b, l]` names, column `k`. -/
theorem rows_apply {F : FTy → Type} [FloatOps F] (idx : IVec S4096x50 32) (tbl : FVec F S100000x128 .f32)
    (hr : Cert.Spec.InRange idx) (b : Fin 4096) (l : Fin 50) (k : Fin 128) :
    rows idx tbl (ix3 b l k) = tbl (ix2 (Cert.Spec.row (idx (ix2 b l))) k) := by
  obtain ⟨h0, h1⟩ := hr (ix2 b l)
  unfold rows
  rw [select_apply]
  have hm : broadcastInDim S4096x50x128 ![0, 1] bcast_S4096x50_S4096x50x128_0_1 (mask idx) (ix3 b l k) = 1#1 := by
    rw [broadcastInDim_apply _ _ _ (ix3 b l k) (ix2 b l) (fun a => match a with | ⟨0, _⟩ => rfl | ⟨1, _⟩ => rfl)]
    exact mask_apply idx hr _
  rw [hm, select_one]
  have hg := Cert.TakeRows.gather_rows_apply (N := 100000) (D := 128) (R := 4096) (C := 50) (by norm_num)
    gather_S100000x128_S4096x50x1_S4096x50x128_2_0_n_n_0_2_1128_wf tbl (idx3 idx) b l k
  have hi : idx3 idx (ix3 b l (0 : Fin 1)) = idx (ix2 b l) := by
    rw [idx3_apply]; exact selIdx_apply idx (ix2 b l) h0
  refine hg.trans (congrArg tbl (congrArg (fun r : Fin 100000 => ix2 r k) (Fin.ext ?_)))
  show min (idx3 idx (ix3 b l (0 : Fin 1))).toInt.toNat (100000 - 1) = (Cert.Spec.row (idx (ix2 b l))).val
  rw [hi, Cert.Spec.row_val_of_range _ h0 h1]
  have := BitVec.toInt_eq_toNat_cond (idx (ix2 b l))
  split at this <;> omega

/-! ## The contraction and the bias -/

/-- The dot's one contracting axis. -/
theorem dot_rank : dot_S4096x50x128_S256x128_S4096x50x256_2_1_01_0_n_n.contr.rank = 1 := rfl
theorem dot_size : dot_S4096x50x128_S256x128_S4096x50x256_2_1_01_0_n_n.contr.size ⟨0, by rw [dot_rank]; exact Nat.one_pos⟩ = 128 := rfl

/-- THE RESULT: under in-range indices the reference's term is the specification's result. -/
theorem refOut_eq_out (idx : IVec S4096x50 32) (tbl : FVec Ideal S100000x128 .f32) (W : FVec Ideal S256x128 .f32)
    (bias : FVec Ideal S256 .f32) (hr : Cert.Spec.InRange idx) :
    refOut idx tbl W bias = Cert.Spec.out idx tbl W bias := by
  funext j
  unfold refOut Cert.Spec.out
  rw [addf_apply]
  have hbias : broadcastInDim S4096x50x256 ![0, 1, 2] bcast_S1x1x256_S4096x50x256_0_1_2
      (broadcastInDim S1x1x256 ![2] bcast_S256_S1x1x256_2 bias) j = bias (ix1 (j 2)) :=
    (broadcastInDim_apply (s := S1x1x256) (t := S4096x50x256) ![0, 1, 2] bcast_S1x1x256_S4096x50x256_0_1_2 _ j
      (ix3 (0 : Fin 1) (0 : Fin 1) (j 2 : Fin 256))
      (fun a => match a with | ⟨0, _⟩ => rfl | ⟨1, _⟩ => rfl | ⟨2, _⟩ => rfl)).trans
    (broadcastInDim_apply (s := S256) (t := S1x1x256) ![2] bcast_S256_S1x1x256_2 bias
      (ix3 (0 : Fin 1) (0 : Fin 1) (j 2 : Fin 256)) (ix1 (j 2 : Fin 256)) (fun a => match a with | ⟨0, _⟩ => rfl))
  rw [hbias]
  refine congrArg (· + bias (ix1 (j 2))) ?_
  show FloatOps.dotGeneral dot_S4096x50x128_S256x128_S4096x50x256_2_1_01_0_n_n none .single (rows idx tbl) W j = _
  rw [Ideal.dotGeneral_apply]
  rw [← Equiv.sum_comp (contrEquiv1 dot_S4096x50x128_S256x128_S4096x50x256_2_1_01_0_n_n 128 dot_rank dot_size).symm]
  refine Finset.sum_congr rfl fun k _ => ?_
  have hl : dot_S4096x50x128_S256x128_S4096x50x256_2_1_01_0_n_n.lhsIdx j
      ((contrEquiv1 dot_S4096x50x128_S256x128_S4096x50x256_2_1_01_0_n_n 128 dot_rank dot_size).symm k) = ix3 (j 0 : Fin 4096) (j 1 : Fin 50) k := by
    funext a
    refine Fin.ext ?_
    match a with
    | ⟨0, _⟩ => rfl
    | ⟨1, _⟩ => rfl
    | ⟨2, _⟩ => exact contrEquiv1_symm_val _ 128 dot_rank dot_size k
  have hrr : dot_S4096x50x128_S256x128_S4096x50x256_2_1_01_0_n_n.rhsIdx j
      ((contrEquiv1 dot_S4096x50x128_S256x128_S4096x50x256_2_1_01_0_n_n 128 dot_rank dot_size).symm k) = ix2 (j 2 : Fin 256) k := by
    funext a
    refine Fin.ext ?_
    match a with
    | ⟨0, _⟩ => rfl
    | ⟨1, _⟩ => exact contrEquiv1_symm_val _ 128 dot_rank dot_size k
  rw [hl, hrr]
  exact congrArg (fun x => x * W (ix2 (j 2 : Fin 256) k)) (rows_apply idx tbl hr (j 0) (j 1) k)

end Cert.RefSide

end
-- ==== Proof.RefSide.lean ====
/-
  The reference's side of the claim: under in-range indices the reference terminates, faults nowhere, leaves its
  arguments unchanged and ends with its result array equal to the shared specification's result of the arguments.
  The run gives the result as one term of the arguments; read index by index, that term is the specification's.
-/
import proofs.«206693_g6700148982047_cont_9to1_m_1101_3_alg».proof.Proof.RefRun
import proofs.«206693_g6700148982047_cont_9to1_m_1101_3_alg».proof.Proof.RefValue

noncomputable section

namespace Cert.RefSide
open Idealize.ShloMosaic Idealize.SL.Sem Cert.ReferenceIdeal

/-- Under in-range indices the reference terminates, faults nowhere, leaves its arguments unchanged and ends with its result array equal to Cert.Spec.out of the arguments. -/
theorem run [Cert.ReferenceIdeal.Facts]
    (m : (ℓ : Loc nD τ sig) → Buf (Elt Ideal) ℓ) (g : Dev nD → PrngReg)
    (hr : ∀ c : Dev nD, Cert.Spec.InRange (m ((c.tc : Thread nD τ).loc main_arg0))) :
    θ_run (defs (F := Ideal)) (onTc (τ := τ) (main (F := Ideal))) ⟨m, fun _ => 0, g⟩ (fun r => ∀ c : Dev nD,
      r.2.mem ((c.tc : Thread nD τ).loc main_v4) = Cert.Spec.out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono
    (fun _ h c => ⟨((h c).1).trans (refOut_eq_out _ _ _ _ (hr c)), (h c).2⟩)
    (run_refOut m g)

end Cert.RefSide

end
-- ==== Proof.KernelSetup.lean ====
/-
  The kernel program as the SparseCore launch theorem sees it, and the resources its threads exchange.

  The program: @main reshapes the indices to [32, 50, 128]; one SparseCore call runs on 2 × 16 vector subcores, the
  subcore at coordinates (c, s) being worker `w = 2·s + c`: it copies slab `w` of the reshaped indices into its index
  scratch, then for each of 50 chunks gathers the 128 table rows the chunk's index words name into its row scratch and
  copies them out to rows [6400·w + 128·k, 6400·w + 128·k + 128) of the flat [204800, 128] array; @main then reshapes
  the bias to [1, 256] and runs one TensorCore pipeline of 64 points over the flat array.

  What a worker is handed: its own index slab (whole share: the slabs are disjoint), one of 32 read shares of the
  table, and its 50 output chunks; what it hands back: the same, the chunks now holding the looked-up rows.
-/
import proofs.«206693_g6700148982047_cont_9to1_m_1101_3_alg».proof.Defs
import proofs.«206693_g6700148982047_cont_9to1_m_1101_3_alg».proof.Proof.Spec
import proofs.«206693_g6700148982047_cont_9to1_m_1101_3_alg».proof.Proof.Gen.Kernel
import proofs.«206693_g6700148982047_cont_9to1_m_1101_3_alg».proof.Proof.Gen.Kernel.Skeleton
import proofs.«206693_g6700148982047_cont_9to1_m_1101_3_alg».proof.Proof.Gen.Kernel.Launch
import proofs.«206693_g6700148982047_cont_9to1_m_1101_3_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.KernelProof

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl
theorem bound_zero : grid0.bound 0 = 2 := rfl
theorem bound_one : grid0.bound 1 = 16 := rfl

/-! ## The resource algebra: the handshakes' rounds, the pipeline's rounds, the transfers' counters -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL
/-- The pipeline's rounds: the left factor of the right factor. -/
def EP : Emb UP (MT nD τ sig (HIx 1) (Elt F) ℕ UU ℕ) :=
  (Emb.inl : Emb UP (UP × Counters)).trans ((Emb.inr : Emb (UP × Counters) UU).trans
    (uEmb (nD := nD) (sig := sig) (Ix := HIx 1) (Val := Elt F) (Name := ℕ) (U := UU) (Lvl := ℕ)).toEmb)

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The buffers -/

variable (m : (ℓ : Loc nD τ sig) → Buf (Elt F) ℓ)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

/-- The reshaped indices: what @main's first operation leaves in the [32, 50, 128] array. -/
def idx3 [FloatOps F] (d : Dev nD) : Buf (Elt F) (v0Loc d) :=
  shapeCast S32x50x128 (m (a0Loc d) : IVec S4096x50 32) Facts₀.shapeCasts_S4096x50_S32x50x128
/-- The looked-up rows, flat: what the SparseCore call leaves in the [204800, 128] array. -/
def embF (d : Dev nD) : Buf (Elt F) (v1Loc d) :=
  Cert.Spec.emb (F := F) (m (a0Loc d) : IVec Cert.Spec.SIdx 32) (m (a1Loc d) : FVec F Cert.Spec.STbl .f32)
/-- The bias as one row: what @main's third operation leaves in the [1, 256] array. -/
def bias2 [FloatOps F] (d : Dev nD) : Buf (Elt F) (v2Loc d) :=
  shapeCast S1x256 (m (a3Loc d) : FVec F S256 .f32) Facts₀.shapeCasts_S256_S1x256

/-! ## A worker's pieces, spelt as its program slices them -/

/-- The worker at grid coordinates `L = (c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- Its number, `2·s + c`. -/
def widOf (L : grid0.Coords) : Fin 32 := ⟨2 * (L 1).val + (L 0).val, by
  have h0 : (L 0).val < 2 := (L 0).isLt
  have h1 : (L 1).val < 16 := (L 1).isLt
  omega⟩

abbrev v0W : Memref sig .scVector .hbm S32x50x128 .i32 := Memref.whole main_v0_scv
abbrev tblW : Memref sig .scVector .hbm S100000x128 .f32 := Memref.whole main_arg1_scv
abbrev v1W : Memref sig .scVector .hbm S204800x128 .f32 := Memref.whole main_v1_scv
abbrev sI : Memref sig .scVector .vmem S50x128 .i32 := Memref.whole cc0_scratch0
abbrev sR : Memref sig .scVector .vmem S128x128 .f32 := Memref.whole cc0_scratch1

variable [FloatOps F]

/-- Slab `w` of the reshaped indices, squeezed to [50, 128], as the worker's first copy names it. -/
abbrev idxSlab (L : grid0.Coords) : Memref sig .scVector .hbm S50x128 .i32 :=
  ((v0W : Memref sig .scVector .hbm S32x50x128 .i32).slice (Rect.unit (s := S32x50x128) (k0_off1 L) S1x50x128.size (Facts₀.k0_off1_inb L)) (fun _ => rfl)).squeeze S50x128 Facts₀.squeezes_S1x50x128_S50x128
/-- Output chunk `k` of worker `L`: 128 whole rows of the flat array. -/
abbrev outChunk (L : grid0.Coords) (k : Fin k0_t1_loop.trips) : Memref sig .scVector .hbm S128x128 .f32 :=
  (v1W : Memref sig .scVector .hbm S204800x128 .f32).slice (Rect.unit (s := S204800x128) (k0_off3 L k) S128x128.size (Facts₀.k0_off3_inb L k)) (fun _ => rfl)

abbrev idxSlabSet (L : grid0.Coords) : Finset S32x50x128.Idx := (idxSlab L).view.set
abbrev outChunkSet (L : grid0.Coords) (k : Fin k0_t1_loop.trips) : Finset S204800x128.Idx := (outChunk L k).view.set

local notation "𝕄" => MT nD τ sig (HIx 1) (Elt F) ℕ UU ℕ

/-- The read share of the table worker `L` is lent. -/
abbrev tblShare (L : grid0.Coords) : PosShare TreeShare := Transfers.shareTok fullShare 32 (widOf L)

/-- What worker `L` of device `d` is handed: its index slab, its read share of the table, its 50 output chunks at
    the contents `f`. -/
def tileRes (d : Dev nD) (L : grid0.Coords) (f : Buf (Elt F) (v1Loc d)) : sProp 𝕄 :=
  iprop((v0Loc d ↦[idxSlabSet L]{fullShare} idx3 m d)
    ∗ (a1Loc d ↦{tblShare L} m (a1Loc d))
    ∗ bigSep Finset.univ fun k : Fin k0_t1_loop.trips => v1Loc d ↦[outChunkSet L k]{fullShare} f)

/-- The one call: every worker is handed `tileRes` at the array's launch contents and hands it back at the looked-up
    rows; a SparseCore's share is its 16 workers'. Neither side consumes anything of the launch's. -/
def P : (K (F := F)).Pay (nD := nD) (Val := Elt F) (Name := ℕ) (U := UU) where
  st := fun q d c => match q with
    | 0 => bigSep Finset.univ fun i : Fin 16 => tileRes m d (coordsV (Fin.cast (by rfl) c) i) (m (v1Loc d))
  dn := fun q d c => match q with
    | 0 => bigSep Finset.univ fun i : Fin 16 => tileRes m d (coordsV (Fin.cast (by rfl) c) i) (embF m d)
  go := fun q d c i => match q with
    | 0 => tileRes m d (coordsV (Fin.cast (by rfl) c) (Fin.cast (by rfl) i)) (m (v1Loc d))
  td := fun q d c i => match q with
    | 0 => tileRes m d (coordsV (Fin.cast (by rfl) c) (Fin.cast (by rfl) i)) (embF m d)
  x := fun _ _ => iprop(emp)

end Cert.KernelProof

end
-- ==== Proof.KernelSplit.lean ====
/-
  How the three arrays divide among the 32 workers, and come together again.

  Worker `(c, s)` has number `w = 2·s + c`.  The reshaped [32, 50, 128] index array is cut along its first axis into 32
  slabs, slab `w` being worker `w`'s; the flat [204800, 128] array is cut along its first axis into 1600 chunks of 128
  rows, chunk `50·w + k` being worker `w`'s `k`-th; the table is not cut: its whole share is divided into a remainder and
  32 read shares, share `w` being worker `w`'s.  Slabs are pairwise disjoint and cover the index array, chunks are
  pairwise disjoint and cover the flat array, and `(c, s) ↦ 2·s + c` and `(w, k) ↦ 50·w + k` are bijections: so the three
  arrays held whole are exactly the remainder of the table beside everything the 2 × 16 workers hold, whatever the flat
  array's contents.
-/
import proofs.«206693_g6700148982047_cont_9to1_m_1101_3_alg».proof.Proof.KernelSetup

noncomputable section

namespace Cert.KernelProof

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

local notation "𝕄" => MT nD τ sig (HIx 1) (Elt F) ℕ UU ℕ

/-! ## Numbering the workers and the chunks -/

/-- The loop over a worker's chunks has 50 trips. -/
theorem trips_eq : k0_t1_loop.trips = 50 := by decide

omit [FloatOps F] in
/-- The grid's two coordinates range over 2 and 16 values. -/
theorem nCore_b : (K (F := F)).nCore 0 = grid0.bound 0 := rfl
omit [FloatOps F] in
theorem nSub_b : (K (F := F)).nSub 0 = grid0.bound 1 := rfl

/-- `(c, s) ↦ 2·s + c` is a bijection from 2 × 16 onto 32. -/
def wEquiv : Fin (grid0.bound 0) × Fin (grid0.bound 1) ≃ Fin 32 where
  toFun x := ⟨2 * x.2.val + x.1.val, by
    have h0 : x.1.val < 2 := x.1.isLt
    have h1 : x.2.val < 16 := x.2.isLt
    omega⟩
  invFun w := (⟨w.val % 2, (Nat.mod_lt _ (by norm_num) : w.val % 2 < 2)⟩, ⟨w.val / 2, (by have := w.isLt; omega : w.val / 2 < 16)⟩)
  left_inv := fun ⟨c, s⟩ => by
    have h0 : c.val < 2 := c.isLt
    exact Prod.ext
      (Fin.ext (by show (2 * s.val + c.val) % 2 = c.val; omega))
      (Fin.ext (by show (2 * s.val + c.val) / 2 = s.val; omega))
  right_inv := fun w => Fin.ext (by show 2 * (w.val / 2) + w.val % 2 = w.val; omega)

/-- `(w, k) ↦ 50·w + k` is a bijection from 32 × 50 onto 1600. -/
def chunkEquiv : Fin 32 × Fin k0_t1_loop.trips ≃ Fin 1600 where
  toFun x := ⟨50 * x.1.val + x.2.val, by have := x.1.isLt; have : x.2.val < 50 := trips_eq ▸ x.2.isLt; omega⟩
  invFun j := (⟨j.val / 50, by have := j.isLt; omega⟩, ⟨j.val % 50, by have h := trips_eq; omega⟩)
  left_inv := fun ⟨w, k⟩ => by
    have hk : k.val < 50 := trips_eq ▸ k.isLt
    exact Prod.ext
      (Fin.ext (by show (50 * w.val + k.val) / 50 = w.val; omega))
      (Fin.ext (by show (50 * w.val + k.val) % 50 = k.val; omega))
  right_inv := fun j => Fin.ext (by show 50 * (j.val / 50) + j.val % 50 = j.val; omega)

omit [FloatOps F] in
/-- A family over the 32 worker numbers, regrouped by coordinates. -/
theorem regroup (Φ : Fin 32 → sProp 𝕄) :
    bigSep Finset.univ Φ
      = bigSep Finset.univ fun c : Fin (grid0.bound 0) => bigSep Finset.univ fun s : Fin (grid0.bound 1) => Φ (widOf (coordsV c s)) := by
  rw [bigSep_univ_equiv wEquiv Φ, bigSep_univ_prod]
  exact bigSep_congr fun c _ => bigSep_congr fun s _ => congrArg Φ (Fin.ext rfl)

/-! ## The index slabs -/

theorem hdivI : 32 ∣ S32x50x128.size 0 := ⟨1, rfl⟩
/-- Slab `w`: the `w`-th of 32 parts along the first axis. -/
abbrev slab (w : Fin 32) : Rect S32x50x128 := Rect.part (s := S32x50x128) (a₀ := 0) hdivI w
abbrev slabSet (w : Fin 32) : Finset S32x50x128.Idx := (slab w).set

/-- The rectangle a worker's first copy slices is its slab. -/
theorem slabRect_eq (L : grid0.Coords) :
    Rect.unit (s := S32x50x128) (k0_off1 L) S1x50x128.size (Facts₀.k0_off1_inb L) = slab (widOf L) := by
  unfold slab Rect.part Rect.block
  congr 1 <;> funext a
  · rw [k0_off1_eq]
    match a with
    | 0 => simp [Shape.partIx, Shape.partSize, widOf]
    | 1 => simp [Shape.partIx, Shape.partSize]
    | 2 => simp [Shape.partIx, Shape.partSize]
  · match a with
    | 0 => simp [Shape.partSize]
    | 1 => simp [Shape.partSize]
    | 2 => simp [Shape.partSize]

theorem idxSlabSet_eq (L : grid0.Coords) : idxSlabSet L = slabSet (widOf L) := by
  have e : ((v0W : Memref sig .scVector .hbm S32x50x128 .i32).view.slice
        (Rect.unit (s := S32x50x128) (k0_off1 L) S1x50x128.size (Facts₀.k0_off1_inb L))).set
      = ((v0W : Memref sig .scVector .hbm S32x50x128 .i32).view.slice (slab (widOf L))).set :=
    by rw [slabRect_eq]
  show (((v0W : Memref sig .scVector .hbm S32x50x128 .i32).view.slice
      (Rect.unit (s := S32x50x128) (k0_off1 L) S1x50x128.size (Facts₀.k0_off1_inb L))).reshape S50x128
        Facts₀.squeezes_S1x50x128_S50x128.numel_eq).set = _
  rw [View.set_reshape]
  exact e.trans (View.set_slice_whole _ _)

theorem slabs_disjoint : ∀ i ∈ (Finset.univ : Finset (Fin 32)), ∀ j ∈ (Finset.univ : Finset (Fin 32)), i ≠ j → Disjoint (slabSet i) (slabSet j) :=
  fun _ _ _ _ h => Rect.part_disjoint hdivI h
theorem slabs_cover : (Finset.univ : Finset (Fin 32)).biUnion slabSet = Finset.univ := Rect.biUnion_part hdivI

omit [FloatOps F] in
/-- The index array whole, at any contents, is its 32 slabs. -/
theorem idx_slabs (d : Dev nD) (g : Buf (Elt F) (v0Loc d)) :
    (v0Loc d ↦{fullShare} g : sProp 𝕄) = bigSep Finset.univ fun w : Fin 32 => v0Loc d ↦[slabSet w]{fullShare} g := by
  rw [← pointsTo_biUnion Finset.univ (ℓ := v0Loc d) slabSet slabs_disjoint, slabs_cover]; try rfl

/-- … and so is what the 2 × 16 workers hold of it. -/
theorem idx_pieces (d : Dev nD) (g : Buf (Elt F) (v0Loc d)) :
    (v0Loc d ↦{fullShare} g : sProp 𝕄)
      = bigSep Finset.univ fun c : Fin (grid0.bound 0) => bigSep Finset.univ fun s : Fin (grid0.bound 1) => v0Loc d ↦[idxSlabSet (coordsV c s)]{fullShare} g := by
  rw [idx_slabs d g, regroup]
  exact bigSep_congr fun c _ => bigSep_congr fun s _ => by rw [idxSlabSet_eq]

/-! ## The output chunks -/

theorem hdivO : 1600 ∣ S204800x128.size 0 := ⟨128, rfl⟩
/-- Chunk `j`: the `j`-th of 1600 parts of 128 rows along the first axis. -/
abbrev chunk (j : Fin 1600) : Rect S204800x128 := Rect.part (s := S204800x128) (a₀ := 0) hdivO j
abbrev chunkSet (j : Fin 1600) : Finset S204800x128.Idx := (chunk j).set

/-- The rectangle a worker's `k`-th copy-out slices is chunk `50·w + k`. -/
theorem chunkRect_eq (L : grid0.Coords) (k : Fin k0_t1_loop.trips) :
    Rect.unit (s := S204800x128) (k0_off3 L k) S128x128.size (Facts₀.k0_off3_inb L k) = chunk (chunkEquiv (widOf L, k)) := by
  unfold chunk Rect.part Rect.block
  congr 1 <;> funext a
  · rw [k0_off3_eq]
    match a with
    | 0 =>
      show 12800 * (L 1).val + 6400 * (L 0).val + 128 * k.val
        = S204800x128.partIx 0 (50 * (2 * (L 1).val + (L 0).val) + k.val) 0 * S204800x128.partSize 0 1600 0
      simp [Shape.partIx, Shape.partSize]; omega
    | 1 => simp [Shape.partIx, Shape.partSize]
  · match a with
    | 0 => simp [Shape.partSize]
    | 1 => simp [Shape.partSize]

theorem outChunkSet_eq (L : grid0.Coords) (k : Fin k0_t1_loop.trips) : outChunkSet L k = chunkSet (chunkEquiv (widOf L, k)) := by
  show ((v1W : Memref sig .scVector .hbm S204800x128 .f32).view.slice
      (Rect.unit (s := S204800x128) (k0_off3 L k) S128x128.size (Facts₀.k0_off3_inb L k))).set = _
  rw [chunkRect_eq]
  exact View.set_slice_whole _ _

theorem chunks_disjoint : ∀ i ∈ (Finset.univ : Finset (Fin 1600)), ∀ j ∈ (Finset.univ : Finset (Fin 1600)), i ≠ j → Disjoint (chunkSet i) (chunkSet j) :=
  fun _ _ _ _ h => Rect.part_disjoint hdivO h
theorem chunks_cover : (Finset.univ : Finset (Fin 1600)).biUnion chunkSet = Finset.univ := Rect.biUnion_part hdivO

omit [FloatOps F] in
/-- The flat array whole, at any contents, is its 1600 chunks. -/
theorem out_chunks (d : Dev nD) (f : Buf (Elt F) (v1Loc d)) :
    (v1Loc d ↦{fullShare} f : sProp 𝕄) = bigSep Finset.univ fun j : Fin 1600 => v1Loc d ↦[chunkSet j]{fullShare} f := by
  rw [← pointsTo_biUnion Finset.univ (ℓ := v1Loc d) chunkSet chunks_disjoint, chunks_cover]; try rfl

/-- … and so is what the 2 × 16 workers hold of it, 50 chunks each. -/
theorem out_pieces (d : Dev nD) (f : Buf (Elt F) (v1Loc d)) :
    (v1Loc d ↦{fullShare} f : sProp 𝕄)
      = bigSep Finset.univ fun c : Fin (grid0.bound 0) => bigSep Finset.univ fun s : Fin (grid0.bound 1) =>
          bigSep Finset.univ fun k : Fin k0_t1_loop.trips => v1Loc d ↦[outChunkSet (coordsV c s) k]{fullShare} f := by
  rw [out_chunks d f, bigSep_univ_equiv chunkEquiv, bigSep_univ_prod, regroup]
  exact bigSep_congr fun c _ => bigSep_congr fun s _ => bigSep_congr fun k _ => by rw [outChunkSet_eq]

/-! ## The table's read shares -/

omit [FloatOps F] in
/-- The table whole, at any contents, is the remainder and the 32 read shares. -/
theorem tbl_tokens (d : Dev nD) (g : Buf (Elt F) (a1Loc d)) :
    (a1Loc d ↦{fullShare} g : sProp 𝕄)
      = iprop((a1Loc d ↦{Transfers.shareDrop fullShare 32} g)
          ∗ bigSep Finset.univ fun i : Fin 32 => a1Loc d ↦{Transfers.shareTok fullShare 32 i} g) :=
  BI.equiv_iff.mp ⟨Transfers.pointsTo_toks_split fullShare 32, Transfers.pointsTo_toks_join fullShare 32⟩

/-- … the read shares being what the 2 × 16 workers hold of it. -/
theorem tbl_pieces (d : Dev nD) (g : Buf (Elt F) (a1Loc d)) :
    (bigSep Finset.univ fun i : Fin 32 => (a1Loc d ↦{Transfers.shareTok fullShare 32 i} g : sProp 𝕄))
      = bigSep Finset.univ fun c : Fin (grid0.bound 0) => bigSep Finset.univ fun s : Fin (grid0.bound 1) => a1Loc d ↦{tblShare (coordsV c s)} g :=
  regroup (fun i => a1Loc d ↦{Transfers.shareTok fullShare 32 i} g)

/-! ## The three arrays whole are the table's remainder and the workers' pieces -/

omit [FloatOps F] in
/-- Four resources, the second taken out of its pair and put first. -/
theorem sep_rearrange (A B C D : sProp 𝕄) : (iprop(A ∗ (B ∗ C) ∗ D) : sProp 𝕄) = iprop(B ∗ A ∗ C ∗ D) := by
  have h : (iprop(A ∗ (B ∗ C) ∗ D) : sProp 𝕄) ⊣⊢ iprop(B ∗ A ∗ C ∗ D) := by
    constructor
    · iintro ⟨H0, ⟨Hd, Ht⟩, H1⟩
      isplitl [Hd]; · iexact Hd
      isplitl [H0]; · iexact H0
      isplitl [Ht]; · iexact Ht
      iexact H1
    · iintro ⟨Hd, H0, Ht, H1⟩
      isplitl [H0]; · iexact H0
      isplitl [Hd Ht]
      · isplitl [Hd]; · iexact Hd
        iexact Ht
      iexact H1
  exact BI.equiv_iff.mp ⟨h.1, h.2⟩

/-- What one SparseCore's 16 workers hold together, the flat array at contents `f`. -/
abbrev coreRes (d : Dev nD) (c : Fin (grid0.bound 0)) (f : Buf (Elt F) (v1Loc d)) : sProp 𝕄 :=
  bigSep Finset.univ fun s : Fin (grid0.bound 1) => tileRes m d (coordsV c s) f

theorem pieces (d : Dev nD) (f : Buf (Elt F) (v1Loc d)) :
    (iprop((v0Loc d ↦{fullShare} idx3 m d) ∗ (a1Loc d ↦{fullShare} m (a1Loc d)) ∗ (v1Loc d ↦{fullShare} f)) : sProp 𝕄)
      = iprop((a1Loc d ↦{Transfers.shareDrop fullShare 32} m (a1Loc d)) ∗ bigSep Finset.univ fun c : Fin (grid0.bound 0) => coreRes m d c f) := by
  unfold coreRes tileRes
  rw [bigSep_congr (fun c _ => bigSep_sep' _ _ _), bigSep_sep', bigSep_congr (fun c _ => bigSep_sep' _ _ _), bigSep_sep',
    ← idx_pieces, ← tbl_pieces, ← out_pieces, tbl_tokens]
  exact sep_rearrange _ _ _ _

/-! ## The handshake payloads, spelt out -/

theorem P_st (d : Dev nD) (c : Fin ((K (F := F)).nCore 0)) :
    (P m).st 0 d c = coreRes m d (Fin.cast nCore_b c) (m (v1Loc d)) := rfl
theorem P_dn (d : Dev nD) (c : Fin ((K (F := F)).nCore 0)) :
    (P m).dn 0 d c = coreRes m d (Fin.cast nCore_b c) (embF m d) := rfl
theorem P_go (d : Dev nD) (c : Fin ((K (F := F)).nCore 0)) (i : Fin ((K (F := F)).nSub 0)) :
    (P m).go 0 d c i = tileRes m d (coordsV (Fin.cast nCore_b c) (Fin.cast nSub_b i)) (m (v1Loc d)) := rfl
theorem P_td (d : Dev nD) (c : Fin ((K (F := F)).nCore 0)) (i : Fin ((K (F := F)).nSub 0)) :
    (P m).td 0 d c i = tileRes m d (coordsV (Fin.cast nCore_b c) (Fin.cast nSub_b i)) (embF m d) := rfl

omit [FloatOps F] in
/-- A family over a SparseCore's 16 workers, indexed as the launch indexes its tiles. -/
theorem bigSep_tiles (Φ : Fin (grid0.bound 1) → sProp 𝕄) :
    (bigSep Finset.univ fun i : Fin ((K (F := F)).nSub 0) => Φ (Fin.cast nSub_b i)) = bigSep Finset.univ Φ :=
  bigSep_congr fun _ _ => congrArg Φ (Fin.ext rfl)

omit [FloatOps F] in
/-- A family over the 2 SparseCores, indexed as the launch indexes them. -/
theorem bigSep_cores (Φ : Fin (grid0.bound 0) → sProp 𝕄) :
    (bigSep Finset.univ fun c : Fin ((K (F := F)).nCore 0) => Φ (Fin.cast nCore_b c)) = bigSep Finset.univ Φ :=
  bigSep_congr fun _ _ => congrArg Φ (Fin.ext rfl)

/-! ## Split, join, and a SparseCore's share among its tiles -/

theorem split_all (d : Dev nD) :
    iprop((v0Loc d ↦{fullShare} idx3 m d) ∗ (a1Loc d ↦{fullShare} m (a1Loc d)) ∗ (v1Loc d ↦{fullShare} m (v1Loc d)))
      ⊢ (iprop((a1Loc d ↦{Transfers.shareDrop fullShare 32} m (a1Loc d))
          ∗ bigSep Finset.univ fun c : Fin ((K (F := F)).nCore 0) => (P m).st 0 d c) : sProp 𝕄) := by
  rw [pieces m d (m (v1Loc d)), bigSep_congr (fun c _ => P_st m d c), bigSep_cores (fun c => coreRes m d c (m (v1Loc d)))]

theorem join_all (d : Dev nD) :
    iprop((a1Loc d ↦{Transfers.shareDrop fullShare 32} m (a1Loc d))
          ∗ bigSep Finset.univ fun c : Fin ((K (F := F)).nCore 0) => (P m).dn 0 d c)
      ⊢ (iprop((v0Loc d ↦{fullShare} idx3 m d) ∗ (a1Loc d ↦{fullShare} m (a1Loc d)) ∗ (v1Loc d ↦{fullShare} embF m d)) : sProp 𝕄) := by
  rw [pieces m d (embF m d), bigSep_congr (fun c _ => P_dn m d c), bigSep_cores (fun c => coreRes m d c (embF m d))]

theorem vecSplit : (K (F := F)).VecSplit' (P m) 0 := by
  intro d c
  rw [P_st, P_dn, bigSep_congr (fun i _ => P_go m d c i), bigSep_congr (fun i _ => P_td m d c i),
    bigSep_tiles (fun s => tileRes m d (coordsV (Fin.cast nCore_b c) s) (m (v1Loc d))),
    bigSep_tiles (fun s => tileRes m d (coordsV (Fin.cast nCore_b c) s) (embF m d))]
  iintro H; imodintro
  isplitl [H]; · iexact H
  iintro H; iexact H

end Cert.KernelProof

end
-- ==== Proof.KernelIndex.lean ====
/-
  The reshaped arrays read at an index.

  A reshape keeps the row-major position.  The indices [4096, 50] reshaped to [32, 50, 128]: position
  `6400·w + 128·k + j` of the flat order is entry `(w, k, j)` of the one and entry `(p / 50, p % 50)` of the other.
  The looked-up rows at flat row `p` are the table row that index word names.  The bias [256] reshaped to [1, 256]
  reads the same entry.
-/
import proofs.«206693_g6700148982047_cont_9to1_m_1101_3_alg».proof.Proof.KernelSetup
import Idealize.ShloMosaic.Lib.Pipeline.Value
import Idealize.ShloMosaic.Lib.ValueLayout
import Idealize.ShloMosaic.Lib.ValueIdx

noncomputable section

namespace Cert.KernelProof

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

local notation "𝕄" => MT nD τ sig (HIx 1) (Elt F) ℕ UU ℕ

/-- The flat position of entry `(w, k, j)` of the [32, 50, 128] array is below 204800. -/
theorem flat_lt (w : Fin 32) (k : Fin 50) (j : Fin 128) : 6400 * w.val + 128 * k.val + j.val < 204800 := by
  have := w.isLt; have := k.isLt; have := j.isLt; omega

/-- The reshaped indices at `(w, k, j)`: the index array at the batch row and history position of flat position
    `6400·w + 128·k + j`. -/
theorem idx3_apply (d : Dev nD) (w : Fin 32) (k : Fin 50) (j : Fin 128) :
    (idx3 m d : IVec S32x50x128 32) (ValueIdx.ix3 w k j)
      = (m (a0Loc d) : IVec Cert.Spec.SIdx 32) (ValueIdx.ix2 (Cert.Spec.batchOf ⟨6400 * w.val + 128 * k.val + j.val, flat_lt w k j⟩)
          (Cert.Spec.histOf ⟨6400 * w.val + 128 * k.val + j.val, flat_lt w k j⟩)) := by
  have hw := w.isLt; have hk := k.isLt; have hj := j.isLt
  unfold idx3
  refine shapeCast_apply _ _ (ValueIdx.ix3 w k j) (ValueIdx.ix2 (Cert.Spec.batchOf ⟨6400 * w.val + 128 * k.val + j.val, flat_lt w k j⟩)
      (Cert.Spec.histOf ⟨6400 * w.val + 128 * k.val + j.val, flat_lt w k j⟩)) ?_
  rw [Shape.rowMajor_val_two, Shape.rowMajor_val_three]
  show (6400 * w.val + 128 * k.val + j.val) / 50 * 50 + (6400 * w.val + 128 * k.val + j.val) % 50 = (w.val * 50 + k.val) * 128 + j.val
  omega

/-- The looked-up rows at flat row `6400·w + 128·k + j`: the table row the reshaped index word at `(w, k, j)` names. -/
theorem embF_apply (d : Dev nD) (w : Fin 32) (k : Fin 50) (j : Fin 128) (col : Fin 128) :
    (embF m d : FVec F S204800x128 .f32) (ValueIdx.ix2 (⟨6400 * w.val + 128 * k.val + j.val, flat_lt w k j⟩ : Fin 204800) col)
      = (m (a1Loc d) : FVec F Cert.Spec.STbl .f32) (ValueIdx.ix2 (Cert.Spec.row ((idx3 m d : IVec S32x50x128 32) (ValueIdx.ix3 w k j))) col) := by
  rw [idx3_apply]
  rfl

/-- The bias row at `(0, h)` is the bias at `h`. -/
theorem bias2_apply (d : Dev nD) (h : Fin 256) :
    (bias2 m d : FVec F S1x256 .f32) (ValueIdx.ix2 (0 : Fin 1) h) = (m (a3Loc d) : FVec F S256 .f32) (ValueIdx.ix1 h) := by
  unfold bias2
  refine shapeCast_apply _ _ (ValueIdx.ix2 (0 : Fin 1) h) (ValueIdx.ix1 h) ?_
  rw [Shape.rowMajor_val_one, Shape.rowMajor_val_two]
  show h.val = 0 * 256 + h.val
  omega

/-- In-range indices stay in range through the reshape. -/
theorem idx3_inRange (d : Dev nD) (hr : Cert.Spec.InRange (m (a0Loc d) : IVec Cert.Spec.SIdx 32)) (i : S32x50x128.Idx) :
    0 ≤ ((idx3 m d : IVec S32x50x128 32) i).toInt ∧ ((idx3 m d : IVec S32x50x128 32) i).toInt ≤ 99999 := by
  have e : i = ValueIdx.ix3 (i 0 : Fin 32) (i 1 : Fin 50) (i 2 : Fin 128) := ValueIdx.eq_ix3 i
  have h := (congrArg (idx3 m d : IVec S32x50x128 32) e).trans (idx3_apply m d (i 0) (i 1) (i 2))
  rw [h]
  exact hr _

end Cert.KernelProof

end
-- ==== Proof.KernelTile.lean ====
/-
  The task of one vector subcore: the body obligation of the SparseCore call.

  Worker `w = 2·s + c` copies slab `w` of the reshaped indices into its index scratch and waits for the copy; then, for
  each of 50 trips `k`, it gathers the 128 table rows that row `k` of the index scratch names into its row scratch,
  waits, copies the row scratch out to rows [6400·w + 128·k, 6400·w + 128·k + 128) of the flat array, and waits.  One
  copy at a time per semaphore, each waited for before the next is issued on it: the counters protocol that needs no
  schedule.

  The value is carried in the loop's invariant: before trip `n` the chunks below `n` hold the looked-up rows and the
  others their entry contents.  After the gather the row scratch holds, at `(j, col)`, the table row that the index
  word at `(w, k, j)` names, at column `col`; that word is in [0, 99999], so it names the row of its own value, and the
  flat row `6400·w + 128·k + j` of the looked-up rows is exactly that table row.  A chunk is held on its own elements
  at one whole-array function, so what the write-out leaves is rewritten to the looked-up rows on those elements.
-/
import proofs.«206693_g6700148982047_cont_9to1_m_1101_3_alg».proof.Proof.KernelSetup
import proofs.«206693_g6700148982047_cont_9to1_m_1101_3_alg».proof.Proof.KernelIndex
import Idealize.ShloMosaic.Lib.SparseCore.Stream
import Idealize.ShloMosaic.Lib.Exec

noncomputable section

namespace Cert.KernelProof

open Cert.Kernel Cert.Kernel.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- The launch's decided facts about the launch semaphores and the signature. -/
theorem factsK : (K (F := F)).Facts := by
  refine ⟨?_, ?_, ?_, ?_, ?_, ?_, fun _ => rfl⟩
  · show sc_start ≠ sc_taskDone; decide
  · show (SemLoc.reg sc_start : SemLoc sig).isScoped .scScalar = false; decide
  · show (SemLoc.reg sc_taskDone : SemLoc sig).isScoped .scScalar = false; decide
  · show (SemLoc.reg sc_go : SemLoc sig).isScoped .scVector = false; decide
  · show (SemLoc.reg sc_done : SemLoc sig).isScoped .tc = false; decide
  · show ∀ (b : DevRef τ sig) (c : Fin τ.nSC), b.owner = .sc c → sig.taskShared b.table b.idx = false; decide

/-! ## Members of a family taken out by name -/

section Take

variable {M : Type} [URA M] {I : Type} [DecidableEq I]

theorem bigSep_take2 {s : Finset I} {a b : I} (ha : a ∈ s) (hb : b ∈ s) (hab : a ≠ b) {Φ : I → sProp M} :
    bigSep s Φ = iprop(Φ a ∗ Φ b ∗ bigSep ((s.erase a).erase b) Φ) := by
  rw [SparseCore.bigSep_erase' ha, SparseCore.bigSep_erase' (Finset.mem_erase.mpr ⟨hab.symm, hb⟩)]

theorem bigSep_take3 {s : Finset I} {a b c : I} (ha : a ∈ s) (hb : b ∈ s) (hc : c ∈ s) (hab : a ≠ b) (hac : a ≠ c) (hbc : b ≠ c)
    {Φ : I → sProp M} :
    bigSep s Φ = iprop(Φ a ∗ Φ b ∗ Φ c ∗ bigSep (((s.erase a).erase b).erase c) Φ) := by
  rw [SparseCore.bigSep_erase' ha, SparseCore.bigSep_erase' (Finset.mem_erase.mpr ⟨hab.symm, hb⟩),
    SparseCore.bigSep_erase' (Finset.mem_erase.mpr ⟨hbc.symm, Finset.mem_erase.mpr ⟨hac.symm, hc⟩⟩)]

end Take

/-! ## The worker's thread, its three semaphore cells, its two scratch buffers -/

abbrev tileC (L : grid0.Coords) : Fin τ.nSC := (L 0).castLE hcore0
abbrev tileS (L : grid0.Coords) : Fin τ.nSub := (L 1).castLE hsub0
abbrev tileThr (d : Dev nD) (L : grid0.Coords) : Thread nD τ := V d (tileC L) (tileS L)

/-- The gather's semaphore, the index copy's, the write-out's. -/
abbrev gCell (d : Dev nD) (L : grid0.Coords) : GSem nD τ sig := (tileThr d L, .dma cc0_scratch2.sem)
abbrev iCell (d : Dev nD) (L : grid0.Coords) : GSem nD τ sig := (tileThr d L, .dma cc0_scoped0.sem)
abbrev oCell (d : Dev nD) (L : grid0.Coords) : GSem nD τ sig := (tileThr d L, .dma cc0_scoped1.sem)

abbrev restCells (d : Dev nD) (L : grid0.Coords) : Finset (GSem nD τ sig) :=
  (((ownCells (tileThr d L)).erase (gCell d L)).erase (iCell d L)).erase (oCell d L)

theorem ownSems0_cells (d : Dev nD) (L : grid0.Coords) :
    (ownSems0 (tileThr d L) : sProp 𝕄)
      = iprop(semVal (gCell d L) 0 ∗ semVal (iCell d L) 0 ∗ semVal (oCell d L) 0 ∗ bigSep (restCells d L) fun g => semVal g 0) := by
  unfold SparseCore.Cfg.ownSems0
  refine bigSep_take3 ?_ ?_ ?_ ?_ ?_ ?_
  · exact mem_ownCells.mpr ⟨rfl, by show (SemLoc.dma cc0_scratch2.sem : SemLoc sig).isScoped .scVector = true; decide⟩
  · exact mem_ownCells.mpr ⟨rfl, by show (SemLoc.dma cc0_scoped0.sem : SemLoc sig).isScoped .scVector = true; decide⟩
  · exact mem_ownCells.mpr ⟨rfl, by show (SemLoc.dma cc0_scoped1.sem : SemLoc sig).isScoped .scVector = true; decide⟩
  · exact fun e => absurd (congrArg Prod.snd e) (show (SemLoc.dma cc0_scratch2.sem : SemLoc sig) ≠ .dma cc0_scoped0.sem by decide)
  · exact fun e => absurd (congrArg Prod.snd e) (show (SemLoc.dma cc0_scratch2.sem : SemLoc sig) ≠ .dma cc0_scoped1.sem by decide)
  · exact fun e => absurd (congrArg Prod.snd e) (show (SemLoc.dma cc0_scoped0.sem : SemLoc sig) ≠ .dma cc0_scoped1.sem by decide)

abbrev iRef (L : grid0.Coords) : DevRef τ sig := (Proc.scVector (tileC L) (tileS L)).devRef cc0_scratch0
abbrev rRef (L : grid0.Coords) : DevRef τ sig := (Proc.scVector (tileC L) (tileS L)).devRef cc0_scratch1
abbrev restRefs (L : grid0.Coords) : Finset (DevRef τ sig) :=
  ((ownRefs (τ := τ) (.scVector (tileC L) (tileS L))).erase (iRef L)).erase (rRef L)

theorem ownBufs_scratch (d : Dev nD) (L : grid0.Coords) :
    (ownBufs (tileThr d L) : sProp 𝕄)
      = iprop((∃ f, (sI : Memref sig .scVector .vmem S50x128 .i32).view.loc (tileThr d L) ↦{fullShare} f)
          ∗ (∃ f, (sR : Memref sig .scVector .vmem S128x128 .f32).view.loc (tileThr d L) ↦{fullShare} f)
          ∗ bigSep (restRefs L) fun b => iprop(∃ f, ((d, b) : Loc nD τ sig) ↦{fullShare} f)) := by
  unfold SparseCore.Cfg.ownBufs
  exact bigSep_take2 (SparseCore.Cfg.mem_ownRefs_of_owner (p := Proc.scVector (tileC L) (tileS L)) (b := iRef L) rfl)
    (SparseCore.Cfg.mem_ownRefs_of_owner (p := Proc.scVector (tileC L) (tileS L)) (b := rRef L) rfl)
    (fun e => absurd (Proc.devRef_injective _ e) (show (cc0_scratch0 : Ref sig .scVector) ≠ cc0_scratch1 by decide))

/-! ## The arrays as the worker's memrefs address them -/

theorem tile_pts_idx (d : Dev nD) (L : grid0.Coords) (f : Buf (Elt F) (v0Loc d)) :
    ((idxSlab L).view.loc (tileThr d L) ↦[(idxSlab L).view.set]{fullShare} f : sProp 𝕄) = (v0Loc d ↦[idxSlabSet L]{fullShare} f) := rfl
theorem tile_pts_tbl (d : Dev nD) (L : grid0.Coords) (q : PosShare TreeShare) (f : Buf (Elt F) (a1Loc d)) :
    ((tblW : Memref sig .scVector .hbm S100000x128 .f32).view.loc (tileThr d L) ↦{q} f : sProp 𝕄) = (a1Loc d ↦{q} f) := rfl
theorem tile_pts_out (d : Dev nD) (L : grid0.Coords) (k : Fin k0_t1_loop.trips) (f : Buf (Elt F) (v1Loc d)) :
    ((outChunk L k).view.loc (tileThr d L) ↦[(outChunk L k).view.set]{fullShare} f : sProp 𝕄) = (v1Loc d ↦[outChunkSet L k]{fullShare} f) := rfl

/-! ## What the scratches hold -/

theorem trips_lt (k : Fin k0_t1_loop.trips) : k.val < 50 := Nat.lt_of_lt_of_le k.isLt k0_t1_abs.2.1

/-- Trip `k` as a row of the [50, 128] index scratch. -/
abbrev tripRow (k : Fin k0_t1_loop.trips) : Fin 50 := ⟨k.val, trips_lt k⟩

/-- The offset list of trip `k`: row `k` of the index scratch, as the gather names it. -/
abbrev offsRow (k : Fin k0_t1_loop.trips) : Memref sig .scVector .vmem S128 .i32 :=
  ((sI : Memref sig .scVector .vmem S50x128 .i32).slice (Rect.unit (s := S50x128) (k0_off2 k) S1x128.size (Facts₀.k0_off2_inb k)) (fun _ => rfl)).squeeze S128 Facts₀.squeezes_S1x128_S128

/-- The table as the gather names it: the whole of it, sliced whole. -/
abbrev tblAll : Memref sig .scVector .hbm S100000x128 .f32 :=
  (tblW : Memref sig .scVector .hbm S100000x128 .f32).slice (Rect.unit (s := S100000x128) ![0, 0] S100000x128.size Facts₀.inb_S100000x128_S100000x128_0_0) (fun _ => rfl)

variable (m : (ℓ : Loc nD τ sig) → Buf (Elt F) ℓ) [FloatOps F]

/-- Slab `w` of the reshaped indices: what the worker's index scratch holds after its first copy. -/
def slabF (d : Dev nD) (L : grid0.Coords) : Buf (Elt F) ((sI : Memref sig .scVector .vmem S50x128 .i32).view.loc (tileThr d L)) :=
  ReadAs.same.apply ((idxSlab L).view.read (Elt F) (idx3 m d))

/-! ## Reading the scratches at an index -/

/-- Entry `x` of trip `k`'s list is entry `(k, x)` of the index scratch. -/
theorem offsRow_emb (k : Fin k0_t1_loop.trips) (x : S128.Idx) : (offsRow k).view.emb x = (ix2 (tripRow k) (x 0 : Fin 128) : S50x128.Idx) := by
  have hre : Shape.reshapeEquiv (Facts₀.squeezes_S1x128_S128).numel_eq x = (ix2 (0 : Fin 1) (x 0 : Fin 128) : S1x128.Idx) :=
    Shape.reshapeEquiv_eq_of_rowMajor _ (by
      rw [Shape.rowMajor_val_two, Shape.rowMajor_val_one]
      show 0 * 128 + (x 0).val = (x 0).val
      omega)
  show (Rect.unit (s := S50x128) (k0_off2 k) S1x128.size (Facts₀.k0_off2_inb k)).emb (Shape.reshapeEquiv (Facts₀.squeezes_S1x128_S128).numel_eq x) = _
  rw [hre]
  funext a; apply Fin.ext
  rw [Rect.emb_apply]
  simp only [Rect.off_unit, Rect.stride_unit, k0_off2_eq]
  match a with
  | ⟨0, _⟩ => show k.val + 1 * 0 = k.val; omega
  | ⟨1, _⟩ => show 0 + 1 * (x 0).val = (x 0).val; omega

/-- Entry `(k, j)` of worker `L`'s slab is entry `(w, k, j)` of the reshaped indices. -/
theorem idxSlab_emb (L : grid0.Coords) (i : S50x128.Idx) :
    (idxSlab L).view.emb i = (ix3 (widOf L) (i 0 : Fin 50) (i 1 : Fin 128) : S32x50x128.Idx) := by
  have hre : Shape.reshapeEquiv (Facts₀.squeezes_S1x50x128_S50x128).numel_eq i = (ix3 (0 : Fin 1) (i 0 : Fin 50) (i 1 : Fin 128) : S1x50x128.Idx) :=
    Shape.reshapeEquiv_eq_of_rowMajor _ (by
      rw [Shape.rowMajor_val_three, Shape.rowMajor_val_two]
      show (0 * 50 + (i 0).val) * 128 + (i 1).val = (i 0).val * 128 + (i 1).val
      omega)
  show (Rect.unit (s := S32x50x128) (k0_off1 L) S1x50x128.size (Facts₀.k0_off1_inb L)).emb (Shape.reshapeEquiv (Facts₀.squeezes_S1x50x128_S50x128).numel_eq i) = _
  rw [hre]
  funext a; apply Fin.ext
  rw [Rect.emb_apply]
  simp only [Rect.off_unit, Rect.stride_unit, k0_off1_eq]
  match a with
  | ⟨0, _⟩ => show 2 * (L 1).val + (L 0).val + 1 * 0 = 2 * (L 1).val + (L 0).val; omega
  | ⟨1, _⟩ => show 0 + 1 * (i 0).val = (i 0).val; omega
  | ⟨2, _⟩ => show 0 + 1 * (i 1).val = (i 1).val; omega

theorem slabF_apply (d : Dev nD) (L : grid0.Coords) (i : S50x128.Idx) :
    (slabF m d L : IVec S50x128 32) i = (idx3 m d : IVec S32x50x128 32) (ix3 (widOf L) (i 0 : Fin 50) (i 1 : Fin 128)) := by
  unfold slabF
  show (idxSlab L).view.read (Elt F) (idx3 m d) i = _
  rw [View.read_apply, idxSlab_emb]
  rfl

/-- Trip `k`'s list read at `x`: the reshaped index word at `(w, k, x)`. -/
theorem offs_read (d : Dev nD) (L : grid0.Coords) (k : Fin k0_t1_loop.trips) (x : S128.Idx) :
    ((offsRow k).view.read (Elt F) (slabF m d L) x : BitVec 32) = (idx3 m d : IVec S32x50x128 32) (ix3 (widOf L) (tripRow k) (x 0 : Fin 128)) := by
  rw [View.read_apply, offsRow_emb]
  exact (cast_eq _ _).trans (slabF_apply m d L _)

/-- Every word of trip `k`'s list names a table row. -/
theorem offs_inb (hr : ∀ d : Dev nD, Cert.Spec.InRange (m (a0Loc d) : IVec Cert.Spec.SIdx 32)) (d : Dev nD) (L : grid0.Coords)
    (k : Fin k0_t1_loop.trips) : ∀ x, ((offsRow k).view.read (Elt F) (slabF m d L) x).toNat < 100000 := by
  intro x
  have e := offs_read m d L k x
  have h := idx3_inRange m d (hr d) (ix3 (widOf L) (tripRow k) (x 0 : Fin 128))
  rw [← e] at h
  have := BitVec.toInt_eq_toNat_cond ((offsRow k).view.read (Elt F) (slabF m d L) x : BitVec 32)
  obtain ⟨h0, h1⟩ := h
  split at this <;> omega

/-- The table read through the gather's whole slice is the table. -/
theorem tblAll_emb (y : S100000x128.Idx) : (tblAll).view.emb y = y := by
  show (Rect.unit (s := S100000x128) ![0, 0] S100000x128.size Facts₀.inb_S100000x128_S100000x128_0_0).emb y = y
  funext a; apply Fin.ext
  rw [Rect.emb_apply]
  simp only [Rect.off_unit, Rect.stride_unit]
  match a with
  | ⟨0, _⟩ => show 0 + 1 * (y 0).val = (y 0).val; omega
  | ⟨1, _⟩ => show 0 + 1 * (y 1).val = (y 1).val; omega

/-- Entry `(j, col)` of worker `L`'s output chunk `k` is entry `(6400·w + 128·k + j, col)` of the flat array. -/
theorem outChunk_emb (L : grid0.Coords) (k : Fin k0_t1_loop.trips) (x : S128x128.Idx) :
    (outChunk L k).view.emb x
      = (ix2 (⟨6400 * (widOf L).val + 128 * (tripRow k).val + (x 0 : Fin 128).val, flat_lt (widOf L) (tripRow k) (x 0)⟩ : Fin 204800) (x 1 : Fin 128) : S204800x128.Idx) := by
  show (Rect.unit (s := S204800x128) (k0_off3 L k) S128x128.size (Facts₀.k0_off3_inb L k)).emb x = _
  funext a; apply Fin.ext
  rw [Rect.emb_apply]
  simp only [Rect.off_unit, Rect.stride_unit, k0_off3_eq]
  match a with
  | ⟨0, _⟩ =>
    show 12800 * (L 1).val + 6400 * (L 0).val + 128 * k.val + 1 * (x 0).val = 6400 * (2 * (L 1).val + (L 0).val) + 128 * k.val + (x 0).val
    omega
  | ⟨1, _⟩ => show 0 + 1 * (x 1).val = (x 1).val; omega

/-- The gather's payload at `(j, col)`: the looked-up rows at flat row `6400·w + 128·k + j`, column `col`. -/
theorem gathered_apply (hr : ∀ d : Dev nD, Cert.Spec.InRange (m (a0Loc d) : IVec Cert.Spec.SIdx 32)) (d : Dev nD) (L : grid0.Coords)
    (k : Fin k0_t1_loop.trips)
    (hn : S128.numel = S128x128.size (Facts₀.gathers_S100000x128_S128x128).axis')
    (hin : ∀ x, ((offsRow k).view.read (Elt F) (slabF m d L) x).toNat < S100000x128.size (Facts₀.gathers_S100000x128_S128x128).axis)
    (x : S128x128.Idx) :
    SparseCore.gatherPayload Facts₀.gathers_S100000x128_S128x128 ((tblAll).view.read (Elt F) (m (a1Loc d)))
        (SparseCore.rows ((offsRow k).view.read (Elt F) (slabF m d L)) hn hin) x
      = (embF m d : FVec F S204800x128 .f32)
          (ix2 (⟨6400 * (widOf L).val + 128 * (tripRow k).val + (x 0 : Fin 128).val, flat_lt (widOf L) (tripRow k) (x 0)⟩ : Fin 204800) (x 1 : Fin 128)) := by
  rw [embF_apply m d (widOf L) (tripRow k) (x 0) (x 1)]
  unfold SparseCore.gatherPayload
  rw [View.read_apply, tblAll_emb]
  refine (cast_eq _ _).trans ?_
  refine congrArg (m (a1Loc d) : FVec F Cert.Spec.STbl .f32) ?_
  -- the word the list holds at entry `x 0`
  have hy : ((S128.rowMajor.symm ((x 0 : Fin 128).cast hn.symm)) 0 : Fin 128) = (x 0 : Fin 128) := by
    apply Fin.ext
    have h1 := Shape.rowMajor_val_one (d := ![128]) (S128.rowMajor.symm ((x 0 : Fin 128).cast hn.symm))
    rw [Equiv.apply_symm_apply] at h1
    exact h1.symm
  have hw : ((offsRow k).view.read (Elt F) (slabF m d L) (S128.rowMajor.symm ((x 0 : Fin 128).cast hn.symm)) : BitVec 32)
      = (idx3 m d : IVec S32x50x128 32) (ix3 (widOf L) (tripRow k) (x 0 : Fin 128)) := by
    rw [offs_read, hy]
  have hrg := idx3_inRange m d (hr d) (ix3 (widOf L) (tripRow k) (x 0 : Fin 128))
  funext b; apply Fin.ext
  match b with
  | ⟨0, _⟩ =>
    show ((offsRow k).view.read (Elt F) (slabF m d L) (S128.rowMajor.symm ((x 0 : Fin 128).cast hn.symm)) : BitVec 32).toNat
      = (Cert.Spec.row ((idx3 m d : IVec S32x50x128 32) (ix3 (widOf L) (tripRow k) (x 0 : Fin 128)))).val
    rw [hw, Cert.Spec.row_val_of_range _ hrg.1 hrg.2]
  | ⟨1, _⟩ => rfl

/-- What trip `k` leaves in output chunk `k` — the row scratch, holding the gather's payload `G`, copied out whole — is
    the looked-up rows on the chunk's elements, whatever the chunk and the scratch held before. -/
theorem chunk_val (d : Dev nD) (L : grid0.Coords) (k : Fin k0_t1_loop.trips) (f0 : Buf (Elt F) (v1Loc d))
    (fR : Buf (Elt F) ((sR : Memref sig .scVector .vmem S128x128 .f32).view.loc (tileThr d L))) (G : S128x128.Idx → Elt F .f32)
    (hG : ∀ x : S128x128.Idx, G x = (embF m d : FVec F S204800x128 .f32)
      (ix2 (⟨6400 * (widOf L).val + 128 * (tripRow k).val + (x 0 : Fin 128).val, flat_lt (widOf L) (tripRow k) (x 0)⟩ : Fin 204800) (x 1 : Fin 128))) :
    ∀ i ∈ (outChunk L k).view.set,
      ((outChunk L k).view.writes (Elt F) f0 [⟨Rect.whole S128x128, ReadAs.same.apply
          ((sR : Memref sig .scVector .vmem S128x128 .f32).view.read (Elt F)
            ((sR : Memref sig .scVector .vmem S128x128 .f32).view.writes (Elt F) fR [⟨Rect.whole S128x128, G⟩]))⟩]) i
        = embF m d i := by
  intro i hi
  obtain ⟨x, -, rfl⟩ := Finset.mem_map.mp hi
  have h1 := View.read_writes_cons_emb (outChunk L k).view f0 (Rect.whole S128x128) (ReadAs.same.apply
      ((sR : Memref sig .scVector .vmem S128x128 .f32).view.read (Elt F)
        ((sR : Memref sig .scVector .vmem S128x128 .f32).view.writes (Elt F) fR [⟨Rect.whole S128x128, G⟩]))) [] x
  rw [Rect.emb_whole_apply, View.read_apply] at h1
  have h2 := View.read_writes_cons_emb (sR : Memref sig .scVector .vmem S128x128 .f32).view fR (Rect.whole S128x128) G [] x
  rw [Rect.emb_whole_apply] at h2
  refine ((cast_eq _ _).symm.trans h1).trans ?_
  show (sR : Memref sig .scVector .vmem S128x128 .f32).view.read (Elt F)
      ((sR : Memref sig .scVector .vmem S128x128 .f32).view.writes (Elt F) fR [⟨Rect.whole S128x128, G⟩]) x = _
  rw [h2, hG, outChunk_emb]

/-- Before trip `n`: the index scratch holds slab `w`, the row scratch anything, the table's share is in hand, the
    chunks below `n` hold the looked-up rows and the others their entry contents, the gather's and the write-out's
    counters are at zero, and the waits recorded beyond `W` are at index `none`. -/
def tileInv (d : Dev nD) (L : grid0.Coords) (O : CellTallies nD τ sig (HIx 1)) (W : Waits sig (HIx 1)) (n : Nat) (_ : PUnit) : sProp 𝕄 :=
  iprop(Transfers.MayWaits (tileThr d L) (none : HIx 1) O
    ∗ ((sI : Memref sig .scVector .vmem S50x128 .i32).view.loc (tileThr d L) ↦{fullShare} slabF m d L)
    ∗ (∃ f, (sR : Memref sig .scVector .vmem S128x128 .f32).view.loc (tileThr d L) ↦{fullShare} f)
    ∗ ((tblW : Memref sig .scVector .hbm S100000x128 .f32).view.loc (tileThr d L) ↦{tblShare L} m (a1Loc d))
    ∗ (bigSep Finset.univ fun k : Fin k0_t1_loop.trips =>
        v1Loc d ↦[outChunkSet L k]{fullShare} (if k.val < n then embF m d else m (v1Loc d)))
    ∗ semVal (gCell d L) 0 ∗ semVal (oCell d L) 0
    ∗ ∃ W', ⌜∀ p ∈ W', p ∈ W ∨ p.2 = none⌝ ∗ owes (tileThr d L) O W')

/-! ## The task at a symbolic worker -/

theorem tile_body (hr : ∀ d : Dev nD, Cert.Spec.InRange (m (a0Loc d) : IVec Cert.Spec.SIdx 32)) (d : Dev nD) (L : grid0.Coords)
    (O : CellTallies nD τ sig (HIx 1)) (W : Waits sig (HIx 1)) (hO : ∀ g, O g none = 0) :
    iprop(levAts (K (F := F)).L (K (F := F)).lev ∗ emp ∗ tileRes m d L (m (v1Loc d))
        ∗ scopedBufs (tileThr d L) ∗ scopedSems0 (tileThr d L) ∗ owes (tileThr d L) O W)
      ⊢ wp frame (wpE (defs₀ (F := F)) 𝒱₀ (tileThr d L) none) Set.univ
          (cc0_gather L v0W (Memref.isWhole_whole _) tblW (Memref.isWhole_whole _) v1W (Memref.isWhole_whole _)
            sI (Memref.isWhole_whole _) sR (Memref.isWhole_whole _) cc0_scratch2 cc0_scoped0 cc0_scoped1)
          fun _ => iprop(tileRes m d L (embF m d) ∗ scopedBufs (tileThr d L) ∗ scopedSems0 (tileThr d L)
            ∗ ∃ W', ⌜∀ p ∈ W', p ∈ W ∨ p.2 = none⌝ ∗ owes (tileThr d L) O W') := by
  simp only [cc0_gather_eq_skeleton]; unfold cc0_gather_skel
  rw [(K (F := F)).scopedBufs_V factsK d (tileC L) (tileS L), SparseCore.Cfg.scopedSems0_V (Val := Elt F) d (tileC L) (tileS L), ownSems0_cells, ownBufs_scratch]
  unfold tileRes
  iintro ⟨#Hlv, -, ⟨Hidx, Htbl, Hout⟩, ⟨⟨%fI0, HsI⟩, ⟨%fR0, HsR⟩, Hbufs⟩, ⟨Hg, Hi, Ho, Hsems⟩, HO⟩
  ihave Hmw := ((K (F := F)).mayWaits_none (thr := tileThr d L) hO) $$ Hlv
  ihave Hidx' := (Entails.of_eq (tile_pts_idx (F := F) d L _).symm) $$ Hidx
  ihave Htbl' := (Entails.of_eq (tile_pts_tbl (F := F) d L _ _).symm) $$ Htbl
  -- the index copy and its wait
  sl_exec
  have hsI0 : View.write (Elt F) (sI : Memref sig .scVector .vmem S50x128 .i32).view fI0 (slabF m d L) Finset.univ = slabF m d L :=
    View.write_whole_univ _ _ _
  sl_for (tileInv m d L O W) $$ [Hmw HsI HsR Htbl' Hout Hg Ho HO]
  case region =>
    intro k _
    unfold tileInv
    iintro ⟨Hmw, HsI, ⟨%fR, HsR⟩, Htbl, Hout, Hg, Ho, %W', %hW', HO⟩
    ihave Hout' := (Entails.of_eq (SparseCore.bigSep_erase' (Finset.mem_univ k))) $$ Hout
    icases Hout' with ⟨Hk, Hrest⟩
    ihave Hk' := (Entails.of_eq (tile_pts_out (F := F) d L k _).symm) $$ Hk
    -- the list's words name table rows
    have hin : ∀ x, ((offsRow k).view.read (Elt F) (slabF m d L) x).toNat < 100000 := offs_inb m hr d L k
    -- what the trip leaves in chunk `k`
    have hck := pointsTo_congr (Ix := HIx 1) (Name := ℕ) (U := UU) (Lvl := ℕ) (ℓ := (outChunk L k).view.loc (tileThr d L)) (I := (outChunk L k).view.set) (q := fullShare)
      (chunk_val m d L k (if k.val < k.val then embF m d else m (v1Loc d)) fR _ (fun x => gathered_apply m hr d L k rfl hin x))
    -- the gather and its wait, the write-out and its wait
    sl_exec
    sl_step
    isplitl [Hmw]; · iexact Hmw
    isplitl [HsI]; · iexact HsI
    isplitl [HsR]; · iexists _; iexact HsR
    isplitl [Htbl]; · iexact Htbl
    isplitl [Hk' Hrest]
    · iapply (Entails.of_eq (SparseCore.bigSep_erase' (Finset.mem_univ k)).symm)
      isplitl [Hk']
      · rw [if_pos (Nat.lt_succ_self k.val)]
        iapply (Entails.of_eq hck)
        iexact Hk'
      · rw [show (bigSep (Finset.univ.erase k) fun k' : Fin k0_t1_loop.trips =>
              (v1Loc d ↦[outChunkSet L k']{fullShare} (if k'.val < k.val + 1 then embF m d else m (v1Loc d)) : sProp 𝕄))
            = bigSep (Finset.univ.erase k) fun k' : Fin k0_t1_loop.trips =>
              (v1Loc d ↦[outChunkSet L k']{fullShare} (if k'.val < k.val then embF m d else m (v1Loc d)) : sProp 𝕄) from
          bigSep_congr fun k' hk' => by
            have hne : k'.val ≠ k.val := Fin.val_ne_of_ne (Finset.ne_of_mem_erase hk')
            by_cases h : k'.val < k.val
            · rw [if_pos h, if_pos (Nat.lt_succ_of_lt h)]
            · rw [if_neg h, if_neg (by omega)]]
        iexact Hrest
    isplitl [Hg]; · iexact Hg
    isplitl [Ho]; · iexact Ho
    iexists (insert (SemLoc.dma cc0_scoped1.sem, (default : HIx 1)) (insert (SemLoc.dma cc0_scratch2.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold tileInv
    isplitl [Hmw]; · iexact Hmw
    isplitl [HsI]; · rw [← hsI0]; iexact HsI
    isplitl [HsR]; · iexists _; iexact HsR
    isplitl [Htbl']; · iexact Htbl'
    isplitl [Hout]
    · rw [show (bigSep Finset.univ fun k' : Fin k0_t1_loop.trips =>
            (v1Loc d ↦[outChunkSet L k']{fullShare} (if k'.val < 0 then embF m d else m (v1Loc d)) : sProp 𝕄))
          = bigSep Finset.univ fun k' : Fin k0_t1_loop.trips => (v1Loc d ↦[outChunkSet L k']{fullShare} m (v1Loc d) : sProp 𝕄) from
        bigSep_congr fun k' _ => by rw [if_neg (Nat.not_lt_zero _)]]
      iexact Hout
    isplitl [Hg]; · iexact Hg
    isplitl [Ho]; · iexact Ho
    iexists (insert (SemLoc.dma cc0_scoped0.sem, (default : HIx 1)) W); isplitr
    · ipureintro; intro p hp
      rcases Finset.mem_insert.mp hp with hp | hp
      · exact .inr (hp ▸ rfl)
      · exact .inl hp
    · iexact HO
  iintro %_ HI
  unfold tileInv
  icases HI with ⟨-, HsI, ⟨%fR, HsR⟩, Htbl, Hout, Hg, Ho, %W', %hW', HO⟩
  sl_exec
  sl_step
  isplitl [Hidx' Htbl Hout]
  · isplitl [Hidx']; · iapply (Entails.of_eq (tile_pts_idx (F := F) d L _)); iexact Hidx'
    isplitl [Htbl]; · iapply (Entails.of_eq (tile_pts_tbl (F := F) d L _ _)); iexact Htbl
    rw [show (bigSep Finset.univ fun k' : Fin k0_t1_loop.trips => (v1Loc d ↦[outChunkSet L k']{fullShare} embF m d : sProp 𝕄))
        = bigSep Finset.univ fun k' : Fin k0_t1_loop.trips =>
          (v1Loc d ↦[outChunkSet L k']{fullShare} (if k'.val < k0_t1_loop.trips then embF m d else m (v1Loc d)) : sProp 𝕄) from
      bigSep_congr fun k' _ => by rw [if_pos k'.isLt]]
    iexact Hout
  isplitl [HsI HsR Hbufs]
  · isplitl [HsI]; · iexists _; iexact HsI
    isplitl [HsR]; · iexists _; iexact HsR
    iexact Hbufs
  isplitl [Hg Hi Ho Hsems]
  · isplitl [Hg]; · iexact Hg
    isplitl [Hi]; · iexact Hi
    isplitl [Ho]; · iexact Ho
    iexact Hsems
  iexists W'; isplitr
  · ipureintro; exact hW'
  · iexact HO

/-! ## The launch theorem's obligation -/

theorem defs₀_tile (c : Fin τ.nSC) (s : Fin τ.nSub) :
    defs₀ (F := F) (.scVector c s) 0 ()
      = SparseCore.onTile hcore0 hsub0 (fun c s => cc0_gather (coordsV c s)
          v0W (Memref.isWhole_whole _) tblW (Memref.isWhole_whole _) v1W (Memref.isWhole_whole _)
          sI (Memref.isWhole_whole _) sR (Memref.isWhole_whole _) cc0_scratch2 cc0_scoped0 cc0_scoped1) ⟨⟩ c s := rfl

omit [FloatOps F] in
/-- Waits recorded at index `none` are among those the obligation allows. -/
theorem tile_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body obligation of the one call: every worker's task, from its slab, its share of the table and its chunks at
    their launch contents to the same with the chunks holding the looked-up rows. -/
theorem tileObl (hr : ∀ d : Dev nD, Cert.Spec.InRange (m (a0Loc d) : IVec Cert.Spec.SIdx 32)) :
    (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  exact (tile_body m hr d (coordsV ⟨_, hc.1⟩ ⟨_, hc.2⟩) O W hO).trans (wp_mono frame _ _ fun _ => tile_post)

end Cert.KernelProof

end
-- ==== Proof.KernelRegionData.lean ====
/-
  The proof data of the one TensorCore pipeline inside the SparseCore program: what its four arrays hold when the
  region is entered, each window's block at a point, what the body leaves in the result's staging buffer, and the
  result array at the end.

  The pipeline has 64 points. At point t the body finds rows [3200·t, 3200·t + 3200) of the flat rows array, the
  whole weight matrix and the bias row in its three input buffers and stores one [64, 50, 256] block, written back
  to blocks [64·t, 64·t + 64) of the result.
-/
import proofs.«206693_g6700148982047_cont_9to1_m_1101_3_alg».proof.Proof.KernelSetup
import Idealize.ShloMosaic.Lib.Pipeline.FrameBody

noncomputable section

namespace Cert.KernelProof

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)

/-! ## The arrays when the region is entered -/

/-- The pipeline has no prefetched table: the one (empty) admissible contents, on every device. -/
abbrev adm : Dev nD → (p : Fin 1) → (pcfgs (F := F) p).Adm := fun _ p => (cfgs p).toPCfg_adm

/-- Device `d`'s TensorCore buffers when the region is entered: the reshaped indices, the looked-up rows and the
    bias row where @main's earlier statements left them, every other buffer as launched. -/
def V1 (d : Dev nD) : (b : Ref sig .tc) → Buf (Elt F) ((SparseCore.T d : Thread nD τ).loc b) :=
  Function.update (Function.update (Function.update (fun b => m ((SparseCore.T d : Thread nD τ).loc b)) main_v0 (idx3 m d)) main_v2 (bias2 m d)) main_v1 (embF m d)

theorem V1_main_v1 (d : Dev nD) : V1 m d main_v1 = embF m d := Function.update_self ..
theorem V1_main_v2 (d : Dev nD) : V1 m d main_v2 = bias2 m d :=
  (Function.update_of_ne (by decide) ..).trans (Function.update_self ..)
theorem V1_main_v0 (d : Dev nD) : V1 m d main_v0 = idx3 m d :=
  (Function.update_of_ne (by decide) ..).trans ((Function.update_of_ne (by decide) ..).trans (Function.update_self ..))
theorem V1_of_ne (d : Dev nD) (b : Ref sig .tc) (h1 : b ≠ main_v1) (h2 : b ≠ main_v2) (h0 : b ≠ main_v0) :
    V1 m d b = m ((SparseCore.T d : Thread nD τ).loc b) :=
  (Function.update_of_ne h1 ..).trans ((Function.update_of_ne h2 ..).trans (Function.update_of_ne h0 ..))
theorem V1_main_arg0 (d : Dev nD) : V1 m d main_arg0 = m (a0Loc d) := V1_of_ne m d _ (by decide) (by decide) (by decide)
theorem V1_main_arg1 (d : Dev nD) : V1 m d main_arg1 = m (a1Loc d) := V1_of_ne m d _ (by decide) (by decide) (by decide)
theorem V1_main_arg2 (d : Dev nD) : V1 m d main_arg2 = m (a2Loc d) := V1_of_ne m d _ (by decide) (by decide) (by decide)
theorem V1_main_arg3 (d : Dev nD) : V1 m d main_arg3 = m (a3Loc d) := V1_of_ne m d _ (by decide) (by decide) (by decide)
theorem V1_main_v3 (d : Dev nD) : V1 m d main_v3 = m (v3Loc d) := V1_of_ne m d _ (by decide) (by decide) (by decide)

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V1 m c (Pipeline.arrRef spec1 w))

/-! ## What the body leaves in the result's buffer -/

abbrev r1_0 : Rect S3200x128 := Rect.unit (s := S3200x128) ![0, 0] S3200x128.size inb_S3200x128_S3200x128_0_0
abbrev r1_1 : Rect S256x128 := Rect.unit (s := S256x128) ![0, 0] S256x128.size inb_S256x128_S256x128_0_0
abbrev r1_2 : Rect S1x256 := Rect.unit (s := S1x256) ![0, 0] S1x256.size inb_S1x256_S1x256_0_0
abbrev r1_3 : Rect S64x50x256 := Rect.unit (s := S64x50x256) ![0, 0, 0] S64x50x256.size inb_S64x50x256_S64x50x256_0_0_0

variable [∀ e, Nonempty (Elt F e)]

/-- The result window's staging buffer after the body, from the three input blocks: its one store, of the whole
    buffer, of rows × weightsᵀ + bias reshaped to [64, 50, 256]. -/
def out1_3 (x0 : Vec F S3200x128 .f32) (x1 : Vec F S256x128 .f32) (x2 : Vec F S1x256 .f32) : Vec F S64x50x256 .f32 :=
  View.canon [⟨r1_3, k1_pay1 (View.ld x0 r1_0) (View.ld x1 r1_1) (View.ld x2 r1_2)⟩]

/-! ## The pipeline's proof data -/

/-- The proof data on device `c`: the arrays as the region finds them; after the body at point `t` each input's
    buffer at its block and the result's at `out1_3` of the three; the invariant the scoped buffers no window stages
    (there are none); full shares; nothing owed; the recorded pairs at or below level 8 throughout. -/
def dat1 (c : Dev nD) : Dat τ (Elt F) (HIx 1) ℕ UU ℕ cfg1 c where
  A w := V1 m c (Pipeline.arrRef spec1 w)
  after w t := match w with
    | ⟨0, _⟩ => iblk m c 0 t
    | ⟨1, _⟩ => iblk m c 1 t
    | ⟨2, _⟩ => iblk m c 2 t
    | ⟨3, _⟩ => out1_3 (iblk m c 0 t) (iblk m c 1 t) (iblk m c 2 t)
  Φ _ := Pipeline.scopedRest spec1 c
  q _ := fullShare
  owed _ := 0
  recorded _ := {p | (K (F := F)).lev ((SparseCore.T c : Thread nD τ), p.1) p.2 ≤ 8}

/-- The proof data of every pipeline (there is one) on every device. -/
def dats : (p : Fin 1) → (c : Dev nD) → Dat τ (Elt F) (HIx 1) ℕ UU ℕ (Pipeline.pinD (pcfgs (F := F)) adm c p) c :=
  fun _ c => dat1 m c

theorem dats_eq (p : Fin 1) (c : Dev nD) : dats m p c = dat1 m c := rfl

theorem A_eq (c : Dev nD) (w : Fin cfg1.W) : (dat1 m c).A w = V1 m c (Pipeline.arrRef spec1 w) := by
  dsimp only [dat1]

theorem after1_0 (c : Dev nD) (t : Fin cfg1.N) : (dat1 m c).after 0 t = iblk m c 0 t := by dsimp only [dat1]
theorem after1_1 (c : Dev nD) (t : Fin cfg1.N) : (dat1 m c).after 1 t = iblk m c 1 t := by dsimp only [dat1]
theorem after1_2 (c : Dev nD) (t : Fin cfg1.N) : (dat1 m c).after 2 t = iblk m c 2 t := by dsimp only [dat1]
theorem after1_3 (c : Dev nD) (t : Fin cfg1.N) :
    (dat1 m c).after 3 t = out1_3 (iblk m c 0 t) (iblk m c 1 t) (iblk m c 2 t) := by dsimp only [dat1]

theorem owed_eq (c : Dev nD) (t : Fin (cfg1.N + 1)) : (dat1 m c).owed t = 0 := rfl
theorem recorded_eq (c : Dev nD) (t : Fin (cfg1.N + 1)) :
    (dat1 m c).recorded t = {p | (K (F := F)).lev ((SparseCore.T c : Thread nD τ), p.1) p.2 ≤ 8} := rfl
theorem Φ_eq (c : Dev nD) (t : Fin (cfg1.N + 1)) : (dat1 m c).Φ t = Pipeline.scopedRest spec1 c := rfl

/-! ## The result array at the end -/

/-- The result array after the pipeline's 64 write-backs. -/
def outF (d : Dev nD) : Buf (Elt F) (v3Loc d) := (dat1 m d).arrAt 3 64

theorem outF_eq (d : Dev nD) : outF m d = (dats m 0 d).arrAt 3 64 := rfl

end Cert.KernelProof

end
-- ==== Proof.KernelRegion.lean ====
/-
  The TensorCore region inside the SparseCore program: the body obligation of its one pipeline at a generic point,
  the region's step from the thread state @main's earlier statements leave, and the pipeline's share of the launch's
  ghost state.

  The body at point t loads its three input buffers whole — rows [3200·t, 3200·t + 3200) of the flat rows array, the
  weight matrix, the bias row —, loads the result buffer (unread) and stores rows × weightsᵀ + bias, reshaped to
  [64, 50, 256], over all of it. The inputs' buffers hold their blocks at every point, fetched there or not; the
  pipeline owes nothing and waits only on its own staging cells, at the level-0 index.
-/
import proofs.«206693_g6700148982047_cont_9to1_m_1101_3_alg».proof.Proof.KernelRegionData
import Idealize.ShloMosaic.Lib.Pipeline.FrameBody
import Idealize.ShloMosaic.Lib.Tactic

set_option maxRecDepth 16384

noncomputable section

namespace Cert.KernelProof

open Cert.Kernel Cert.Kernel.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig (HIx 1) (Elt F) ℕ UU ℕ

variable (m : (ℓ : Loc nD τ sig) → Buf (Elt F) ℓ)

/-! ## The inputs' buffers hold their blocks -/

/-- Input window 0's current staging buffer holds its block at every point (it is fetched at every point). -/
theorem before1_0 (c : Dev nD) (t : Fin cfg1.N) (d) : (dat1 m c).before 0 t d = iblk m c 0 t :=
  ((dat1 m c).before_in_eq_fetched 0 rfl (fun _ => rfl) (fun _ _ _ => rfl)
      (fun t => by rw [after1_0]; unfold Dat.blockOf iblk; rw [A_eq]; try rfl) t d).trans
    (by unfold Dat.fetched Dat.blockOf iblk; rw [A_eq]; try rfl)
/-- Input window 1's holds the whole weight matrix at every point: fetched at the first, its index never moves. -/
theorem before1_1 (c : Dev nD) (t : Fin cfg1.N) (d) : (dat1 m c).before 1 t d = iblk m c 1 t :=
  ((dat1 m c).before_in_eq_fetched 1 rfl (fun _ => rfl) (fun _ _ _ => rfl)
      (fun t => by rw [after1_1]; unfold Dat.blockOf iblk; rw [A_eq]; try rfl) t d).trans
    (by unfold Dat.fetched Dat.blockOf iblk; rw [A_eq]; try rfl)
/-- Input window 2's holds the bias row at every point, likewise. -/
theorem before1_2 (c : Dev nD) (t : Fin cfg1.N) (d) : (dat1 m c).before 2 t d = iblk m c 2 t :=
  ((dat1 m c).before_in_eq_fetched 2 rfl (fun _ => rfl) (fun _ _ _ => rfl)
      (fun t => by rw [after1_2]; unfold Dat.blockOf iblk; rw [A_eq]; try rfl) t d).trans
    (by unfold Dat.fetched Dat.blockOf iblk; rw [A_eq]; try rfl)

/-! ## The body's triple -/

/-- The body's one store covers the result buffer. -/
theorem cover1_3 (p0 : Vec F S64x50x256 .f32) (y : S64x50x256.Idx) :
    ∃ pc ∈ ([⟨r1_3, p0⟩] : List (View.Piece (Elt F) S64x50x256 .f32)), y ∈ pc.1.set :=
  View.cover_of_tiled [⟨r1_3, p0⟩] S64x50x256.size (by rfl) y

set_option maxHeartbeats 1000000 in
/-- The body on whole staging memrefs, the inputs' at contents `x0`, `x1`, `x2` and the result's at anything, runs to
    the continuation holding the inputs' as they were and the result's at `out1_3` of them. -/
theorem sound_kernel (c : Dev nD) (E : Set ℕ) (i : grid1.Coords)
    (arg1 : Memref sig .tc .vmem S3200x128 .f32) (harg1 : arg1.IsWhole) (arg2 : Memref sig .tc .vmem S256x128 .f32) (harg2 : arg2.IsWhole)
    (arg3 : Memref sig .tc .vmem S1x256 .f32) (harg3 : arg3.IsWhole) (arg4 : Memref sig .tc .vmem S64x50x256 .f32) (harg4 : arg4.IsWhole)
    (x0 : Vec F S3200x128 .f32) (x1 : Vec F S256x128 .f32) (x2 : Vec F S1x256 .f32) (Kk : PUnit → sProp 𝕄) :
    iprop(owns (c.tc : Thread nD τ) arg1 fullShare x0 ∗ owns (c.tc : Thread nD τ) arg2 fullShare x1 ∗ owns (c.tc : Thread nD τ) arg3 fullShare x2
        ∗ (∃ d, owns (c.tc : Thread nD τ) arg4 fullShare d)
        ∗ (iprop(owns (c.tc : Thread nD τ) arg1 fullShare x0 ∗ owns (c.tc : Thread nD τ) arg2 fullShare x1 ∗ owns (c.tc : Thread nD τ) arg3 fullShare x2
            ∗ owns (c.tc : Thread nD τ) arg4 fullShare (out1_3 x0 x1 x2)) -∗ Kk ⟨⟩))
      ⊢ wp frame (wpE (defs₀ (F := F)) Variants.none (c.tc : Thread nD τ) none) E (cc1__mm_body i arg1 harg1 arg2 harg2 arg3 harg3 arg4 harg4) Kk := by
  simp only [cc1__mm_body_eq_skeleton]; unfold cc1__mm_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`, the windows one by one, -/
def bodyPre (c : Dev nD) (t : Fin cfg1.N) : sProp 𝕄 :=
  iprop((dat1 m c).Φ t.castSucc ∗ (dat1 m c).owesAt (none : HIx 1) t.castSucc
    ∗ (∃ d, owns (c.tc : Thread nD τ) (st1_0 t) fullShare ((dat1 m c).before 0 t d))
    ∗ (∃ d, owns (c.tc : Thread nD τ) (st1_1 t) fullShare ((dat1 m c).before 1 t d))
    ∗ (∃ d, owns (c.tc : Thread nD τ) (st1_2 t) fullShare ((dat1 m c).before 2 t d))
    ∗ (∃ d, owns (c.tc : Thread nD τ) (st1_3 t) fullShare ((dat1 m c).before 3 t d)))

/-- and what it returns. -/
def bodyPost (c : Dev nD) (t : Fin cfg1.N) : sProp 𝕄 :=
  iprop((dat1 m c).Φ t.succ ∗ (dat1 m c).owesAt (none : HIx 1) t.succ
    ∗ owns (c.tc : Thread nD τ) (st1_0 t) fullShare ((dat1 m c).after 0 t)
    ∗ owns (c.tc : Thread nD τ) (st1_1 t) fullShare ((dat1 m c).after 1 t)
    ∗ owns (c.tc : Thread nD τ) (st1_2 t) fullShare ((dat1 m c).after 2 t)
    ∗ owns (c.tc : Thread nD τ) (st1_3 t) fullShare ((dat1 m c).after 3 t))

/-- The body at any point: the inputs' memrefs hold their blocks, so `sound_kernel` applies; the invariant and the
    core's `owes` pass through unread. -/
theorem sound_body (c : Dev nD) (t : Fin cfg1.N) :
    bodyPre m c t ⊢ wp frame (wpE (defs₀ (F := F)) Variants.none (c.tc : Thread nD τ) none) Set.univ (bodyAt1 t) (fun _ => bodyPost m c t) := by
  unfold bodyPre bodyPost bodyAt1
  simp only [before1_0, before1_1, before1_2]
  rw [show (dat1 m c).Φ t.succ = (dat1 m c).Φ t.castSucc from rfl,
    show (dat1 m c).owesAt (none : HIx 1) t.succ = (dat1 m c).owesAt (none : HIx 1) t.castSucc from rfl,
    after1_0, after1_1, after1_2, after1_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat1 (F := F) m c) (defs₀ (F := F)) Variants.none (none : HIx 1) Set.univ := fun t => by
  rw [bigSep_W1, bigSep_W1]
  exact sound_body m c t

/-! ## The region's thread states -/

/-- The four windows' arrays when the region is entered: the looked-up rows, the weights, the bias row, and the
    result array as launched. -/
def regionPre (d : Dev nD) : sProp 𝕄 :=
  iprop((v1Loc d ↦{fullShare} embF m d) ∗ (a2Loc d ↦{fullShare} m (a2Loc d)) ∗ (v2Loc d ↦{fullShare} bias2 m d) ∗ (v3Loc d ↦{fullShare} m (v3Loc d)))

/-- and when it is left: the inputs unchanged, the result array after the 64 write-backs. -/
def regionPost (d : Dev nD) : sProp 𝕄 :=
  iprop((v1Loc d ↦{fullShare} embF m d) ∗ (a2Loc d ↦{fullShare} m (a2Loc d)) ∗ (v2Loc d ↦{fullShare} bias2 m d) ∗ (v3Loc d ↦{fullShare} outF m d))

/-- The pipeline's staging cells are pairwise distinct. -/
theorem phinj : Function.Injective (Pipeline.PerCore.cellOf (nD := nD) (τ := τ) (Pipeline.pinD (pcfgs (F := F)) adm)) := Gen.cellOf_inj

/-- What the launch deals device `d` for the pipeline's staging cells: their ghost state and the duty tokens of
    the transfers its loop issues. -/
def pipeGhost (d : Dev nD) : sProp 𝕄 :=
  iprop(Pipeline.PerCore.cellsGhost (Pipeline.pinD (pcfgs (F := F)) adm) EP 0 d ∗ Pipeline.PerCore.toksInit (Pipeline.pinD (pcfgs (F := F)) adm) EP 0 d)

/-! ## The arrays at the two ends -/

/-- The pipeline's arrays at contents `Fa`, one by one. -/
theorem arrays_at (c : Dev nD) (Fa : (w : Fin cfg1.W) → Buf (Elt F) ((cfg1.win w).arr.view.loc (c.tc : Thread nD τ))) :
    ((dat1 m c).arrays Fa : sProp 𝕄)
      = iprop((v1Loc c ↦{fullShare} Fa 0) ∗ (a2Loc c ↦{fullShare} Fa 1) ∗ (v2Loc c ↦{fullShare} Fa 2) ∗ (v3Loc c ↦{fullShare} Fa 3)) := by
  rw [Pipeline.PerCore.arrays_eq (fun _ _ => cfg1) (fun _ c => dat1 m c) (0 : Fin 1) c Gen.arr_whole1 ((dat1 m c).share_full fun _ => rfl) Fa, Gen.bigSep_W1]

theorem arrAt_0 (c : Dev nD) (n : Nat) : (dat1 m c).arrAt 0 n = embF m c :=
  ((dat1 m c).arrAt_in 0 rfl n).trans ((A_eq m c 0).trans (V1_main_v1 m c))
theorem arrAt_1 (c : Dev nD) (n : Nat) : (dat1 m c).arrAt 1 n = m (a2Loc c) :=
  ((dat1 m c).arrAt_in 1 rfl n).trans ((A_eq m c 1).trans (V1_main_arg2 m c))
theorem arrAt_2 (c : Dev nD) (n : Nat) : (dat1 m c).arrAt 2 n = bias2 m c :=
  ((dat1 m c).arrAt_in 2 rfl n).trans ((A_eq m c 2).trans (V1_main_v2 m c))
theorem arrAt_3_zero (c : Dev nD) : (dat1 m c).arrAt 3 0 = m (v3Loc c) :=
  (A_eq m c 3).trans (V1_main_v3 m c)
theorem arrAt_3_last (c : Dev nD) : (dat1 m c).arrAt 3 cfg1.N = outF m c :=
  congrArg ((dat1 m c).arrAt 3) Gen.N_1

theorem arrays_entry (c : Dev nD) : ((dat1 m c).arrays ((dat1 m c).arrAt · 0) : sProp 𝕄) = regionPre m c := by
  rw [arrays_at, arrAt_0, arrAt_1, arrAt_2, arrAt_3_zero]; rfl
theorem arrays_exit (c : Dev nD) : ((dat1 m c).arrays ((dat1 m c).arrAt · cfg1.N) : sProp 𝕄) = regionPost m c := by
  rw [arrays_at, arrAt_0, arrAt_1, arrAt_2, arrAt_3_last]; rfl

/-- The pipeline prefetches no table. -/
theorem prefHeld1 (c : Dev nD) (q) (pf) :
    (Pipeline.prefHeld (Ix := HIx 1) (Name := ℕ) (U := UU) (Lvl := ℕ) (Val := Elt F) (pcfgs (F := F) 0).pre c q pf : sProp 𝕄) = BI.emp := by
  unfold Pipeline.prefHeld
  show (bigSep (Finset.univ : Finset (Fin 0)) _ : sProp 𝕄) = _
  rw [Finset.univ_eq_empty, BI.bigSep_empty]

/-! ## The core's `owes` across the region -/

/-- The TensorCore owing nothing with its recorded pairs at or below level 8 owes as the pipeline's point `t` says: -/
theorem owesAt_intro (c : Dev nD) (t : Fin (cfg1.N + 1)) :
    iprop(∃ W, ⌜(K (F := F)).WBelow (SparseCore.T c : Thread nD τ) W 8⌝ ∗ owes (SparseCore.T c : Thread nD τ) (0 : CellTallies nD τ sig (HIx 1)) W)
      ⊢ ((dat1 m c).owesAt (none : HIx 1) t : sProp 𝕄) := by
  unfold Pipeline.Dat.owesAt Pipeline.owesWithin Pipeline.Dat.bound
  rw [owed_eq, recorded_eq]
  iintro ⟨%W, %hW, HO⟩
  iexists W; isplitr
  · ipureintro; exact fun p hp => Or.inl (hW p (Finset.mem_coe.mp hp))
  iexact HO

/-- and back: the pipeline's own waits are on its staging cells at the index of level 0. -/
theorem owesAt_elim (c : Dev nD) (t : Fin (cfg1.N + 1)) :
    ((dat1 m c).owesAt (none : HIx 1) t : sProp 𝕄)
      ⊢ iprop(∃ W, ⌜(K (F := F)).WBelow (SparseCore.T c : Thread nD τ) W 8⌝ ∗ owes (SparseCore.T c : Thread nD τ) (0 : CellTallies nD τ sig (HIx 1)) W) := by
  unfold Pipeline.Dat.owesAt Pipeline.owesWithin Pipeline.Dat.bound
  rw [owed_eq, recorded_eq]
  iintro ⟨%W, %hW, HO⟩
  iexists W; isplitr
  · ipureintro
    intro p hp
    rcases hW (Finset.mem_coe.mpr hp) with h | ⟨w, s, e⟩
    · exact h
    · rw [e]; exact Nat.zero_le _
  iexact HO

/-! ## The region's entry and exit -/

/-- ENTRY: the thread state holds the four arrays at the proof data's entry contents; the core's `owes` is the first
    point's; nothing else enters the invariant or bypasses the region. -/
theorem hentry1 (c : Dev nD) :
    iprop(iprop((∃ W, ⌜(K (F := F)).WBelow (SparseCore.T c : Thread nD τ) W 8⌝ ∗ owes (SparseCore.T c : Thread nD τ) (0 : CellTallies nD τ sig (HIx 1)) W) ∗ regionPre m c)
        ∗ (Pipeline.ownSems0 (fun k : PEmpty => k.elim) c : sProp 𝕄) ∗ levAts (K (F := F)).L (K (F := F)).lev)
      ⊢ |={Set.univ}=> iprop((dat1 m c).arrays ((dat1 m c).arrAt · 0)
          ∗ Pipeline.prefHeld (pcfgs (F := F) 0).pre c (fun _ => fullShare) (adm (F := F) c 0).1
          ∗ (dat1 m c).owesAt (none : HIx 1) 0 ∗ emp ∗ emp) := by
  rw [arrays_entry, prefHeld1]
  iintro ⟨⟨HO, HA⟩, -, -⟩
  imodintro
  isplitl [HA]; · iexact HA
  isplitr; · iempintro
  isplitl [HO]; · iapply (owesAt_intro m c 0); iexact HO
  isplitr <;> iempintro

/-- EXIT: the arrays at their final contents and the last point's `owes` are the thread state the region leaves. -/
theorem hexit1 (c : Dev nD) :
    iprop((dat1 m c).arrays ((dat1 m c).arrAt · cfg1.N) ∗ (dat1 m c).owesAt (none : HIx 1) (Fin.last cfg1.N) ∗ emp ∗ emp)
      ⊢ |={Set.univ}=> iprop((∃ W, ⌜(K (F := F)).WBelow (SparseCore.T c : Thread nD τ) W 8⌝ ∗ owes (SparseCore.T c : Thread nD τ) (0 : CellTallies nD τ sig (HIx 1)) W) ∗ regionPost m c) := by
  rw [arrays_exit]
  iintro ⟨HA, HO, -, -⟩
  imodintro
  isplitl [HO]; · iapply (owesAt_elim m c _); iexact HO
  iexact HA

/-! ## The region -/

set_option backward.isDefEq.respectTransparency.types false in
/-- The region as the library's segment: the decided layout, no semaphore of its own, the body obligation, no wait
    evidence needed (nothing is owed at the staging cells), and the four entailments around the thread states. -/
def reg : Pipeline.PerCore.RegionSeg (pcfgs (F := F)) adm (dats m) (none : HIx 1) (defs₀ (F := F)) 𝒱₀ (K (F := F)).L (K (F := F)).lev (0 : Fin 1) where
  win := Gen.launch1.win.to₀
  block_pos := Gen.block_pos1
  stage_whole := Gen.stage_whole1
  K := PEmpty
  osem k := k.elim
  ho := Pipeline.OwnSemFacts.none _
  hbody c := (body_obligation m c).loose
  hwaits := Pipeline.PerCore.hwaits_of_owed_zero _ _ _ _ _ _ 0 fun _ _ => rfl
  pre c := iprop((∃ W, ⌜(K (F := F)).WBelow (SparseCore.T c : Thread nD τ) W 8⌝ ∗ owes (SparseCore.T c : Thread nD τ) (0 : CellTallies nD τ sig (HIx 1)) W) ∗ regionPre m c)
  post c := iprop((∃ W, ⌜(K (F := F)).WBelow (SparseCore.T c : Thread nD τ) W 8⌝ ∗ owes (SparseCore.T c : Thread nD τ) (0 : CellTallies nD τ sig (HIx 1)) W) ∗ regionPost m c)
  X _ := iprop(emp)
  Y _ := iprop(emp)
  Z _ := iprop(emp)
  hentry c := hentry1 m c
  hin c := by
    show iprop(emp ∗ _ ∗ Pipeline.scopedRest spec1 c) ⊢ (Pipeline.scopedRest spec1 c : sProp 𝕄)
    iintro ⟨-, -, H⟩; iexact H
  hout c := by
    show (Pipeline.scopedRest spec1 c : sProp 𝕄) ⊢ iprop(emp ∗ Pipeline.ownSems0 (fun k : PEmpty => k.elim) c ∗ Pipeline.scopedRest spec1 c)
    rw [Pipeline.ownSems0_none]
    iintro H
    isplitr; · iempintro
    isplitr; · iempintro
    iexact H
  hexit c := hexit1 m c

theorem reg_pre (c : Dev nD) : (reg m).pre c = iprop((∃ W, ⌜(K (F := F)).WBelow (SparseCore.T c : Thread nD τ) W 8⌝ ∗ owes (SparseCore.T c : Thread nD τ) (0 : CellTallies nD τ sig (HIx 1)) W) ∗ regionPre m c) := rfl
theorem reg_post (c : Dev nD) : (reg m).post c = iprop((∃ W, ⌜(K (F := F)).WBelow (SparseCore.T c : Thread nD τ) W 8⌝ ∗ owes (SparseCore.T c : Thread nD τ) (0 : CellTallies nD τ sig (HIx 1)) W) ∗ regionPost m c) := rfl

set_option backward.isDefEq.respectTransparency.types false in
/-- The region's step in the SparseCore program's layer: from the boundary, the TensorCore owing nothing with its recorded
    pairs at or below level 8, the four arrays as @main's earlier statements left them, the level facts and the
    pipeline's ghost state, the call of the pipeline's entry runs to the boundary, the same `owes` and the arrays
    with the result written, for any continuation. -/
theorem region_wp (d : Dev nD) {α : Type}
    (k : PUnit → Prog (TpuEff nD τ sig (Elt F) (SparseCore.Sig (ΛP (F := F)) 1) .tc) α) (Q : α → sProp 𝕄) :
    iprop((iprop(boundary (SparseCore.T d : Thread nD τ) ∗ (∃ W', ⌜(K (F := F)).WBelow (SparseCore.T d : Thread nD τ) W' 8⌝ ∗ owes (SparseCore.T d : Thread nD τ) (0 : CellTallies nD τ sig (HIx 1)) W') ∗ regionPost m d)
            -∗ wp frame (wpE ((K (F := F)).defs (D (F := F))) 𝒱 (SparseCore.T d : Thread nD τ) none) Set.univ (k ⟨⟩) Q)
        ∗ boundary (SparseCore.T d : Thread nD τ) ∗ (∃ W, ⌜(K (F := F)).WBelow (SparseCore.T d : Thread nD τ) W 8⌝ ∗ owes (SparseCore.T d : Thread nD τ) (0 : CellTallies nD τ sig (HIx 1)) W) ∗ regionPre m d
        ∗ levAts (K (F := F)).L (K (F := F)).lev ∗ pipeGhost (F := F) d)
      ⊢ wp frame (wpE ((K (F := F)).defs (D (F := F))) 𝒱 (SparseCore.T d : Thread nD τ) none) Set.univ (.op (.customCall (SparseCore.inner (Pipeline.entry 0)) ()) k) Q := by
  have hR := Pipeline.PerCore.RegionSeg.wp (pcfgs (F := F)) adm (dats m) (none : HIx 1) phinj EP (defs₀ (F := F)) 𝒱₀ (K (F := F)).L (K (F := F)).lev
    (reg m) d none (fun _ h => nomatch h) (fun _ => .ret ⟨⟩) (fun x => wp frame (wpE ((K (F := F)).defs (D (F := F))) 𝒱 (SparseCore.T d : Thread nD τ) none) Set.univ (k x) Q)
  have hL := (K (F := F)).wp_liftProg (D (F := F)) 𝒱 (SparseCore.T d : Thread nD τ) Set.univ none
    (.op (.customCall (Pipeline.entry 0) ()) fun _ => .ret ⟨⟩) (fun x => wp frame (wpE ((K (F := F)).defs (D (F := F))) 𝒱 (SparseCore.T d : Thread nD τ) none) Set.univ (k x) Q)
  rw [show (Prog.op (.customCall (SparseCore.inner (Pipeline.entry 0)) ()) k : Prog (TpuEff nD τ sig (Elt F) (SparseCore.Sig (ΛP (F := F)) 1) .tc) α)
      = ((SparseCore.liftProg (.op (.customCall (Pipeline.entry 0) ()) fun _ => .ret ⟨⟩)) >>= k) from rfl, wp_bind]
  refine BIBase.Entails.trans ?_ hL
  refine BIBase.Entails.trans ?_ hR
  rw [reg_pre, reg_post]
  unfold pipeGhost
  iintro ⟨Hk, Hb, HO, HA, Hlv, Hg, Ht⟩
  isplitl [Hk]
  · iintro ⟨Hb, HO, HP⟩
    rw [wp_ret]; imodintro
    iapply Hk
    isplitl [Hb]; · iexact Hb
    isplitl [HO]; · iexact HO
    iexact HP
  isplitl [Hb]; · iexact Hb
  isplitl [HO HA]
  · isplitl [HO]; · iexact HO
    iexact HA
  isplitl [Hlv]; · iexact Hlv
  isplitl [Hg]; · iexact Hg
  iexact Ht

/-! ## The pipeline's share of the launch -/

/-- The rounds library's launch element at the pipeline's staging cells and the transfers its loop issues. -/
def pipeU₀ : UP :=
  initOf (Pipeline.PerCore.cells (Pipeline.pinD (pcfgs (F := F)) adm) phinj) (Pipeline.PerCore.launchToks (Pipeline.pinD (pcfgs (F := F)) adm) phinj)

/-- Funding: from the launch element, every device's ghost state for the pipeline's cells and its duty tokens. -/
theorem fund_pipe :
    (BI.own (EP (F := F) (pipeU₀ (F := F))) : sProp 𝕄) ⊢ |==> bigSep Finset.univ fun d : Dev nD => pipeGhost (F := F) d := by
  unfold pipeU₀
  refine BI.Entails.trans (Pipeline.PerCore.fund_ghost (Pipeline.pinD (pcfgs (F := F)) adm) EP phinj) ?_
  refine BI.bupd_mono ?_
  rw [← bigSep_sep']
  refine bigSep_mono fun d _ => ?_
  unfold pipeGhost
  rw [Finset.univ_unique, BI.bigSep_singleton, BI.bigSep_singleton]
  exact BI.Entails.refl _

end Cert.KernelProof

end
-- ==== Proof.KernelMain.lean ====
/-
  @main on the TensorCore, the launch element, and the program's run.

  @main reshapes the indices (one host operation), hands every vector subcore its index slab, a read share of the table
  and its output chunks, takes them back with the chunks holding the looked-up rows, reshapes the bias to one row, and
  runs the TensorCore pipeline over the flat rows array; it ends holding the four arguments at their launch contents and
  the result array at what the pipeline's 64 points wrote. After its one SparseCore call the TensorCore owes nothing, so
  the pipeline is entered owing nothing and its own waits (index `none`) stay below every level the handshakes use.
  The launch element is the handshakes' rounds beside the pipeline's rounds; the transfers' counters start at one.
-/
import proofs.«206693_g6700148982047_cont_9to1_m_1101_3_alg».proof.Proof.KernelSetup
import proofs.«206693_g6700148982047_cont_9to1_m_1101_3_alg».proof.Proof.KernelSplit
import proofs.«206693_g6700148982047_cont_9to1_m_1101_3_alg».proof.Proof.KernelTile
import proofs.«206693_g6700148982047_cont_9to1_m_1101_3_alg».proof.Proof.KernelRegion

noncomputable section

namespace Cert.KernelProof

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable [∀ e, Nonempty (Elt F e)]

variable (m : (ℓ : Loc nD τ sig) → Buf (Elt F) ℓ) (ρ : Dev nD → PrngReg)

/-! ## The launch theorem's facts about the handshake semaphores -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

instance P_storable : (P (F := F) m).IsStorable where
  st q d c := match q with | 0 => by unfold P tileRes; infer_instance
  dn q d c := match q with | 0 => by unfold P tileRes; infer_instance
  go q d c i := match q with | 0 => by unfold P tileRes; infer_instance
  td q d c i := match q with | 0 => by unfold P tileRes; infer_instance

/-! ## The launch element: the handshakes' rounds, the pipeline's rounds, no counter -/

def u₀ : UU := (initOf (K (F := F)).hsCells (K (F := F)).hsToks, (pipeU₀ (F := F), 1))

omit [FloatOps F] in
theorem bigSep_emp' {I : Type} (s : Finset I) : (bigSep s fun _ => iprop(emp)) = (iprop(emp) : sProp 𝕄) := bigSep_emp_const s

theorem ownU_split (a : UH) (b : UP) (c : Counters) : (ownU ((a, (b, c)) : UU) : sProp 𝕄) ⊢ iprop(BI.own (EH a) ∗ BI.own (EP b)) := by
  have h0 : (ownU ((a, (b, c)) : UU) : sProp 𝕄)
      = BI.own ((uEmb (nD := nD) (sig := sig) (Ix := HIx 1) (Val := Elt F) (Name := ℕ) (U := UU) (Lvl := ℕ)).toEmb ((a, (b, c)) : UU)) := rfl
  rw [h0]
  iintro Hu
  ihave H := (own_pair_emb (uEmb (nD := nD) (sig := sig) (Ix := HIx 1) (Val := Elt F) (Name := ℕ) (U := UU) (Lvl := ℕ)).toEmb a (b, c)) $$ Hu
  icases H with ⟨Ha, Hbc⟩
  ihave H' := (own_pair_emb ((Emb.inr : Emb (UP × Counters) UU).trans (uEmb (nD := nD) (sig := sig) (Ix := HIx 1) (Val := Elt F) (Name := ℕ) (U := UU) (Lvl := ℕ)).toEmb) b c) $$ Hbc
  icases H' with ⟨Hb, -⟩
  isplitl [Ha]
  · iexact Ha
  · iexact Hb

theorem hu₀ : (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (fund_pipe (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev v0' : DevRef τ sig := Proc.devRef .tc (main_v0 : Ref sig .tc)
abbrev a3' : DevRef τ sig := Proc.devRef .tc (main_arg3 : Ref sig .tc)
abbrev v2' : DevRef τ sig := Proc.devRef .tc (main_v2 : Ref sig .tc)
/-- The two host operations of @main: the indices reshaped to [32, 50, 128], the bias to one row. -/
abbrev op0 : HloOp τ sig (Elt F) := StableHlo.reshape main_arg0 main_v0 rfl Facts₀.shapeCasts_S4096x50_S32x50x128
abbrev op2 : HloOp τ sig (Elt F) := StableHlo.reshape main_arg3 main_v2 rfl Facts₀.shapeCasts_S256_S1x256
abbrev S0 : Finset (DevRef τ sig) := {a0', v0'}
abbrev S2 : Finset (DevRef τ sig) := {a3', v2'}

/-- The launch valuation. -/
def V0 (d : Dev nD) : Valuation τ sig (Elt F) := fun b => m (d, b)

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (v0Loc d ↦{fullShare} W main_v0) ∗ (v1Loc d ↦{fullShare} W main_v1) ∗ (v2Loc d ↦{fullShare} W main_v2)
      ∗ (v3Loc d ↦{fullShare} W main_v3)) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem held_S0 (d : Dev nD) (W : Valuation τ sig (Elt F)) :
    (held (T d) S0 W : sProp 𝕄) = iprop((a0Loc d ↦{fullShare} W a0') ∗ (v0Loc d ↦{fullShare} W v0')) := by
  unfold held S0
  rw [SparseCore.bigSep_insert' (by decide), bigSep_singleton]
omit [FloatOps F] in
theorem held_S2 (d : Dev nD) (W : Valuation τ sig (Elt F)) :
    (held (T d) S2 W : sProp 𝕄) = iprop((a3Loc d ↦{fullShare} W a3') ∗ (v2Loc d ↦{fullShare} W v2')) := by
  unfold held S2
  rw [SparseCore.bigSep_insert' (by decide), bigSep_singleton]

theorem op0_a0 (d : Dev nD) : (op0 (F := F)).result (V0 m d) a0' = m (a0Loc d) :=
  (op0 (F := F)).result_of_not_mem (V0 m d) (b := a0') (show a0' ∉ ({v0'} : Finset (DevRef τ sig)) by decide)
theorem op0_v0 (d : Dev nD) : (op0 (F := F)).result (V0 m d) v0' = idx3 m d :=
  StableHlo.reshape_result main_arg0 main_v0 rfl Facts₀.shapeCasts_S4096x50_S32x50x128 _ _ (V0 m d)
theorem op2_a3 (d : Dev nD) : (op2 (F := F)).result (V0 m d) a3' = m (a3Loc d) :=
  (op2 (F := F)).result_of_not_mem (V0 m d) (b := a3') (show a3' ∉ ({v2'} : Finset (DevRef τ sig)) by decide)
theorem op2_v2 (d : Dev nD) : (op2 (F := F)).result (V0 m d) v2' = bias2 m d :=
  StableHlo.reshape_result main_arg3 main_v2 rfl Facts₀.shapeCasts_S256_S1x256 _ _ (V0 m d)

theorem held_S0_res (d : Dev nD) :
    (held (T d) S0 ((op0 (F := F)).result (V0 m d)) : sProp 𝕄) = iprop((a0Loc d ↦{fullShare} m (a0Loc d)) ∗ (v0Loc d ↦{fullShare} idx3 m d)) := by
  rw [held_S0, op0_a0, op0_v0]
theorem held_S2_res (d : Dev nD) :
    (held (T d) S2 ((op2 (F := F)).result (V0 m d)) : sProp 𝕄) = iprop((a3Loc d ↦{fullShare} m (a3Loc d)) ∗ (v2Loc d ↦{fullShare} bias2 m d)) := by
  rw [held_S2, op2_a3, op2_v2]

/-- The TensorCore's handshake state after the one call, apart from what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

/-- After its last call the TensorCore owes nothing. -/
theorem tcSt_one (d : Dev nD) :
    ((K (F := F)).tcSt EH d 1 : sProp 𝕄) = iprop((∃ W, ⌜(K (F := F)).WBelow (SparseCore.T d) W 8⌝ ∗ owes (SparseCore.T d) 0 W) ∗ tcRest (F := F) d) := by
  unfold SparseCore.Cfg.tcSt tcRest
  rw [(K (F := F)).Otc_end d (le_refl 1)]

/-- What @main leaves the claim: the four arguments at their launch contents and the result array. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ (v3Loc d ↦{fullShare} outF m d))

theorem hmain (κ : GSem nD τ sig → ℕ) (d : Dev nD) :
    iprop((K (F := F)).ctx EH (P m) κ ∗ (K (F := F)).tcSt EH d 0 ∗ (K (F := F)).tcRes m ρ d ∗ pipeGhost (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Hv0, Hv1, Hv2, Hv3⟩, -, -⟩, HG⟩
  -- the indices reshaped
  iapply (wp_hlo_within 𝒱 (SparseCore.T d) none Set.univ (op := op0) (S := S0) (Finset.Subset.refl _) (V := V0 m d)) $$ [Hb Ha0 Hv0]
  · isplitl [Hb]; · iexact Hb
    rw [held_S0]
    isplitl [Ha0]; · iexact Ha0
    iexact Hv0
  iintro ⟨Hb, Hheld⟩
  ihave Hh := (Entails.of_eq (held_S0_res m d)) $$ Hheld
  icases Hh with ⟨Ha0, Hv0⟩
  rw [wp_ret]; imodintro
  -- the call: every worker its slab, its read share of the table, its chunks; back with the chunks at the looked-up rows
  ihave Hsp := (split_all m d) $$ [Hv0 Ha1 Hv1]
  · isplitl [Hv0]; · iexact Hv0
    isplitl [Ha1]; · iexact Ha1
    iexact Hv1
  icases Hsp with ⟨Ha1r, Hstp⟩
  iapply ((K (F := F)).wp_run (D (F := F)) 𝒱 (EH := EH) (P := P m) κ d 0) $$ [Hst Hstp Hb Ha0 Ha1r Ha2 Ha3 Hv2 Hv3 HG]
  isplitr; · iexact Hctx
  isplitl [Hst]; · iexact Hst
  isplitl [Hstp]; · iexact Hstp
  iintro ⟨Hst, Hdn⟩
  ihave Hj := (join_all m d) $$ [Ha1r Hdn]
  · isplitl [Ha1r]; · iexact Ha1r
    iexact Hdn
  icases Hj with ⟨Hv0, Ha1, Hv1⟩
  -- the bias reshaped to one row
  iapply (wp_hlo_within 𝒱 (SparseCore.T d) none Set.univ (op := op2) (S := S2) (Finset.Subset.refl _) (V := V0 m d)) $$ [Hb Ha3 Hv2]
  · isplitl [Hb]; · iexact Hb
    rw [held_S2]
    isplitl [Ha3]; · iexact Ha3
    iexact Hv2
  iintro ⟨Hb, Hheld⟩
  ihave Hh := (Entails.of_eq (held_S2_res m d)) $$ Hheld
  icases Hh with ⟨Ha3, Hv2⟩
  rw [wp_ret]; imodintro
  -- the TensorCore region, entered owing nothing
  ihave Hst' := (Entails.of_eq (show ((K (F := F)).tcSt EH d ((0 : Fin 1).val + 1) : sProp 𝕄) = _ from tcSt_one (F := F) d)) $$ Hst
  icases Hst' with ⟨Ho, Hrest⟩
  ihave Hlev := (SparseCore.Cfg.ctx_levAts κ) $$ Hctx
  simp only [Prog.lift]
  iapply (region_wp m d (fun x => Prog.ret x) _) $$ [Hb Ho Hv1 Ha2 Hv2 Hv3 HG Hrest Ha0 Ha1 Ha3 Hv0]
  isplitl [Hrest Ha0 Ha1 Ha3 Hv0]
  · iintro ⟨Hb, Ho, Hpost⟩
    unfold regionPost
    icases Hpost with ⟨Hv1, Ha2, Hv2, Hv3⟩
    rw [wp_ret]; imodintro; imodintro
    isplitl [Ho Hrest]
    · iapply (Entails.of_eq (tcSt_one (F := F) d).symm)
      isplitl [Ho]; · iexact Ho
      iexact Hrest
    isplitl [Ha0]; · iexact Ha0
    isplitl [Ha1]; · iexact Ha1
    isplitl [Ha2]; · iexact Ha2
    isplitl [Ha3]; · iexact Ha3
    iexact Hv3
  isplitl [Hb]; · iexact Hb
  isplitl [Ho]; · iexact Ho
  isplitl [Hv1 Ha2 Hv2 Hv3]
  · unfold regionPre
    isplitl [Hv1]; · iexact Hv1
    isplitl [Ha2]; · iexact Ha2
    isplitl [Hv2]; · iexact Hv2
    iexact Hv3
  isplitr; · iexact Hlev
  iexact HG

/-! ## Reading the claim off the final memory -/

def fq (d : Dev nD) (s' : Phys nD τ sig (Elt F)) : Prop :=
  s'.mem.mem (v3Loc d) = outF m d ∧ s'.mem.mem (a0Loc d) = m (a0Loc d) ∧ s'.mem.mem (a1Loc d) = m (a1Loc d)
    ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp 𝕄) := by
  iintro ⟨⟨Ha0, Ha1, Ha2, Ha3, Hv3⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI Ha3]
  · isplitl [HSI] <;> iassumption
  icases H with ⟨%h3, HSI, -⟩
  ihave H := (SI_pointsTo_agree (st := s') (ℓ := v3Loc d) (I := Finset.univ) (q := fullShare) (f := outF m d)) $$ [HSI Hv3]
  · isplitl [HSI] <;> iassumption
  icases H with %h4
  ipureintro
  exact ⟨funext fun i => h4 i (Finset.mem_univ i), funext fun i => h0 i (Finset.mem_univ i), funext fun i => h1 i (Finset.mem_univ i),
    funext fun i => h2 i (Finset.mem_univ i), funext fun i => h3 i (Finset.mem_univ i)⟩

/-! ## The program's run -/

/-- Every final state has the result array at `outF` and the four arguments at their launch contents. -/
def QC : PUnit × MemSt nD τ sig (Elt F) → Prop := fun r => ∀ c : Dev nD,
  r.2.mem (v3Loc c) = outF m c ∧ r.2.mem (a0Loc c) = m (a0Loc c) ∧ r.2.mem (a1Loc c) = m (a1Loc c)
    ∧ r.2.mem (a2Loc c) = m (a2Loc c) ∧ r.2.mem (a3Loc c) = m (a3Loc c)

theorem run_main (hr : ∀ d : Dev nD, Cert.Spec.InRange (m (a0Loc d) : IVec Cert.Spec.SIdx 32)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hr)
    (fun q _ => match q with | 0 => SparseCore.Cfg.VecSplit.of_plain (vecSplit m))
    m ρ main (fun d => pipeGhost (F := F) d) (FIN m) (u₀ (F := F)) (sep_elim_left.trans (hu₀ m)) (hmain m ρ) (fq m) (hfin m) (QC m) (fun _ h => h)

end Cert.KernelProof

end
-- ==== Proof.KernelIdealSetup.lean ====
/-
  The kernel program as the SparseCore launch theorem sees it, and the resources its threads exchange.

  The program: @main reshapes the indices to [32, 50, 128]; one SparseCore call runs on 2 × 16 vector subcores, the
  subcore at coordinates (c, s) being worker `w = 2·s + c`: it copies slab `w` of the reshaped indices into its index
  scratch, then for each of 50 chunks gathers the 128 table rows the chunk's index words name into its row scratch and
  copies them out to rows [6400·w + 128·k, 6400·w + 128·k + 128) of the flat [204800, 128] array; @main then reshapes
  the bias to [1, 256] and runs one TensorCore pipeline of 64 points over the flat array.

  What a worker is handed: its own index slab (whole share: the slabs are disjoint), one of 32 read shares of the
  table, and its 50 output chunks; what it hands back: the same, the chunks now holding the looked-up rows.
-/
import proofs.«206693_g6700148982047_cont_9to1_m_1101_3_alg».proof.Defs
import proofs.«206693_g6700148982047_cont_9to1_m_1101_3_alg».proof.Proof.Spec
import proofs.«206693_g6700148982047_cont_9to1_m_1101_3_alg».proof.Proof.Gen.KernelIdeal
import proofs.«206693_g6700148982047_cont_9to1_m_1101_3_alg».proof.Proof.Gen.KernelIdeal.Skeleton
import proofs.«206693_g6700148982047_cont_9to1_m_1101_3_alg».proof.Proof.Gen.KernelIdeal.Launch
import proofs.«206693_g6700148982047_cont_9to1_m_1101_3_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.KernelIdealProof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl
theorem bound_zero : grid0.bound 0 = 2 := rfl
theorem bound_one : grid0.bound 1 = 16 := rfl

/-! ## The resource algebra: the handshakes' rounds, the pipeline's rounds, the transfers' counters -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL
/-- The pipeline's rounds: the left factor of the right factor. -/
def EP : Emb UP (MT nD τ sig (HIx 1) (Elt F) ℕ UU ℕ) :=
  (Emb.inl : Emb UP (UP × Counters)).trans ((Emb.inr : Emb (UP × Counters) UU).trans
    (uEmb (nD := nD) (sig := sig) (Ix := HIx 1) (Val := Elt F) (Name := ℕ) (U := UU) (Lvl := ℕ)).toEmb)

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The buffers -/

variable (m : (ℓ : Loc nD τ sig) → Buf (Elt F) ℓ)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

/-- The reshaped indices: what @main's first operation leaves in the [32, 50, 128] array. -/
def idx3 [FloatOps F] (d : Dev nD) : Buf (Elt F) (v0Loc d) :=
  shapeCast S32x50x128 (m (a0Loc d) : IVec S4096x50 32) Facts₀.shapeCasts_S4096x50_S32x50x128
/-- The looked-up rows, flat: what the SparseCore call leaves in the [204800, 128] array. -/
def embF (d : Dev nD) : Buf (Elt F) (v1Loc d) :=
  Cert.Spec.emb (F := F) (m (a0Loc d) : IVec Cert.Spec.SIdx 32) (m (a1Loc d) : FVec F Cert.Spec.STbl .f32)
/-- The bias as one row: what @main's third operation leaves in the [1, 256] array. -/
def bias2 [FloatOps F] (d : Dev nD) : Buf (Elt F) (v2Loc d) :=
  shapeCast S1x256 (m (a3Loc d) : FVec F S256 .f32) Facts₀.shapeCasts_S256_S1x256

/-! ## A worker's pieces, spelt as its program slices them -/

/-- The worker at grid coordinates `L = (c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- Its number, `2·s + c`. -/
def widOf (L : grid0.Coords) : Fin 32 := ⟨2 * (L 1).val + (L 0).val, by
  have h0 : (L 0).val < 2 := (L 0).isLt
  have h1 : (L 1).val < 16 := (L 1).isLt
  omega⟩

abbrev v0W : Memref sig .scVector .hbm S32x50x128 .i32 := Memref.whole main_v0_scv
abbrev tblW : Memref sig .scVector .hbm S100000x128 .f32 := Memref.whole main_arg1_scv
abbrev v1W : Memref sig .scVector .hbm S204800x128 .f32 := Memref.whole main_v1_scv
abbrev sI : Memref sig .scVector .vmem S50x128 .i32 := Memref.whole cc0_scratch0
abbrev sR : Memref sig .scVector .vmem S128x128 .f32 := Memref.whole cc0_scratch1

variable [FloatOps F]

/-- Slab `w` of the reshaped indices, squeezed to [50, 128], as the worker's first copy names it. -/
abbrev idxSlab (L : grid0.Coords) : Memref sig .scVector .hbm S50x128 .i32 :=
  ((v0W : Memref sig .scVector .hbm S32x50x128 .i32).slice (Rect.unit (s := S32x50x128) (k0_off1 L) S1x50x128.size (Facts₀.k0_off1_inb L)) (fun _ => rfl)).squeeze S50x128 Facts₀.squeezes_S1x50x128_S50x128
/-- Output chunk `k` of worker `L`: 128 whole rows of the flat array. -/
abbrev outChunk (L : grid0.Coords) (k : Fin k0_t1_loop.trips) : Memref sig .scVector .hbm S128x128 .f32 :=
  (v1W : Memref sig .scVector .hbm S204800x128 .f32).slice (Rect.unit (s := S204800x128) (k0_off3 L k) S128x128.size (Facts₀.k0_off3_inb L k)) (fun _ => rfl)

abbrev idxSlabSet (L : grid0.Coords) : Finset S32x50x128.Idx := (idxSlab L).view.set
abbrev outChunkSet (L : grid0.Coords) (k : Fin k0_t1_loop.trips) : Finset S204800x128.Idx := (outChunk L k).view.set

local notation "𝕄" => MT nD τ sig (HIx 1) (Elt F) ℕ UU ℕ

/-- The read share of the table worker `L` is lent. -/
abbrev tblShare (L : grid0.Coords) : PosShare TreeShare := Transfers.shareTok fullShare 32 (widOf L)

/-- What worker `L` of device `d` is handed: its index slab, its read share of the table, its 50 output chunks at
    the contents `f`. -/
def tileRes (d : Dev nD) (L : grid0.Coords) (f : Buf (Elt F) (v1Loc d)) : sProp 𝕄 :=
  iprop((v0Loc d ↦[idxSlabSet L]{fullShare} idx3 m d)
    ∗ (a1Loc d ↦{tblShare L} m (a1Loc d))
    ∗ bigSep Finset.univ fun k : Fin k0_t1_loop.trips => v1Loc d ↦[outChunkSet L k]{fullShare} f)

/-- The one call: every worker is handed `tileRes` at the array's launch contents and hands it back at the looked-up
    rows; a SparseCore's share is its 16 workers'. Neither side consumes anything of the launch's. -/
def P : (K (F := F)).Pay (nD := nD) (Val := Elt F) (Name := ℕ) (U := UU) where
  st := fun q d c => match q with
    | 0 => bigSep Finset.univ fun i : Fin 16 => tileRes m d (coordsV (Fin.cast (by rfl) c) i) (m (v1Loc d))
  dn := fun q d c => match q with
    | 0 => bigSep Finset.univ fun i : Fin 16 => tileRes m d (coordsV (Fin.cast (by rfl) c) i) (embF m d)
  go := fun q d c i => match q with
    | 0 => tileRes m d (coordsV (Fin.cast (by rfl) c) (Fin.cast (by rfl) i)) (m (v1Loc d))
  td := fun q d c i => match q with
    | 0 => tileRes m d (coordsV (Fin.cast (by rfl) c) (Fin.cast (by rfl) i)) (embF m d)
  x := fun _ _ => iprop(emp)

end Cert.KernelIdealProof

end
-- ==== Proof.KernelIdealSplit.lean ====
/-
  How the three arrays divide among the 32 workers, and come together again.

  Worker `(c, s)` has number `w = 2·s + c`.  The reshaped [32, 50, 128] index array is cut along its first axis into 32
  slabs, slab `w` being worker `w`'s; the flat [204800, 128] array is cut along its first axis into 1600 chunks of 128
  rows, chunk `50·w + k` being worker `w`'s `k`-th; the table is not cut: its whole share is divided into a remainder and
  32 read shares, share `w` being worker `w`'s.  Slabs are pairwise disjoint and cover the index array, chunks are
  pairwise disjoint and cover the flat array, and `(c, s) ↦ 2·s + c` and `(w, k) ↦ 50·w + k` are bijections: so the three
  arrays held whole are exactly the remainder of the table beside everything the 2 × 16 workers hold, whatever the flat
  array's contents.
-/
import proofs.«206693_g6700148982047_cont_9to1_m_1101_3_alg».proof.Proof.KernelIdealSetup

noncomputable section

namespace Cert.KernelIdealProof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

local notation "𝕄" => MT nD τ sig (HIx 1) (Elt F) ℕ UU ℕ

/-! ## Numbering the workers and the chunks -/

/-- The loop over a worker's chunks has 50 trips. -/
theorem trips_eq : k0_t1_loop.trips = 50 := by decide

omit [FloatOps F] in
/-- The grid's two coordinates range over 2 and 16 values. -/
theorem nCore_b : (K (F := F)).nCore 0 = grid0.bound 0 := rfl
omit [FloatOps F] in
theorem nSub_b : (K (F := F)).nSub 0 = grid0.bound 1 := rfl

/-- `(c, s) ↦ 2·s + c` is a bijection from 2 × 16 onto 32. -/
def wEquiv : Fin (grid0.bound 0) × Fin (grid0.bound 1) ≃ Fin 32 where
  toFun x := ⟨2 * x.2.val + x.1.val, by
    have h0 : x.1.val < 2 := x.1.isLt
    have h1 : x.2.val < 16 := x.2.isLt
    omega⟩
  invFun w := (⟨w.val % 2, (Nat.mod_lt _ (by norm_num) : w.val % 2 < 2)⟩, ⟨w.val / 2, (by have := w.isLt; omega : w.val / 2 < 16)⟩)
  left_inv := fun ⟨c, s⟩ => by
    have h0 : c.val < 2 := c.isLt
    exact Prod.ext
      (Fin.ext (by show (2 * s.val + c.val) % 2 = c.val; omega))
      (Fin.ext (by show (2 * s.val + c.val) / 2 = s.val; omega))
  right_inv := fun w => Fin.ext (by show 2 * (w.val / 2) + w.val % 2 = w.val; omega)

/-- `(w, k) ↦ 50·w + k` is a bijection from 32 × 50 onto 1600. -/
def chunkEquiv : Fin 32 × Fin k0_t1_loop.trips ≃ Fin 1600 where
  toFun x := ⟨50 * x.1.val + x.2.val, by have := x.1.isLt; have : x.2.val < 50 := trips_eq ▸ x.2.isLt; omega⟩
  invFun j := (⟨j.val / 50, by have := j.isLt; omega⟩, ⟨j.val % 50, by have h := trips_eq; omega⟩)
  left_inv := fun ⟨w, k⟩ => by
    have hk : k.val < 50 := trips_eq ▸ k.isLt
    exact Prod.ext
      (Fin.ext (by show (50 * w.val + k.val) / 50 = w.val; omega))
      (Fin.ext (by show (50 * w.val + k.val) % 50 = k.val; omega))
  right_inv := fun j => Fin.ext (by show 50 * (j.val / 50) + j.val % 50 = j.val; omega)

omit [FloatOps F] in
/-- A family over the 32 worker numbers, regrouped by coordinates. -/
theorem regroup (Φ : Fin 32 → sProp 𝕄) :
    bigSep Finset.univ Φ
      = bigSep Finset.univ fun c : Fin (grid0.bound 0) => bigSep Finset.univ fun s : Fin (grid0.bound 1) => Φ (widOf (coordsV c s)) := by
  rw [bigSep_univ_equiv wEquiv Φ, bigSep_univ_prod]
  exact bigSep_congr fun c _ => bigSep_congr fun s _ => congrArg Φ (Fin.ext rfl)

/-! ## The index slabs -/

theorem hdivI : 32 ∣ S32x50x128.size 0 := ⟨1, rfl⟩
/-- Slab `w`: the `w`-th of 32 parts along the first axis. -/
abbrev slab (w : Fin 32) : Rect S32x50x128 := Rect.part (s := S32x50x128) (a₀ := 0) hdivI w
abbrev slabSet (w : Fin 32) : Finset S32x50x128.Idx := (slab w).set

/-- The rectangle a worker's first copy slices is its slab. -/
theorem slabRect_eq (L : grid0.Coords) :
    Rect.unit (s := S32x50x128) (k0_off1 L) S1x50x128.size (Facts₀.k0_off1_inb L) = slab (widOf L) := by
  unfold slab Rect.part Rect.block
  congr 1 <;> funext a
  · rw [k0_off1_eq]
    match a with
    | 0 => simp [Shape.partIx, Shape.partSize, widOf]
    | 1 => simp [Shape.partIx, Shape.partSize]
    | 2 => simp [Shape.partIx, Shape.partSize]
  · match a with
    | 0 => simp [Shape.partSize]
    | 1 => simp [Shape.partSize]
    | 2 => simp [Shape.partSize]

theorem idxSlabSet_eq (L : grid0.Coords) : idxSlabSet L = slabSet (widOf L) := by
  have e : ((v0W : Memref sig .scVector .hbm S32x50x128 .i32).view.slice
        (Rect.unit (s := S32x50x128) (k0_off1 L) S1x50x128.size (Facts₀.k0_off1_inb L))).set
      = ((v0W : Memref sig .scVector .hbm S32x50x128 .i32).view.slice (slab (widOf L))).set :=
    by rw [slabRect_eq]
  show (((v0W : Memref sig .scVector .hbm S32x50x128 .i32).view.slice
      (Rect.unit (s := S32x50x128) (k0_off1 L) S1x50x128.size (Facts₀.k0_off1_inb L))).reshape S50x128
        Facts₀.squeezes_S1x50x128_S50x128.numel_eq).set = _
  rw [View.set_reshape]
  exact e.trans (View.set_slice_whole _ _)

theorem slabs_disjoint : ∀ i ∈ (Finset.univ : Finset (Fin 32)), ∀ j ∈ (Finset.univ : Finset (Fin 32)), i ≠ j → Disjoint (slabSet i) (slabSet j) :=
  fun _ _ _ _ h => Rect.part_disjoint hdivI h
theorem slabs_cover : (Finset.univ : Finset (Fin 32)).biUnion slabSet = Finset.univ := Rect.biUnion_part hdivI

omit [FloatOps F] in
/-- The index array whole, at any contents, is its 32 slabs. -/
theorem idx_slabs (d : Dev nD) (g : Buf (Elt F) (v0Loc d)) :
    (v0Loc d ↦{fullShare} g : sProp 𝕄) = bigSep Finset.univ fun w : Fin 32 => v0Loc d ↦[slabSet w]{fullShare} g := by
  rw [← pointsTo_biUnion Finset.univ (ℓ := v0Loc d) slabSet slabs_disjoint, slabs_cover]; try rfl

/-- … and so is what the 2 × 16 workers hold of it. -/
theorem idx_pieces (d : Dev nD) (g : Buf (Elt F) (v0Loc d)) :
    (v0Loc d ↦{fullShare} g : sProp 𝕄)
      = bigSep Finset.univ fun c : Fin (grid0.bound 0) => bigSep Finset.univ fun s : Fin (grid0.bound 1) => v0Loc d ↦[idxSlabSet (coordsV c s)]{fullShare} g := by
  rw [idx_slabs d g, regroup]
  exact bigSep_congr fun c _ => bigSep_congr fun s _ => by rw [idxSlabSet_eq]

/-! ## The output chunks -/

theorem hdivO : 1600 ∣ S204800x128.size 0 := ⟨128, rfl⟩
/-- Chunk `j`: the `j`-th of 1600 parts of 128 rows along the first axis. -/
abbrev chunk (j : Fin 1600) : Rect S204800x128 := Rect.part (s := S204800x128) (a₀ := 0) hdivO j
abbrev chunkSet (j : Fin 1600) : Finset S204800x128.Idx := (chunk j).set

/-- The rectangle a worker's `k`-th copy-out slices is chunk `50·w + k`. -/
theorem chunkRect_eq (L : grid0.Coords) (k : Fin k0_t1_loop.trips) :
    Rect.unit (s := S204800x128) (k0_off3 L k) S128x128.size (Facts₀.k0_off3_inb L k) = chunk (chunkEquiv (widOf L, k)) := by
  unfold chunk Rect.part Rect.block
  congr 1 <;> funext a
  · rw [k0_off3_eq]
    match a with
    | 0 =>
      show 12800 * (L 1).val + 6400 * (L 0).val + 128 * k.val
        = S204800x128.partIx 0 (50 * (2 * (L 1).val + (L 0).val) + k.val) 0 * S204800x128.partSize 0 1600 0
      simp [Shape.partIx, Shape.partSize]; omega
    | 1 => simp [Shape.partIx, Shape.partSize]
  · match a with
    | 0 => simp [Shape.partSize]
    | 1 => simp [Shape.partSize]

theorem outChunkSet_eq (L : grid0.Coords) (k : Fin k0_t1_loop.trips) : outChunkSet L k = chunkSet (chunkEquiv (widOf L, k)) := by
  show ((v1W : Memref sig .scVector .hbm S204800x128 .f32).view.slice
      (Rect.unit (s := S204800x128) (k0_off3 L k) S128x128.size (Facts₀.k0_off3_inb L k))).set = _
  rw [chunkRect_eq]
  exact View.set_slice_whole _ _

theorem chunks_disjoint : ∀ i ∈ (Finset.univ : Finset (Fin 1600)), ∀ j ∈ (Finset.univ : Finset (Fin 1600)), i ≠ j → Disjoint (chunkSet i) (chunkSet j) :=
  fun _ _ _ _ h => Rect.part_disjoint hdivO h
theorem chunks_cover : (Finset.univ : Finset (Fin 1600)).biUnion chunkSet = Finset.univ := Rect.biUnion_part hdivO

omit [FloatOps F] in
/-- The flat array whole, at any contents, is its 1600 chunks. -/
theorem out_chunks (d : Dev nD) (f : Buf (Elt F) (v1Loc d)) :
    (v1Loc d ↦{fullShare} f : sProp 𝕄) = bigSep Finset.univ fun j : Fin 1600 => v1Loc d ↦[chunkSet j]{fullShare} f := by
  rw [← pointsTo_biUnion Finset.univ (ℓ := v1Loc d) chunkSet chunks_disjoint, chunks_cover]; try rfl

/-- … and so is what the 2 × 16 workers hold of it, 50 chunks each. -/
theorem out_pieces (d : Dev nD) (f : Buf (Elt F) (v1Loc d)) :
    (v1Loc d ↦{fullShare} f : sProp 𝕄)
      = bigSep Finset.univ fun c : Fin (grid0.bound 0) => bigSep Finset.univ fun s : Fin (grid0.bound 1) =>
          bigSep Finset.univ fun k : Fin k0_t1_loop.trips => v1Loc d ↦[outChunkSet (coordsV c s) k]{fullShare} f := by
  rw [out_chunks d f, bigSep_univ_equiv chunkEquiv, bigSep_univ_prod, regroup]
  exact bigSep_congr fun c _ => bigSep_congr fun s _ => bigSep_congr fun k _ => by rw [outChunkSet_eq]

/-! ## The table's read shares -/

omit [FloatOps F] in
/-- The table whole, at any contents, is the remainder and the 32 read shares. -/
theorem tbl_tokens (d : Dev nD) (g : Buf (Elt F) (a1Loc d)) :
    (a1Loc d ↦{fullShare} g : sProp 𝕄)
      = iprop((a1Loc d ↦{Transfers.shareDrop fullShare 32} g)
          ∗ bigSep Finset.univ fun i : Fin 32 => a1Loc d ↦{Transfers.shareTok fullShare 32 i} g) :=
  BI.equiv_iff.mp ⟨Transfers.pointsTo_toks_split fullShare 32, Transfers.pointsTo_toks_join fullShare 32⟩

/-- … the read shares being what the 2 × 16 workers hold of it. -/
theorem tbl_pieces (d : Dev nD) (g : Buf (Elt F) (a1Loc d)) :
    (bigSep Finset.univ fun i : Fin 32 => (a1Loc d ↦{Transfers.shareTok fullShare 32 i} g : sProp 𝕄))
      = bigSep Finset.univ fun c : Fin (grid0.bound 0) => bigSep Finset.univ fun s : Fin (grid0.bound 1) => a1Loc d ↦{tblShare (coordsV c s)} g :=
  regroup (fun i => a1Loc d ↦{Transfers.shareTok fullShare 32 i} g)

/-! ## The three arrays whole are the table's remainder and the workers' pieces -/

omit [FloatOps F] in
/-- Four resources, the second taken out of its pair and put first. -/
theorem sep_rearrange (A B C D : sProp 𝕄) : (iprop(A ∗ (B ∗ C) ∗ D) : sProp 𝕄) = iprop(B ∗ A ∗ C ∗ D) := by
  have h : (iprop(A ∗ (B ∗ C) ∗ D) : sProp 𝕄) ⊣⊢ iprop(B ∗ A ∗ C ∗ D) := by
    constructor
    · iintro ⟨H0, ⟨Hd, Ht⟩, H1⟩
      isplitl [Hd]; · iexact Hd
      isplitl [H0]; · iexact H0
      isplitl [Ht]; · iexact Ht
      iexact H1
    · iintro ⟨Hd, H0, Ht, H1⟩
      isplitl [H0]; · iexact H0
      isplitl [Hd Ht]
      · isplitl [Hd]; · iexact Hd
        iexact Ht
      iexact H1
  exact BI.equiv_iff.mp ⟨h.1, h.2⟩

/-- What one SparseCore's 16 workers hold together, the flat array at contents `f`. -/
abbrev coreRes (d : Dev nD) (c : Fin (grid0.bound 0)) (f : Buf (Elt F) (v1Loc d)) : sProp 𝕄 :=
  bigSep Finset.univ fun s : Fin (grid0.bound 1) => tileRes m d (coordsV c s) f

theorem pieces (d : Dev nD) (f : Buf (Elt F) (v1Loc d)) :
    (iprop((v0Loc d ↦{fullShare} idx3 m d) ∗ (a1Loc d ↦{fullShare} m (a1Loc d)) ∗ (v1Loc d ↦{fullShare} f)) : sProp 𝕄)
      = iprop((a1Loc d ↦{Transfers.shareDrop fullShare 32} m (a1Loc d)) ∗ bigSep Finset.univ fun c : Fin (grid0.bound 0) => coreRes m d c f) := by
  unfold coreRes tileRes
  rw [bigSep_congr (fun c _ => bigSep_sep' _ _ _), bigSep_sep', bigSep_congr (fun c _ => bigSep_sep' _ _ _), bigSep_sep',
    ← idx_pieces, ← tbl_pieces, ← out_pieces, tbl_tokens]
  exact sep_rearrange _ _ _ _

/-! ## The handshake payloads, spelt out -/

theorem P_st (d : Dev nD) (c : Fin ((K (F := F)).nCore 0)) :
    (P m).st 0 d c = coreRes m d (Fin.cast nCore_b c) (m (v1Loc d)) := rfl
theorem P_dn (d : Dev nD) (c : Fin ((K (F := F)).nCore 0)) :
    (P m).dn 0 d c = coreRes m d (Fin.cast nCore_b c) (embF m d) := rfl
theorem P_go (d : Dev nD) (c : Fin ((K (F := F)).nCore 0)) (i : Fin ((K (F := F)).nSub 0)) :
    (P m).go 0 d c i = tileRes m d (coordsV (Fin.cast nCore_b c) (Fin.cast nSub_b i)) (m (v1Loc d)) := rfl
theorem P_td (d : Dev nD) (c : Fin ((K (F := F)).nCore 0)) (i : Fin ((K (F := F)).nSub 0)) :
    (P m).td 0 d c i = tileRes m d (coordsV (Fin.cast nCore_b c) (Fin.cast nSub_b i)) (embF m d) := rfl

omit [FloatOps F] in
/-- A family over a SparseCore's 16 workers, indexed as the launch indexes its tiles. -/
theorem bigSep_tiles (Φ : Fin (grid0.bound 1) → sProp 𝕄) :
    (bigSep Finset.univ fun i : Fin ((K (F := F)).nSub 0) => Φ (Fin.cast nSub_b i)) = bigSep Finset.univ Φ :=
  bigSep_congr fun _ _ => congrArg Φ (Fin.ext rfl)

omit [FloatOps F] in
/-- A family over the 2 SparseCores, indexed as the launch indexes them. -/
theorem bigSep_cores (Φ : Fin (grid0.bound 0) → sProp 𝕄) :
    (bigSep Finset.univ fun c : Fin ((K (F := F)).nCore 0) => Φ (Fin.cast nCore_b c)) = bigSep Finset.univ Φ :=
  bigSep_congr fun _ _ => congrArg Φ (Fin.ext rfl)

/-! ## Split, join, and a SparseCore's share among its tiles -/

theorem split_all (d : Dev nD) :
    iprop((v0Loc d ↦{fullShare} idx3 m d) ∗ (a1Loc d ↦{fullShare} m (a1Loc d)) ∗ (v1Loc d ↦{fullShare} m (v1Loc d)))
      ⊢ (iprop((a1Loc d ↦{Transfers.shareDrop fullShare 32} m (a1Loc d))
          ∗ bigSep Finset.univ fun c : Fin ((K (F := F)).nCore 0) => (P m).st 0 d c) : sProp 𝕄) := by
  rw [pieces m d (m (v1Loc d)), bigSep_congr (fun c _ => P_st m d c), bigSep_cores (fun c => coreRes m d c (m (v1Loc d)))]

theorem join_all (d : Dev nD) :
    iprop((a1Loc d ↦{Transfers.shareDrop fullShare 32} m (a1Loc d))
          ∗ bigSep Finset.univ fun c : Fin ((K (F := F)).nCore 0) => (P m).dn 0 d c)
      ⊢ (iprop((v0Loc d ↦{fullShare} idx3 m d) ∗ (a1Loc d ↦{fullShare} m (a1Loc d)) ∗ (v1Loc d ↦{fullShare} embF m d)) : sProp 𝕄) := by
  rw [pieces m d (embF m d), bigSep_congr (fun c _ => P_dn m d c), bigSep_cores (fun c => coreRes m d c (embF m d))]

theorem vecSplit : (K (F := F)).VecSplit' (P m) 0 := by
  intro d c
  rw [P_st, P_dn, bigSep_congr (fun i _ => P_go m d c i), bigSep_congr (fun i _ => P_td m d c i),
    bigSep_tiles (fun s => tileRes m d (coordsV (Fin.cast nCore_b c) s) (m (v1Loc d))),
    bigSep_tiles (fun s => tileRes m d (coordsV (Fin.cast nCore_b c) s) (embF m d))]
  iintro H; imodintro
  isplitl [H]; · iexact H
  iintro H; iexact H

end Cert.KernelIdealProof

end
-- ==== Proof.KernelIdealIndex.lean ====
/-
  The reshaped arrays read at an index.

  A reshape keeps the row-major position.  The indices [4096, 50] reshaped to [32, 50, 128]: position
  `6400·w + 128·k + j` of the flat order is entry `(w, k, j)` of the one and entry `(p / 50, p % 50)` of the other.
  The looked-up rows at flat row `p` are the table row that index word names.  The bias [256] reshaped to [1, 256]
  reads the same entry.
-/
import proofs.«206693_g6700148982047_cont_9to1_m_1101_3_alg».proof.Proof.KernelIdealSetup
import Idealize.ShloMosaic.Lib.Pipeline.Value
import Idealize.ShloMosaic.Lib.ValueLayout
import Idealize.ShloMosaic.Lib.ValueIdx

noncomputable section

namespace Cert.KernelIdealProof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

local notation "𝕄" => MT nD τ sig (HIx 1) (Elt F) ℕ UU ℕ

/-- The flat position of entry `(w, k, j)` of the [32, 50, 128] array is below 204800. -/
theorem flat_lt (w : Fin 32) (k : Fin 50) (j : Fin 128) : 6400 * w.val + 128 * k.val + j.val < 204800 := by
  have := w.isLt; have := k.isLt; have := j.isLt; omega

/-- The reshaped indices at `(w, k, j)`: the index array at the batch row and history position of flat position
    `6400·w + 128·k + j`. -/
theorem idx3_apply (d : Dev nD) (w : Fin 32) (k : Fin 50) (j : Fin 128) :
    (idx3 m d : IVec S32x50x128 32) (ValueIdx.ix3 w k j)
      = (m (a0Loc d) : IVec Cert.Spec.SIdx 32) (ValueIdx.ix2 (Cert.Spec.batchOf ⟨6400 * w.val + 128 * k.val + j.val, flat_lt w k j⟩)
          (Cert.Spec.histOf ⟨6400 * w.val + 128 * k.val + j.val, flat_lt w k j⟩)) := by
  have hw := w.isLt; have hk := k.isLt; have hj := j.isLt
  unfold idx3
  refine shapeCast_apply _ _ (ValueIdx.ix3 w k j) (ValueIdx.ix2 (Cert.Spec.batchOf ⟨6400 * w.val + 128 * k.val + j.val, flat_lt w k j⟩)
      (Cert.Spec.histOf ⟨6400 * w.val + 128 * k.val + j.val, flat_lt w k j⟩)) ?_
  rw [Shape.rowMajor_val_two, Shape.rowMajor_val_three]
  show (6400 * w.val + 128 * k.val + j.val) / 50 * 50 + (6400 * w.val + 128 * k.val + j.val) % 50 = (w.val * 50 + k.val) * 128 + j.val
  omega

/-- The looked-up rows at flat row `6400·w + 128·k + j`: the table row the reshaped index word at `(w, k, j)` names. -/
theorem embF_apply (d : Dev nD) (w : Fin 32) (k : Fin 50) (j : Fin 128) (col : Fin 128) :
    (embF m d : FVec F S204800x128 .f32) (ValueIdx.ix2 (⟨6400 * w.val + 128 * k.val + j.val, flat_lt w k j⟩ : Fin 204800) col)
      = (m (a1Loc d) : FVec F Cert.Spec.STbl .f32) (ValueIdx.ix2 (Cert.Spec.row ((idx3 m d : IVec S32x50x128 32) (ValueIdx.ix3 w k j))) col) := by
  rw [idx3_apply]
  rfl

/-- The bias row at `(0, h)` is the bias at `h`. -/
theorem bias2_apply (d : Dev nD) (h : Fin 256) :
    (bias2 m d : FVec F S1x256 .f32) (ValueIdx.ix2 (0 : Fin 1) h) = (m (a3Loc d) : FVec F S256 .f32) (ValueIdx.ix1 h) := by
  unfold bias2
  refine shapeCast_apply _ _ (ValueIdx.ix2 (0 : Fin 1) h) (ValueIdx.ix1 h) ?_
  rw [Shape.rowMajor_val_one, Shape.rowMajor_val_two]
  show h.val = 0 * 256 + h.val
  omega

/-- In-range indices stay in range through the reshape. -/
theorem idx3_inRange (d : Dev nD) (hr : Cert.Spec.InRange (m (a0Loc d) : IVec Cert.Spec.SIdx 32)) (i : S32x50x128.Idx) :
    0 ≤ ((idx3 m d : IVec S32x50x128 32) i).toInt ∧ ((idx3 m d : IVec S32x50x128 32) i).toInt ≤ 99999 := by
  have e : i = ValueIdx.ix3 (i 0 : Fin 32) (i 1 : Fin 50) (i 2 : Fin 128) := ValueIdx.eq_ix3 i
  have h := (congrArg (idx3 m d : IVec S32x50x128 32) e).trans (idx3_apply m d (i 0) (i 1) (i 2))
  rw [h]
  exact hr _

end Cert.KernelIdealProof

end
-- ==== Proof.KernelIdealTile.lean ====
/-
  The task of one vector subcore: the body obligation of the SparseCore call.

  Worker `w = 2·s + c` copies slab `w` of the reshaped indices into its index scratch and waits for the copy; then, for
  each of 50 trips `k`, it gathers the 128 table rows that row `k` of the index scratch names into its row scratch,
  waits, copies the row scratch out to rows [6400·w + 128·k, 6400·w + 128·k + 128) of the flat array, and waits.  One
  copy at a time per semaphore, each waited for before the next is issued on it: the counters protocol that needs no
  schedule.

  The value is carried in the loop's invariant: before trip `n` the chunks below `n` hold the looked-up rows and the
  others their entry contents.  After the gather the row scratch holds, at `(j, col)`, the table row that the index
  word at `(w, k, j)` names, at column `col`; that word is in [0, 99999], so it names the row of its own value, and the
  flat row `6400·w + 128·k + j` of the looked-up rows is exactly that table row.  A chunk is held on its own elements
  at one whole-array function, so what the write-out leaves is rewritten to the looked-up rows on those elements.
-/
import proofs.«206693_g6700148982047_cont_9to1_m_1101_3_alg».proof.Proof.KernelIdealSetup
import proofs.«206693_g6700148982047_cont_9to1_m_1101_3_alg».proof.Proof.KernelIdealIndex
import Idealize.ShloMosaic.Lib.SparseCore.Stream
import Idealize.ShloMosaic.Lib.Exec

noncomputable section

namespace Cert.KernelIdealProof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- The launch's decided facts about the launch semaphores and the signature. -/
theorem factsK : (K (F := F)).Facts := by
  refine ⟨?_, ?_, ?_, ?_, ?_, ?_, fun _ => rfl⟩
  · show sc_start ≠ sc_taskDone; decide
  · show (SemLoc.reg sc_start : SemLoc sig).isScoped .scScalar = false; decide
  · show (SemLoc.reg sc_taskDone : SemLoc sig).isScoped .scScalar = false; decide
  · show (SemLoc.reg sc_go : SemLoc sig).isScoped .scVector = false; decide
  · show (SemLoc.reg sc_done : SemLoc sig).isScoped .tc = false; decide
  · show ∀ (b : DevRef τ sig) (c : Fin τ.nSC), b.owner = .sc c → sig.taskShared b.table b.idx = false; decide

/-! ## Members of a family taken out by name -/

section Take

variable {M : Type} [URA M] {I : Type} [DecidableEq I]

theorem bigSep_take2 {s : Finset I} {a b : I} (ha : a ∈ s) (hb : b ∈ s) (hab : a ≠ b) {Φ : I → sProp M} :
    bigSep s Φ = iprop(Φ a ∗ Φ b ∗ bigSep ((s.erase a).erase b) Φ) := by
  rw [SparseCore.bigSep_erase' ha, SparseCore.bigSep_erase' (Finset.mem_erase.mpr ⟨hab.symm, hb⟩)]

theorem bigSep_take3 {s : Finset I} {a b c : I} (ha : a ∈ s) (hb : b ∈ s) (hc : c ∈ s) (hab : a ≠ b) (hac : a ≠ c) (hbc : b ≠ c)
    {Φ : I → sProp M} :
    bigSep s Φ = iprop(Φ a ∗ Φ b ∗ Φ c ∗ bigSep (((s.erase a).erase b).erase c) Φ) := by
  rw [SparseCore.bigSep_erase' ha, SparseCore.bigSep_erase' (Finset.mem_erase.mpr ⟨hab.symm, hb⟩),
    SparseCore.bigSep_erase' (Finset.mem_erase.mpr ⟨hbc.symm, Finset.mem_erase.mpr ⟨hac.symm, hc⟩⟩)]

end Take

/-! ## The worker's thread, its three semaphore cells, its two scratch buffers -/

abbrev tileC (L : grid0.Coords) : Fin τ.nSC := (L 0).castLE hcore0
abbrev tileS (L : grid0.Coords) : Fin τ.nSub := (L 1).castLE hsub0
abbrev tileThr (d : Dev nD) (L : grid0.Coords) : Thread nD τ := V d (tileC L) (tileS L)

/-- The gather's semaphore, the index copy's, the write-out's. -/
abbrev gCell (d : Dev nD) (L : grid0.Coords) : GSem nD τ sig := (tileThr d L, .dma cc0_scratch2.sem)
abbrev iCell (d : Dev nD) (L : grid0.Coords) : GSem nD τ sig := (tileThr d L, .dma cc0_scoped0.sem)
abbrev oCell (d : Dev nD) (L : grid0.Coords) : GSem nD τ sig := (tileThr d L, .dma cc0_scoped1.sem)

abbrev restCells (d : Dev nD) (L : grid0.Coords) : Finset (GSem nD τ sig) :=
  (((ownCells (tileThr d L)).erase (gCell d L)).erase (iCell d L)).erase (oCell d L)

theorem ownSems0_cells (d : Dev nD) (L : grid0.Coords) :
    (ownSems0 (tileThr d L) : sProp 𝕄)
      = iprop(semVal (gCell d L) 0 ∗ semVal (iCell d L) 0 ∗ semVal (oCell d L) 0 ∗ bigSep (restCells d L) fun g => semVal g 0) := by
  unfold SparseCore.Cfg.ownSems0
  refine bigSep_take3 ?_ ?_ ?_ ?_ ?_ ?_
  · exact mem_ownCells.mpr ⟨rfl, by show (SemLoc.dma cc0_scratch2.sem : SemLoc sig).isScoped .scVector = true; decide⟩
  · exact mem_ownCells.mpr ⟨rfl, by show (SemLoc.dma cc0_scoped0.sem : SemLoc sig).isScoped .scVector = true; decide⟩
  · exact mem_ownCells.mpr ⟨rfl, by show (SemLoc.dma cc0_scoped1.sem : SemLoc sig).isScoped .scVector = true; decide⟩
  · exact fun e => absurd (congrArg Prod.snd e) (show (SemLoc.dma cc0_scratch2.sem : SemLoc sig) ≠ .dma cc0_scoped0.sem by decide)
  · exact fun e => absurd (congrArg Prod.snd e) (show (SemLoc.dma cc0_scratch2.sem : SemLoc sig) ≠ .dma cc0_scoped1.sem by decide)
  · exact fun e => absurd (congrArg Prod.snd e) (show (SemLoc.dma cc0_scoped0.sem : SemLoc sig) ≠ .dma cc0_scoped1.sem by decide)

abbrev iRef (L : grid0.Coords) : DevRef τ sig := (Proc.scVector (tileC L) (tileS L)).devRef cc0_scratch0
abbrev rRef (L : grid0.Coords) : DevRef τ sig := (Proc.scVector (tileC L) (tileS L)).devRef cc0_scratch1
abbrev restRefs (L : grid0.Coords) : Finset (DevRef τ sig) :=
  ((ownRefs (τ := τ) (.scVector (tileC L) (tileS L))).erase (iRef L)).erase (rRef L)

theorem ownBufs_scratch (d : Dev nD) (L : grid0.Coords) :
    (ownBufs (tileThr d L) : sProp 𝕄)
      = iprop((∃ f, (sI : Memref sig .scVector .vmem S50x128 .i32).view.loc (tileThr d L) ↦{fullShare} f)
          ∗ (∃ f, (sR : Memref sig .scVector .vmem S128x128 .f32).view.loc (tileThr d L) ↦{fullShare} f)
          ∗ bigSep (restRefs L) fun b => iprop(∃ f, ((d, b) : Loc nD τ sig) ↦{fullShare} f)) := by
  unfold SparseCore.Cfg.ownBufs
  exact bigSep_take2 (SparseCore.Cfg.mem_ownRefs_of_owner (p := Proc.scVector (tileC L) (tileS L)) (b := iRef L) rfl)
    (SparseCore.Cfg.mem_ownRefs_of_owner (p := Proc.scVector (tileC L) (tileS L)) (b := rRef L) rfl)
    (fun e => absurd (Proc.devRef_injective _ e) (show (cc0_scratch0 : Ref sig .scVector) ≠ cc0_scratch1 by decide))

/-! ## The arrays as the worker's memrefs address them -/

theorem tile_pts_idx (d : Dev nD) (L : grid0.Coords) (f : Buf (Elt F) (v0Loc d)) :
    ((idxSlab L).view.loc (tileThr d L) ↦[(idxSlab L).view.set]{fullShare} f : sProp 𝕄) = (v0Loc d ↦[idxSlabSet L]{fullShare} f) := rfl
theorem tile_pts_tbl (d : Dev nD) (L : grid0.Coords) (q : PosShare TreeShare) (f : Buf (Elt F) (a1Loc d)) :
    ((tblW : Memref sig .scVector .hbm S100000x128 .f32).view.loc (tileThr d L) ↦{q} f : sProp 𝕄) = (a1Loc d ↦{q} f) := rfl
theorem tile_pts_out (d : Dev nD) (L : grid0.Coords) (k : Fin k0_t1_loop.trips) (f : Buf (Elt F) (v1Loc d)) :
    ((outChunk L k).view.loc (tileThr d L) ↦[(outChunk L k).view.set]{fullShare} f : sProp 𝕄) = (v1Loc d ↦[outChunkSet L k]{fullShare} f) := rfl

/-! ## What the scratches hold -/

theorem trips_lt (k : Fin k0_t1_loop.trips) : k.val < 50 := Nat.lt_of_lt_of_le k.isLt k0_t1_abs.2.1

/-- Trip `k` as a row of the [50, 128] index scratch. -/
abbrev tripRow (k : Fin k0_t1_loop.trips) : Fin 50 := ⟨k.val, trips_lt k⟩

/-- The offset list of trip `k`: row `k` of the index scratch, as the gather names it. -/
abbrev offsRow (k : Fin k0_t1_loop.trips) : Memref sig .scVector .vmem S128 .i32 :=
  ((sI : Memref sig .scVector .vmem S50x128 .i32).slice (Rect.unit (s := S50x128) (k0_off2 k) S1x128.size (Facts₀.k0_off2_inb k)) (fun _ => rfl)).squeeze S128 Facts₀.squeezes_S1x128_S128

/-- The table as the gather names it: the whole of it, sliced whole. -/
abbrev tblAll : Memref sig .scVector .hbm S100000x128 .f32 :=
  (tblW : Memref sig .scVector .hbm S100000x128 .f32).slice (Rect.unit (s := S100000x128) ![0, 0] S100000x128.size Facts₀.inb_S100000x128_S100000x128_0_0) (fun _ => rfl)

variable (m : (ℓ : Loc nD τ sig) → Buf (Elt F) ℓ) [FloatOps F]

/-- Slab `w` of the reshaped indices: what the worker's index scratch holds after its first copy. -/
def slabF (d : Dev nD) (L : grid0.Coords) : Buf (Elt F) ((sI : Memref sig .scVector .vmem S50x128 .i32).view.loc (tileThr d L)) :=
  ReadAs.same.apply ((idxSlab L).view.read (Elt F) (idx3 m d))

/-! ## Reading the scratches at an index -/

/-- Entry `x` of trip `k`'s list is entry `(k, x)` of the index scratch. -/
theorem offsRow_emb (k : Fin k0_t1_loop.trips) (x : S128.Idx) : (offsRow k).view.emb x = (ix2 (tripRow k) (x 0 : Fin 128) : S50x128.Idx) := by
  have hre : Shape.reshapeEquiv (Facts₀.squeezes_S1x128_S128).numel_eq x = (ix2 (0 : Fin 1) (x 0 : Fin 128) : S1x128.Idx) :=
    Shape.reshapeEquiv_eq_of_rowMajor _ (by
      rw [Shape.rowMajor_val_two, Shape.rowMajor_val_one]
      show 0 * 128 + (x 0).val = (x 0).val
      omega)
  show (Rect.unit (s := S50x128) (k0_off2 k) S1x128.size (Facts₀.k0_off2_inb k)).emb (Shape.reshapeEquiv (Facts₀.squeezes_S1x128_S128).numel_eq x) = _
  rw [hre]
  funext a; apply Fin.ext
  rw [Rect.emb_apply]
  simp only [Rect.off_unit, Rect.stride_unit, k0_off2_eq]
  match a with
  | ⟨0, _⟩ => show k.val + 1 * 0 = k.val; omega
  | ⟨1, _⟩ => show 0 + 1 * (x 0).val = (x 0).val; omega

/-- Entry `(k, j)` of worker `L`'s slab is entry `(w, k, j)` of the reshaped indices. -/
theorem idxSlab_emb (L : grid0.Coords) (i : S50x128.Idx) :
    (idxSlab L).view.emb i = (ix3 (widOf L) (i 0 : Fin 50) (i 1 : Fin 128) : S32x50x128.Idx) := by
  have hre : Shape.reshapeEquiv (Facts₀.squeezes_S1x50x128_S50x128).numel_eq i = (ix3 (0 : Fin 1) (i 0 : Fin 50) (i 1 : Fin 128) : S1x50x128.Idx) :=
    Shape.reshapeEquiv_eq_of_rowMajor _ (by
      rw [Shape.rowMajor_val_three, Shape.rowMajor_val_two]
      show (0 * 50 + (i 0).val) * 128 + (i 1).val = (i 0).val * 128 + (i 1).val
      omega)
  show (Rect.unit (s := S32x50x128) (k0_off1 L) S1x50x128.size (Facts₀.k0_off1_inb L)).emb (Shape.reshapeEquiv (Facts₀.squeezes_S1x50x128_S50x128).numel_eq i) = _
  rw [hre]
  funext a; apply Fin.ext
  rw [Rect.emb_apply]
  simp only [Rect.off_unit, Rect.stride_unit, k0_off1_eq]
  match a with
  | ⟨0, _⟩ => show 2 * (L 1).val + (L 0).val + 1 * 0 = 2 * (L 1).val + (L 0).val; omega
  | ⟨1, _⟩ => show 0 + 1 * (i 0).val = (i 0).val; omega
  | ⟨2, _⟩ => show 0 + 1 * (i 1).val = (i 1).val; omega

theorem slabF_apply (d : Dev nD) (L : grid0.Coords) (i : S50x128.Idx) :
    (slabF m d L : IVec S50x128 32) i = (idx3 m d : IVec S32x50x128 32) (ix3 (widOf L) (i 0 : Fin 50) (i 1 : Fin 128)) := by
  unfold slabF
  show (idxSlab L).view.read (Elt F) (idx3 m d) i = _
  rw [View.read_apply, idxSlab_emb]
  rfl

/-- Trip `k`'s list read at `x`: the reshaped index word at `(w, k, x)`. -/
theorem offs_read (d : Dev nD) (L : grid0.Coords) (k : Fin k0_t1_loop.trips) (x : S128.Idx) :
    ((offsRow k).view.read (Elt F) (slabF m d L) x : BitVec 32) = (idx3 m d : IVec S32x50x128 32) (ix3 (widOf L) (tripRow k) (x 0 : Fin 128)) := by
  rw [View.read_apply, offsRow_emb]
  exact (cast_eq _ _).trans (slabF_apply m d L _)

/-- Every word of trip `k`'s list names a table row. -/
theorem offs_inb (hr : ∀ d : Dev nD, Cert.Spec.InRange (m (a0Loc d) : IVec Cert.Spec.SIdx 32)) (d : Dev nD) (L : grid0.Coords)
    (k : Fin k0_t1_loop.trips) : ∀ x, ((offsRow k).view.read (Elt F) (slabF m d L) x).toNat < 100000 := by
  intro x
  have e := offs_read m d L k x
  have h := idx3_inRange m d (hr d) (ix3 (widOf L) (tripRow k) (x 0 : Fin 128))
  rw [← e] at h
  have := BitVec.toInt_eq_toNat_cond ((offsRow k).view.read (Elt F) (slabF m d L) x : BitVec 32)
  obtain ⟨h0, h1⟩ := h
  split at this <;> omega

/-- The table read through the gather's whole slice is the table. -/
theorem tblAll_emb (y : S100000x128.Idx) : (tblAll).view.emb y = y := by
  show (Rect.unit (s := S100000x128) ![0, 0] S100000x128.size Facts₀.inb_S100000x128_S100000x128_0_0).emb y = y
  funext a; apply Fin.ext
  rw [Rect.emb_apply]
  simp only [Rect.off_unit, Rect.stride_unit]
  match a with
  | ⟨0, _⟩ => show 0 + 1 * (y 0).val = (y 0).val; omega
  | ⟨1, _⟩ => show 0 + 1 * (y 1).val = (y 1).val; omega

/-- Entry `(j, col)` of worker `L`'s output chunk `k` is entry `(6400·w + 128·k + j, col)` of the flat array. -/
theorem outChunk_emb (L : grid0.Coords) (k : Fin k0_t1_loop.trips) (x : S128x128.Idx) :
    (outChunk L k).view.emb x
      = (ix2 (⟨6400 * (widOf L).val + 128 * (tripRow k).val + (x 0 : Fin 128).val, flat_lt (widOf L) (tripRow k) (x 0)⟩ : Fin 204800) (x 1 : Fin 128) : S204800x128.Idx) := by
  show (Rect.unit (s := S204800x128) (k0_off3 L k) S128x128.size (Facts₀.k0_off3_inb L k)).emb x = _
  funext a; apply Fin.ext
  rw [Rect.emb_apply]
  simp only [Rect.off_unit, Rect.stride_unit, k0_off3_eq]
  match a with
  | ⟨0, _⟩ =>
    show 12800 * (L 1).val + 6400 * (L 0).val + 128 * k.val + 1 * (x 0).val = 6400 * (2 * (L 1).val + (L 0).val) + 128 * k.val + (x 0).val
    omega
  | ⟨1, _⟩ => show 0 + 1 * (x 1).val = (x 1).val; omega

/-- The gather's payload at `(j, col)`: the looked-up rows at flat row `6400·w + 128·k + j`, column `col`. -/
theorem gathered_apply (hr : ∀ d : Dev nD, Cert.Spec.InRange (m (a0Loc d) : IVec Cert.Spec.SIdx 32)) (d : Dev nD) (L : grid0.Coords)
    (k : Fin k0_t1_loop.trips)
    (hn : S128.numel = S128x128.size (Facts₀.gathers_S100000x128_S128x128).axis')
    (hin : ∀ x, ((offsRow k).view.read (Elt F) (slabF m d L) x).toNat < S100000x128.size (Facts₀.gathers_S100000x128_S128x128).axis)
    (x : S128x128.Idx) :
    SparseCore.gatherPayload Facts₀.gathers_S100000x128_S128x128 ((tblAll).view.read (Elt F) (m (a1Loc d)))
        (SparseCore.rows ((offsRow k).view.read (Elt F) (slabF m d L)) hn hin) x
      = (embF m d : FVec F S204800x128 .f32)
          (ix2 (⟨6400 * (widOf L).val + 128 * (tripRow k).val + (x 0 : Fin 128).val, flat_lt (widOf L) (tripRow k) (x 0)⟩ : Fin 204800) (x 1 : Fin 128)) := by
  rw [embF_apply m d (widOf L) (tripRow k) (x 0) (x 1)]
  unfold SparseCore.gatherPayload
  rw [View.read_apply, tblAll_emb]
  refine (cast_eq _ _).trans ?_
  refine congrArg (m (a1Loc d) : FVec F Cert.Spec.STbl .f32) ?_
  -- the word the list holds at entry `x 0`
  have hy : ((S128.rowMajor.symm ((x 0 : Fin 128).cast hn.symm)) 0 : Fin 128) = (x 0 : Fin 128) := by
    apply Fin.ext
    have h1 := Shape.rowMajor_val_one (d := ![128]) (S128.rowMajor.symm ((x 0 : Fin 128).cast hn.symm))
    rw [Equiv.apply_symm_apply] at h1
    exact h1.symm
  have hw : ((offsRow k).view.read (Elt F) (slabF m d L) (S128.rowMajor.symm ((x 0 : Fin 128).cast hn.symm)) : BitVec 32)
      = (idx3 m d : IVec S32x50x128 32) (ix3 (widOf L) (tripRow k) (x 0 : Fin 128)) := by
    rw [offs_read, hy]
  have hrg := idx3_inRange m d (hr d) (ix3 (widOf L) (tripRow k) (x 0 : Fin 128))
  funext b; apply Fin.ext
  match b with
  | ⟨0, _⟩ =>
    show ((offsRow k).view.read (Elt F) (slabF m d L) (S128.rowMajor.symm ((x 0 : Fin 128).cast hn.symm)) : BitVec 32).toNat
      = (Cert.Spec.row ((idx3 m d : IVec S32x50x128 32) (ix3 (widOf L) (tripRow k) (x 0 : Fin 128)))).val
    rw [hw, Cert.Spec.row_val_of_range _ hrg.1 hrg.2]
  | ⟨1, _⟩ => rfl

/-- What trip `k` leaves in output chunk `k` — the row scratch, holding the gather's payload `G`, copied out whole — is
    the looked-up rows on the chunk's elements, whatever the chunk and the scratch held before. -/
theorem chunk_val (d : Dev nD) (L : grid0.Coords) (k : Fin k0_t1_loop.trips) (f0 : Buf (Elt F) (v1Loc d))
    (fR : Buf (Elt F) ((sR : Memref sig .scVector .vmem S128x128 .f32).view.loc (tileThr d L))) (G : S128x128.Idx → Elt F .f32)
    (hG : ∀ x : S128x128.Idx, G x = (embF m d : FVec F S204800x128 .f32)
      (ix2 (⟨6400 * (widOf L).val + 128 * (tripRow k).val + (x 0 : Fin 128).val, flat_lt (widOf L) (tripRow k) (x 0)⟩ : Fin 204800) (x 1 : Fin 128))) :
    ∀ i ∈ (outChunk L k).view.set,
      ((outChunk L k).view.writes (Elt F) f0 [⟨Rect.whole S128x128, ReadAs.same.apply
          ((sR : Memref sig .scVector .vmem S128x128 .f32).view.read (Elt F)
            ((sR : Memref sig .scVector .vmem S128x128 .f32).view.writes (Elt F) fR [⟨Rect.whole S128x128, G⟩]))⟩]) i
        = embF m d i := by
  intro i hi
  obtain ⟨x, -, rfl⟩ := Finset.mem_map.mp hi
  have h1 := View.read_writes_cons_emb (outChunk L k).view f0 (Rect.whole S128x128) (ReadAs.same.apply
      ((sR : Memref sig .scVector .vmem S128x128 .f32).view.read (Elt F)
        ((sR : Memref sig .scVector .vmem S128x128 .f32).view.writes (Elt F) fR [⟨Rect.whole S128x128, G⟩]))) [] x
  rw [Rect.emb_whole_apply, View.read_apply] at h1
  have h2 := View.read_writes_cons_emb (sR : Memref sig .scVector .vmem S128x128 .f32).view fR (Rect.whole S128x128) G [] x
  rw [Rect.emb_whole_apply] at h2
  refine ((cast_eq _ _).symm.trans h1).trans ?_
  show (sR : Memref sig .scVector .vmem S128x128 .f32).view.read (Elt F)
      ((sR : Memref sig .scVector .vmem S128x128 .f32).view.writes (Elt F) fR [⟨Rect.whole S128x128, G⟩]) x = _
  rw [h2, hG, outChunk_emb]

/-- Before trip `n`: the index scratch holds slab `w`, the row scratch anything, the table's share is in hand, the
    chunks below `n` hold the looked-up rows and the others their entry contents, the gather's and the write-out's
    counters are at zero, and the waits recorded beyond `W` are at index `none`. -/
def tileInv (d : Dev nD) (L : grid0.Coords) (O : CellTallies nD τ sig (HIx 1)) (W : Waits sig (HIx 1)) (n : Nat) (_ : PUnit) : sProp 𝕄 :=
  iprop(Transfers.MayWaits (tileThr d L) (none : HIx 1) O
    ∗ ((sI : Memref sig .scVector .vmem S50x128 .i32).view.loc (tileThr d L) ↦{fullShare} slabF m d L)
    ∗ (∃ f, (sR : Memref sig .scVector .vmem S128x128 .f32).view.loc (tileThr d L) ↦{fullShare} f)
    ∗ ((tblW : Memref sig .scVector .hbm S100000x128 .f32).view.loc (tileThr d L) ↦{tblShare L} m (a1Loc d))
    ∗ (bigSep Finset.univ fun k : Fin k0_t1_loop.trips =>
        v1Loc d ↦[outChunkSet L k]{fullShare} (if k.val < n then embF m d else m (v1Loc d)))
    ∗ semVal (gCell d L) 0 ∗ semVal (oCell d L) 0
    ∗ ∃ W', ⌜∀ p ∈ W', p ∈ W ∨ p.2 = none⌝ ∗ owes (tileThr d L) O W')

/-! ## The task at a symbolic worker -/

theorem tile_body (hr : ∀ d : Dev nD, Cert.Spec.InRange (m (a0Loc d) : IVec Cert.Spec.SIdx 32)) (d : Dev nD) (L : grid0.Coords)
    (O : CellTallies nD τ sig (HIx 1)) (W : Waits sig (HIx 1)) (hO : ∀ g, O g none = 0) :
    iprop(levAts (K (F := F)).L (K (F := F)).lev ∗ emp ∗ tileRes m d L (m (v1Loc d))
        ∗ scopedBufs (tileThr d L) ∗ scopedSems0 (tileThr d L) ∗ owes (tileThr d L) O W)
      ⊢ wp frame (wpE (defs₀ (F := F)) 𝒱₀ (tileThr d L) none) Set.univ
          (cc0_gather L v0W (Memref.isWhole_whole _) tblW (Memref.isWhole_whole _) v1W (Memref.isWhole_whole _)
            sI (Memref.isWhole_whole _) sR (Memref.isWhole_whole _) cc0_scratch2 cc0_scoped0 cc0_scoped1)
          fun _ => iprop(tileRes m d L (embF m d) ∗ scopedBufs (tileThr d L) ∗ scopedSems0 (tileThr d L)
            ∗ ∃ W', ⌜∀ p ∈ W', p ∈ W ∨ p.2 = none⌝ ∗ owes (tileThr d L) O W') := by
  simp only [cc0_gather_eq_skeleton]; unfold cc0_gather_skel
  rw [(K (F := F)).scopedBufs_V factsK d (tileC L) (tileS L), SparseCore.Cfg.scopedSems0_V (Val := Elt F) d (tileC L) (tileS L), ownSems0_cells, ownBufs_scratch]
  unfold tileRes
  iintro ⟨#Hlv, -, ⟨Hidx, Htbl, Hout⟩, ⟨⟨%fI0, HsI⟩, ⟨%fR0, HsR⟩, Hbufs⟩, ⟨Hg, Hi, Ho, Hsems⟩, HO⟩
  ihave Hmw := ((K (F := F)).mayWaits_none (thr := tileThr d L) hO) $$ Hlv
  ihave Hidx' := (Entails.of_eq (tile_pts_idx (F := F) d L _).symm) $$ Hidx
  ihave Htbl' := (Entails.of_eq (tile_pts_tbl (F := F) d L _ _).symm) $$ Htbl
  -- the index copy and its wait
  sl_exec
  have hsI0 : View.write (Elt F) (sI : Memref sig .scVector .vmem S50x128 .i32).view fI0 (slabF m d L) Finset.univ = slabF m d L :=
    View.write_whole_univ _ _ _
  sl_for (tileInv m d L O W) $$ [Hmw HsI HsR Htbl' Hout Hg Ho HO]
  case region =>
    intro k _
    unfold tileInv
    iintro ⟨Hmw, HsI, ⟨%fR, HsR⟩, Htbl, Hout, Hg, Ho, %W', %hW', HO⟩
    ihave Hout' := (Entails.of_eq (SparseCore.bigSep_erase' (Finset.mem_univ k))) $$ Hout
    icases Hout' with ⟨Hk, Hrest⟩
    ihave Hk' := (Entails.of_eq (tile_pts_out (F := F) d L k _).symm) $$ Hk
    -- the list's words name table rows
    have hin : ∀ x, ((offsRow k).view.read (Elt F) (slabF m d L) x).toNat < 100000 := offs_inb m hr d L k
    -- what the trip leaves in chunk `k`
    have hck := pointsTo_congr (Ix := HIx 1) (Name := ℕ) (U := UU) (Lvl := ℕ) (ℓ := (outChunk L k).view.loc (tileThr d L)) (I := (outChunk L k).view.set) (q := fullShare)
      (chunk_val m d L k (if k.val < k.val then embF m d else m (v1Loc d)) fR _ (fun x => gathered_apply m hr d L k rfl hin x))
    -- the gather and its wait, the write-out and its wait
    sl_exec
    sl_step
    isplitl [Hmw]; · iexact Hmw
    isplitl [HsI]; · iexact HsI
    isplitl [HsR]; · iexists _; iexact HsR
    isplitl [Htbl]; · iexact Htbl
    isplitl [Hk' Hrest]
    · iapply (Entails.of_eq (SparseCore.bigSep_erase' (Finset.mem_univ k)).symm)
      isplitl [Hk']
      · rw [if_pos (Nat.lt_succ_self k.val)]
        iapply (Entails.of_eq hck)
        iexact Hk'
      · rw [show (bigSep (Finset.univ.erase k) fun k' : Fin k0_t1_loop.trips =>
              (v1Loc d ↦[outChunkSet L k']{fullShare} (if k'.val < k.val + 1 then embF m d else m (v1Loc d)) : sProp 𝕄))
            = bigSep (Finset.univ.erase k) fun k' : Fin k0_t1_loop.trips =>
              (v1Loc d ↦[outChunkSet L k']{fullShare} (if k'.val < k.val then embF m d else m (v1Loc d)) : sProp 𝕄) from
          bigSep_congr fun k' hk' => by
            have hne : k'.val ≠ k.val := Fin.val_ne_of_ne (Finset.ne_of_mem_erase hk')
            by_cases h : k'.val < k.val
            · rw [if_pos h, if_pos (Nat.lt_succ_of_lt h)]
            · rw [if_neg h, if_neg (by omega)]]
        iexact Hrest
    isplitl [Hg]; · iexact Hg
    isplitl [Ho]; · iexact Ho
    iexists (insert (SemLoc.dma cc0_scoped1.sem, (default : HIx 1)) (insert (SemLoc.dma cc0_scratch2.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold tileInv
    isplitl [Hmw]; · iexact Hmw
    isplitl [HsI]; · rw [← hsI0]; iexact HsI
    isplitl [HsR]; · iexists _; iexact HsR
    isplitl [Htbl']; · iexact Htbl'
    isplitl [Hout]
    · rw [show (bigSep Finset.univ fun k' : Fin k0_t1_loop.trips =>
            (v1Loc d ↦[outChunkSet L k']{fullShare} (if k'.val < 0 then embF m d else m (v1Loc d)) : sProp 𝕄))
          = bigSep Finset.univ fun k' : Fin k0_t1_loop.trips => (v1Loc d ↦[outChunkSet L k']{fullShare} m (v1Loc d) : sProp 𝕄) from
        bigSep_congr fun k' _ => by rw [if_neg (Nat.not_lt_zero _)]]
      iexact Hout
    isplitl [Hg]; · iexact Hg
    isplitl [Ho]; · iexact Ho
    iexists (insert (SemLoc.dma cc0_scoped0.sem, (default : HIx 1)) W); isplitr
    · ipureintro; intro p hp
      rcases Finset.mem_insert.mp hp with hp | hp
      · exact .inr (hp ▸ rfl)
      · exact .inl hp
    · iexact HO
  iintro %_ HI
  unfold tileInv
  icases HI with ⟨-, HsI, ⟨%fR, HsR⟩, Htbl, Hout, Hg, Ho, %W', %hW', HO⟩
  sl_exec
  sl_step
  isplitl [Hidx' Htbl Hout]
  · isplitl [Hidx']; · iapply (Entails.of_eq (tile_pts_idx (F := F) d L _)); iexact Hidx'
    isplitl [Htbl]; · iapply (Entails.of_eq (tile_pts_tbl (F := F) d L _ _)); iexact Htbl
    rw [show (bigSep Finset.univ fun k' : Fin k0_t1_loop.trips => (v1Loc d ↦[outChunkSet L k']{fullShare} embF m d : sProp 𝕄))
        = bigSep Finset.univ fun k' : Fin k0_t1_loop.trips =>
          (v1Loc d ↦[outChunkSet L k']{fullShare} (if k'.val < k0_t1_loop.trips then embF m d else m (v1Loc d)) : sProp 𝕄) from
      bigSep_congr fun k' _ => by rw [if_pos k'.isLt]]
    iexact Hout
  isplitl [HsI HsR Hbufs]
  · isplitl [HsI]; · iexists _; iexact HsI
    isplitl [HsR]; · iexists _; iexact HsR
    iexact Hbufs
  isplitl [Hg Hi Ho Hsems]
  · isplitl [Hg]; · iexact Hg
    isplitl [Hi]; · iexact Hi
    isplitl [Ho]; · iexact Ho
    iexact Hsems
  iexists W'; isplitr
  · ipureintro; exact hW'
  · iexact HO

/-! ## The launch theorem's obligation -/

theorem defs₀_tile (c : Fin τ.nSC) (s : Fin τ.nSub) :
    defs₀ (F := F) (.scVector c s) 0 ()
      = SparseCore.onTile hcore0 hsub0 (fun c s => cc0_gather (coordsV c s)
          v0W (Memref.isWhole_whole _) tblW (Memref.isWhole_whole _) v1W (Memref.isWhole_whole _)
          sI (Memref.isWhole_whole _) sR (Memref.isWhole_whole _) cc0_scratch2 cc0_scoped0 cc0_scoped1) ⟨⟩ c s := rfl

omit [FloatOps F] in
/-- Waits recorded at index `none` are among those the obligation allows. -/
theorem tile_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body obligation of the one call: every worker's task, from its slab, its share of the table and its chunks at
    their launch contents to the same with the chunks holding the looked-up rows. -/
theorem tileObl (hr : ∀ d : Dev nD, Cert.Spec.InRange (m (a0Loc d) : IVec Cert.Spec.SIdx 32)) :
    (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  exact (tile_body m hr d (coordsV ⟨_, hc.1⟩ ⟨_, hc.2⟩) O W hO).trans (wp_mono frame _ _ fun _ => tile_post)

end Cert.KernelIdealProof

end
-- ==== Proof.KernelIdealRegionData.lean ====
/-
  The proof data of the one TensorCore pipeline inside the SparseCore program: what its four arrays hold when the
  region is entered, each window's block at a point, what the body leaves in the result's staging buffer, and the
  result array at the end.

  The pipeline has 64 points. At point t the body finds rows [3200·t, 3200·t + 3200) of the flat rows array, the
  whole weight matrix and the bias row in its three input buffers and stores one [64, 50, 256] block, written back
  to blocks [64·t, 64·t + 64) of the result.
-/
import proofs.«206693_g6700148982047_cont_9to1_m_1101_3_alg».proof.Proof.KernelIdealSetup
import Idealize.ShloMosaic.Lib.Pipeline.FrameBody

noncomputable section

namespace Cert.KernelIdealProof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)

/-! ## The arrays when the region is entered -/

/-- The pipeline has no prefetched table: the one (empty) admissible contents, on every device. -/
abbrev adm : Dev nD → (p : Fin 1) → (pcfgs (F := F) p).Adm := fun _ p => (cfgs p).toPCfg_adm

/-- Device `d`'s TensorCore buffers when the region is entered: the reshaped indices, the looked-up rows and the
    bias row where @main's earlier statements left them, every other buffer as launched. -/
def V1 (d : Dev nD) : (b : Ref sig .tc) → Buf (Elt F) ((SparseCore.T d : Thread nD τ).loc b) :=
  Function.update (Function.update (Function.update (fun b => m ((SparseCore.T d : Thread nD τ).loc b)) main_v0 (idx3 m d)) main_v2 (bias2 m d)) main_v1 (embF m d)

theorem V1_main_v1 (d : Dev nD) : V1 m d main_v1 = embF m d := Function.update_self ..
theorem V1_main_v2 (d : Dev nD) : V1 m d main_v2 = bias2 m d :=
  (Function.update_of_ne (by decide) ..).trans (Function.update_self ..)
theorem V1_main_v0 (d : Dev nD) : V1 m d main_v0 = idx3 m d :=
  (Function.update_of_ne (by decide) ..).trans ((Function.update_of_ne (by decide) ..).trans (Function.update_self ..))
theorem V1_of_ne (d : Dev nD) (b : Ref sig .tc) (h1 : b ≠ main_v1) (h2 : b ≠ main_v2) (h0 : b ≠ main_v0) :
    V1 m d b = m ((SparseCore.T d : Thread nD τ).loc b) :=
  (Function.update_of_ne h1 ..).trans ((Function.update_of_ne h2 ..).trans (Function.update_of_ne h0 ..))
theorem V1_main_arg0 (d : Dev nD) : V1 m d main_arg0 = m (a0Loc d) := V1_of_ne m d _ (by decide) (by decide) (by decide)
theorem V1_main_arg1 (d : Dev nD) : V1 m d main_arg1 = m (a1Loc d) := V1_of_ne m d _ (by decide) (by decide) (by decide)
theorem V1_main_arg2 (d : Dev nD) : V1 m d main_arg2 = m (a2Loc d) := V1_of_ne m d _ (by decide) (by decide) (by decide)
theorem V1_main_arg3 (d : Dev nD) : V1 m d main_arg3 = m (a3Loc d) := V1_of_ne m d _ (by decide) (by decide) (by decide)
theorem V1_main_v3 (d : Dev nD) : V1 m d main_v3 = m (v3Loc d) := V1_of_ne m d _ (by decide) (by decide) (by decide)

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V1 m c (Pipeline.arrRef spec1 w))

/-! ## What the body leaves in the result's buffer -/

abbrev r1_0 : Rect S3200x128 := Rect.unit (s := S3200x128) ![0, 0] S3200x128.size inb_S3200x128_S3200x128_0_0
abbrev r1_1 : Rect S256x128 := Rect.unit (s := S256x128) ![0, 0] S256x128.size inb_S256x128_S256x128_0_0
abbrev r1_2 : Rect S1x256 := Rect.unit (s := S1x256) ![0, 0] S1x256.size inb_S1x256_S1x256_0_0
abbrev r1_3 : Rect S64x50x256 := Rect.unit (s := S64x50x256) ![0, 0, 0] S64x50x256.size inb_S64x50x256_S64x50x256_0_0_0

variable [∀ e, Nonempty (Elt F e)]

/-- The result window's staging buffer after the body, from the three input blocks: its one store, of the whole
    buffer, of rows × weightsᵀ + bias reshaped to [64, 50, 256]. -/
def out1_3 (x0 : Vec F S3200x128 .f32) (x1 : Vec F S256x128 .f32) (x2 : Vec F S1x256 .f32) : Vec F S64x50x256 .f32 :=
  View.canon [⟨r1_3, k1_pay1 (View.ld x0 r1_0) (View.ld x1 r1_1) (View.ld x2 r1_2)⟩]

/-! ## The pipeline's proof data -/

/-- The proof data on device `c`: the arrays as the region finds them; after the body at point `t` each input's
    buffer at its block and the result's at `out1_3` of the three; the invariant the scoped buffers no window stages
    (there are none); full shares; nothing owed; the recorded pairs at or below level 8 throughout. -/
def dat1 (c : Dev nD) : Dat τ (Elt F) (HIx 1) ℕ UU ℕ cfg1 c where
  A w := V1 m c (Pipeline.arrRef spec1 w)
  after w t := match w with
    | ⟨0, _⟩ => iblk m c 0 t
    | ⟨1, _⟩ => iblk m c 1 t
    | ⟨2, _⟩ => iblk m c 2 t
    | ⟨3, _⟩ => out1_3 (iblk m c 0 t) (iblk m c 1 t) (iblk m c 2 t)
  Φ _ := Pipeline.scopedRest spec1 c
  q _ := fullShare
  owed _ := 0
  recorded _ := {p | (K (F := F)).lev ((SparseCore.T c : Thread nD τ), p.1) p.2 ≤ 8}

/-- The proof data of every pipeline (there is one) on every device. -/
def dats : (p : Fin 1) → (c : Dev nD) → Dat τ (Elt F) (HIx 1) ℕ UU ℕ (Pipeline.pinD (pcfgs (F := F)) adm c p) c :=
  fun _ c => dat1 m c

theorem dats_eq (p : Fin 1) (c : Dev nD) : dats m p c = dat1 m c := rfl

theorem A_eq (c : Dev nD) (w : Fin cfg1.W) : (dat1 m c).A w = V1 m c (Pipeline.arrRef spec1 w) := by
  dsimp only [dat1]

theorem after1_0 (c : Dev nD) (t : Fin cfg1.N) : (dat1 m c).after 0 t = iblk m c 0 t := by dsimp only [dat1]
theorem after1_1 (c : Dev nD) (t : Fin cfg1.N) : (dat1 m c).after 1 t = iblk m c 1 t := by dsimp only [dat1]
theorem after1_2 (c : Dev nD) (t : Fin cfg1.N) : (dat1 m c).after 2 t = iblk m c 2 t := by dsimp only [dat1]
theorem after1_3 (c : Dev nD) (t : Fin cfg1.N) :
    (dat1 m c).after 3 t = out1_3 (iblk m c 0 t) (iblk m c 1 t) (iblk m c 2 t) := by dsimp only [dat1]

theorem owed_eq (c : Dev nD) (t : Fin (cfg1.N + 1)) : (dat1 m c).owed t = 0 := rfl
theorem recorded_eq (c : Dev nD) (t : Fin (cfg1.N + 1)) :
    (dat1 m c).recorded t = {p | (K (F := F)).lev ((SparseCore.T c : Thread nD τ), p.1) p.2 ≤ 8} := rfl
theorem Φ_eq (c : Dev nD) (t : Fin (cfg1.N + 1)) : (dat1 m c).Φ t = Pipeline.scopedRest spec1 c := rfl

/-! ## The result array at the end -/

/-- The result array after the pipeline's 64 write-backs. -/
def outF (d : Dev nD) : Buf (Elt F) (v3Loc d) := (dat1 m d).arrAt 3 64

theorem outF_eq (d : Dev nD) : outF m d = (dats m 0 d).arrAt 3 64 := rfl

end Cert.KernelIdealProof

end
-- ==== Proof.KernelIdealRegion.lean ====
/-
  The TensorCore region inside the SparseCore program: the body obligation of its one pipeline at a generic point,
  the region's step from the thread state @main's earlier statements leave, and the pipeline's share of the launch's
  ghost state.

  The body at point t loads its three input buffers whole — rows [3200·t, 3200·t + 3200) of the flat rows array, the
  weight matrix, the bias row —, loads the result buffer (unread) and stores rows × weightsᵀ + bias, reshaped to
  [64, 50, 256], over all of it. The inputs' buffers hold their blocks at every point, fetched there or not; the
  pipeline owes nothing and waits only on its own staging cells, at the level-0 index.
-/
import proofs.«206693_g6700148982047_cont_9to1_m_1101_3_alg».proof.Proof.KernelIdealRegionData
import Idealize.ShloMosaic.Lib.Pipeline.FrameBody
import Idealize.ShloMosaic.Lib.Tactic

set_option maxRecDepth 16384

noncomputable section

namespace Cert.KernelIdealProof

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig (HIx 1) (Elt F) ℕ UU ℕ

variable (m : (ℓ : Loc nD τ sig) → Buf (Elt F) ℓ)

/-! ## The inputs' buffers hold their blocks -/

/-- Input window 0's current staging buffer holds its block at every point (it is fetched at every point). -/
theorem before1_0 (c : Dev nD) (t : Fin cfg1.N) (d) : (dat1 m c).before 0 t d = iblk m c 0 t :=
  ((dat1 m c).before_in_eq_fetched 0 rfl (fun _ => rfl) (fun _ _ _ => rfl)
      (fun t => by rw [after1_0]; unfold Dat.blockOf iblk; rw [A_eq]; try rfl) t d).trans
    (by unfold Dat.fetched Dat.blockOf iblk; rw [A_eq]; try rfl)
/-- Input window 1's holds the whole weight matrix at every point: fetched at the first, its index never moves. -/
theorem before1_1 (c : Dev nD) (t : Fin cfg1.N) (d) : (dat1 m c).before 1 t d = iblk m c 1 t :=
  ((dat1 m c).before_in_eq_fetched 1 rfl (fun _ => rfl) (fun _ _ _ => rfl)
      (fun t => by rw [after1_1]; unfold Dat.blockOf iblk; rw [A_eq]; try rfl) t d).trans
    (by unfold Dat.fetched Dat.blockOf iblk; rw [A_eq]; try rfl)
/-- Input window 2's holds the bias row at every point, likewise. -/
theorem before1_2 (c : Dev nD) (t : Fin cfg1.N) (d) : (dat1 m c).before 2 t d = iblk m c 2 t :=
  ((dat1 m c).before_in_eq_fetched 2 rfl (fun _ => rfl) (fun _ _ _ => rfl)
      (fun t => by rw [after1_2]; unfold Dat.blockOf iblk; rw [A_eq]; try rfl) t d).trans
    (by unfold Dat.fetched Dat.blockOf iblk; rw [A_eq]; try rfl)

/-! ## The body's triple -/

/-- The body's one store covers the result buffer. -/
theorem cover1_3 (p0 : Vec F S64x50x256 .f32) (y : S64x50x256.Idx) :
    ∃ pc ∈ ([⟨r1_3, p0⟩] : List (View.Piece (Elt F) S64x50x256 .f32)), y ∈ pc.1.set :=
  View.cover_of_tiled [⟨r1_3, p0⟩] S64x50x256.size (by rfl) y

set_option maxHeartbeats 1000000 in
/-- The body on whole staging memrefs, the inputs' at contents `x0`, `x1`, `x2` and the result's at anything, runs to
    the continuation holding the inputs' as they were and the result's at `out1_3` of them. -/
theorem sound_kernel (c : Dev nD) (E : Set ℕ) (i : grid1.Coords)
    (arg1 : Memref sig .tc .vmem S3200x128 .f32) (harg1 : arg1.IsWhole) (arg2 : Memref sig .tc .vmem S256x128 .f32) (harg2 : arg2.IsWhole)
    (arg3 : Memref sig .tc .vmem S1x256 .f32) (harg3 : arg3.IsWhole) (arg4 : Memref sig .tc .vmem S64x50x256 .f32) (harg4 : arg4.IsWhole)
    (x0 : Vec F S3200x128 .f32) (x1 : Vec F S256x128 .f32) (x2 : Vec F S1x256 .f32) (Kk : PUnit → sProp 𝕄) :
    iprop(owns (c.tc : Thread nD τ) arg1 fullShare x0 ∗ owns (c.tc : Thread nD τ) arg2 fullShare x1 ∗ owns (c.tc : Thread nD τ) arg3 fullShare x2
        ∗ (∃ d, owns (c.tc : Thread nD τ) arg4 fullShare d)
        ∗ (iprop(owns (c.tc : Thread nD τ) arg1 fullShare x0 ∗ owns (c.tc : Thread nD τ) arg2 fullShare x1 ∗ owns (c.tc : Thread nD τ) arg3 fullShare x2
            ∗ owns (c.tc : Thread nD τ) arg4 fullShare (out1_3 x0 x1 x2)) -∗ Kk ⟨⟩))
      ⊢ wp frame (wpE (defs₀ (F := F)) Variants.none (c.tc : Thread nD τ) none) E (cc1__mm_body i arg1 harg1 arg2 harg2 arg3 harg3 arg4 harg4) Kk := by
  simp only [cc1__mm_body_eq_skeleton]; unfold cc1__mm_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`, the windows one by one, -/
def bodyPre (c : Dev nD) (t : Fin cfg1.N) : sProp 𝕄 :=
  iprop((dat1 m c).Φ t.castSucc ∗ (dat1 m c).owesAt (none : HIx 1) t.castSucc
    ∗ (∃ d, owns (c.tc : Thread nD τ) (st1_0 t) fullShare ((dat1 m c).before 0 t d))
    ∗ (∃ d, owns (c.tc : Thread nD τ) (st1_1 t) fullShare ((dat1 m c).before 1 t d))
    ∗ (∃ d, owns (c.tc : Thread nD τ) (st1_2 t) fullShare ((dat1 m c).before 2 t d))
    ∗ (∃ d, owns (c.tc : Thread nD τ) (st1_3 t) fullShare ((dat1 m c).before 3 t d)))

/-- and what it returns. -/
def bodyPost (c : Dev nD) (t : Fin cfg1.N) : sProp 𝕄 :=
  iprop((dat1 m c).Φ t.succ ∗ (dat1 m c).owesAt (none : HIx 1) t.succ
    ∗ owns (c.tc : Thread nD τ) (st1_0 t) fullShare ((dat1 m c).after 0 t)
    ∗ owns (c.tc : Thread nD τ) (st1_1 t) fullShare ((dat1 m c).after 1 t)
    ∗ owns (c.tc : Thread nD τ) (st1_2 t) fullShare ((dat1 m c).after 2 t)
    ∗ owns (c.tc : Thread nD τ) (st1_3 t) fullShare ((dat1 m c).after 3 t))

/-- The body at any point: the inputs' memrefs hold their blocks, so `sound_kernel` applies; the invariant and the
    core's `owes` pass through unread. -/
theorem sound_body (c : Dev nD) (t : Fin cfg1.N) :
    bodyPre m c t ⊢ wp frame (wpE (defs₀ (F := F)) Variants.none (c.tc : Thread nD τ) none) Set.univ (bodyAt1 t) (fun _ => bodyPost m c t) := by
  unfold bodyPre bodyPost bodyAt1
  simp only [before1_0, before1_1, before1_2]
  rw [show (dat1 m c).Φ t.succ = (dat1 m c).Φ t.castSucc from rfl,
    show (dat1 m c).owesAt (none : HIx 1) t.succ = (dat1 m c).owesAt (none : HIx 1) t.castSucc from rfl,
    after1_0, after1_1, after1_2, after1_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat1 (F := F) m c) (defs₀ (F := F)) Variants.none (none : HIx 1) Set.univ := fun t => by
  rw [bigSep_W1, bigSep_W1]
  exact sound_body m c t

/-! ## The region's thread states -/

/-- The four windows' arrays when the region is entered: the looked-up rows, the weights, the bias row, and the
    result array as launched. -/
def regionPre (d : Dev nD) : sProp 𝕄 :=
  iprop((v1Loc d ↦{fullShare} embF m d) ∗ (a2Loc d ↦{fullShare} m (a2Loc d)) ∗ (v2Loc d ↦{fullShare} bias2 m d) ∗ (v3Loc d ↦{fullShare} m (v3Loc d)))

/-- and when it is left: the inputs unchanged, the result array after the 64 write-backs. -/
def regionPost (d : Dev nD) : sProp 𝕄 :=
  iprop((v1Loc d ↦{fullShare} embF m d) ∗ (a2Loc d ↦{fullShare} m (a2Loc d)) ∗ (v2Loc d ↦{fullShare} bias2 m d) ∗ (v3Loc d ↦{fullShare} outF m d))

/-- The pipeline's staging cells are pairwise distinct. -/
theorem phinj : Function.Injective (Pipeline.PerCore.cellOf (nD := nD) (τ := τ) (Pipeline.pinD (pcfgs (F := F)) adm)) := Gen.cellOf_inj

/-- What the launch deals device `d` for the pipeline's staging cells: their ghost state and the duty tokens of
    the transfers its loop issues. -/
def pipeGhost (d : Dev nD) : sProp 𝕄 :=
  iprop(Pipeline.PerCore.cellsGhost (Pipeline.pinD (pcfgs (F := F)) adm) EP 0 d ∗ Pipeline.PerCore.toksInit (Pipeline.pinD (pcfgs (F := F)) adm) EP 0 d)

/-! ## The arrays at the two ends -/

/-- The pipeline's arrays at contents `Fa`, one by one. -/
theorem arrays_at (c : Dev nD) (Fa : (w : Fin cfg1.W) → Buf (Elt F) ((cfg1.win w).arr.view.loc (c.tc : Thread nD τ))) :
    ((dat1 m c).arrays Fa : sProp 𝕄)
      = iprop((v1Loc c ↦{fullShare} Fa 0) ∗ (a2Loc c ↦{fullShare} Fa 1) ∗ (v2Loc c ↦{fullShare} Fa 2) ∗ (v3Loc c ↦{fullShare} Fa 3)) := by
  rw [Pipeline.PerCore.arrays_eq (fun _ _ => cfg1) (fun _ c => dat1 m c) (0 : Fin 1) c Gen.arr_whole1 ((dat1 m c).share_full fun _ => rfl) Fa, Gen.bigSep_W1]

theorem arrAt_0 (c : Dev nD) (n : Nat) : (dat1 m c).arrAt 0 n = embF m c :=
  ((dat1 m c).arrAt_in 0 rfl n).trans ((A_eq m c 0).trans (V1_main_v1 m c))
theorem arrAt_1 (c : Dev nD) (n : Nat) : (dat1 m c).arrAt 1 n = m (a2Loc c) :=
  ((dat1 m c).arrAt_in 1 rfl n).trans ((A_eq m c 1).trans (V1_main_arg2 m c))
theorem arrAt_2 (c : Dev nD) (n : Nat) : (dat1 m c).arrAt 2 n = bias2 m c :=
  ((dat1 m c).arrAt_in 2 rfl n).trans ((A_eq m c 2).trans (V1_main_v2 m c))
theorem arrAt_3_zero (c : Dev nD) : (dat1 m c).arrAt 3 0 = m (v3Loc c) :=
  (A_eq m c 3).trans (V1_main_v3 m c)
theorem arrAt_3_last (c : Dev nD) : (dat1 m c).arrAt 3 cfg1.N = outF m c :=
  congrArg ((dat1 m c).arrAt 3) Gen.N_1

theorem arrays_entry (c : Dev nD) : ((dat1 m c).arrays ((dat1 m c).arrAt · 0) : sProp 𝕄) = regionPre m c := by
  rw [arrays_at, arrAt_0, arrAt_1, arrAt_2, arrAt_3_zero]; rfl
theorem arrays_exit (c : Dev nD) : ((dat1 m c).arrays ((dat1 m c).arrAt · cfg1.N) : sProp 𝕄) = regionPost m c := by
  rw [arrays_at, arrAt_0, arrAt_1, arrAt_2, arrAt_3_last]; rfl

/-- The pipeline prefetches no table. -/
theorem prefHeld1 (c : Dev nD) (q) (pf) :
    (Pipeline.prefHeld (Ix := HIx 1) (Name := ℕ) (U := UU) (Lvl := ℕ) (Val := Elt F) (pcfgs (F := F) 0).pre c q pf : sProp 𝕄) = BI.emp := by
  unfold Pipeline.prefHeld
  show (bigSep (Finset.univ : Finset (Fin 0)) _ : sProp 𝕄) = _
  rw [Finset.univ_eq_empty, BI.bigSep_empty]

/-! ## The core's `owes` across the region -/

/-- The TensorCore owing nothing with its recorded pairs at or below level 8 owes as the pipeline's point `t` says: -/
theorem owesAt_intro (c : Dev nD) (t : Fin (cfg1.N + 1)) :
    iprop(∃ W, ⌜(K (F := F)).WBelow (SparseCore.T c : Thread nD τ) W 8⌝ ∗ owes (SparseCore.T c : Thread nD τ) (0 : CellTallies nD τ sig (HIx 1)) W)
      ⊢ ((dat1 m c).owesAt (none : HIx 1) t : sProp 𝕄) := by
  unfold Pipeline.Dat.owesAt Pipeline.owesWithin Pipeline.Dat.bound
  rw [owed_eq, recorded_eq]
  iintro ⟨%W, %hW, HO⟩
  iexists W; isplitr
  · ipureintro; exact fun p hp => Or.inl (hW p (Finset.mem_coe.mp hp))
  iexact HO

/-- and back: the pipeline's own waits are on its staging cells at the index of level 0. -/
theorem owesAt_elim (c : Dev nD) (t : Fin (cfg1.N + 1)) :
    ((dat1 m c).owesAt (none : HIx 1) t : sProp 𝕄)
      ⊢ iprop(∃ W, ⌜(K (F := F)).WBelow (SparseCore.T c : Thread nD τ) W 8⌝ ∗ owes (SparseCore.T c : Thread nD τ) (0 : CellTallies nD τ sig (HIx 1)) W) := by
  unfold Pipeline.Dat.owesAt Pipeline.owesWithin Pipeline.Dat.bound
  rw [owed_eq, recorded_eq]
  iintro ⟨%W, %hW, HO⟩
  iexists W; isplitr
  · ipureintro
    intro p hp
    rcases hW (Finset.mem_coe.mpr hp) with h | ⟨w, s, e⟩
    · exact h
    · rw [e]; exact Nat.zero_le _
  iexact HO

/-! ## The region's entry and exit -/

/-- ENTRY: the thread state holds the four arrays at the proof data's entry contents; the core's `owes` is the first
    point's; nothing else enters the invariant or bypasses the region. -/
theorem hentry1 (c : Dev nD) :
    iprop(iprop((∃ W, ⌜(K (F := F)).WBelow (SparseCore.T c : Thread nD τ) W 8⌝ ∗ owes (SparseCore.T c : Thread nD τ) (0 : CellTallies nD τ sig (HIx 1)) W) ∗ regionPre m c)
        ∗ (Pipeline.ownSems0 (fun k : PEmpty => k.elim) c : sProp 𝕄) ∗ levAts (K (F := F)).L (K (F := F)).lev)
      ⊢ |={Set.univ}=> iprop((dat1 m c).arrays ((dat1 m c).arrAt · 0)
          ∗ Pipeline.prefHeld (pcfgs (F := F) 0).pre c (fun _ => fullShare) (adm (F := F) c 0).1
          ∗ (dat1 m c).owesAt (none : HIx 1) 0 ∗ emp ∗ emp) := by
  rw [arrays_entry, prefHeld1]
  iintro ⟨⟨HO, HA⟩, -, -⟩
  imodintro
  isplitl [HA]; · iexact HA
  isplitr; · iempintro
  isplitl [HO]; · iapply (owesAt_intro m c 0); iexact HO
  isplitr <;> iempintro

/-- EXIT: the arrays at their final contents and the last point's `owes` are the thread state the region leaves. -/
theorem hexit1 (c : Dev nD) :
    iprop((dat1 m c).arrays ((dat1 m c).arrAt · cfg1.N) ∗ (dat1 m c).owesAt (none : HIx 1) (Fin.last cfg1.N) ∗ emp ∗ emp)
      ⊢ |={Set.univ}=> iprop((∃ W, ⌜(K (F := F)).WBelow (SparseCore.T c : Thread nD τ) W 8⌝ ∗ owes (SparseCore.T c : Thread nD τ) (0 : CellTallies nD τ sig (HIx 1)) W) ∗ regionPost m c) := by
  rw [arrays_exit]
  iintro ⟨HA, HO, -, -⟩
  imodintro
  isplitl [HO]; · iapply (owesAt_elim m c _); iexact HO
  iexact HA

/-! ## The region -/

set_option backward.isDefEq.respectTransparency.types false in
/-- The region as the library's segment: the decided layout, no semaphore of its own, the body obligation, no wait
    evidence needed (nothing is owed at the staging cells), and the four entailments around the thread states. -/
def reg : Pipeline.PerCore.RegionSeg (pcfgs (F := F)) adm (dats m) (none : HIx 1) (defs₀ (F := F)) 𝒱₀ (K (F := F)).L (K (F := F)).lev (0 : Fin 1) where
  win := Gen.launch1.win.to₀
  block_pos := Gen.block_pos1
  stage_whole := Gen.stage_whole1
  K := PEmpty
  osem k := k.elim
  ho := Pipeline.OwnSemFacts.none _
  hbody c := (body_obligation m c).loose
  hwaits := Pipeline.PerCore.hwaits_of_owed_zero _ _ _ _ _ _ 0 fun _ _ => rfl
  pre c := iprop((∃ W, ⌜(K (F := F)).WBelow (SparseCore.T c : Thread nD τ) W 8⌝ ∗ owes (SparseCore.T c : Thread nD τ) (0 : CellTallies nD τ sig (HIx 1)) W) ∗ regionPre m c)
  post c := iprop((∃ W, ⌜(K (F := F)).WBelow (SparseCore.T c : Thread nD τ) W 8⌝ ∗ owes (SparseCore.T c : Thread nD τ) (0 : CellTallies nD τ sig (HIx 1)) W) ∗ regionPost m c)
  X _ := iprop(emp)
  Y _ := iprop(emp)
  Z _ := iprop(emp)
  hentry c := hentry1 m c
  hin c := by
    show iprop(emp ∗ _ ∗ Pipeline.scopedRest spec1 c) ⊢ (Pipeline.scopedRest spec1 c : sProp 𝕄)
    iintro ⟨-, -, H⟩; iexact H
  hout c := by
    show (Pipeline.scopedRest spec1 c : sProp 𝕄) ⊢ iprop(emp ∗ Pipeline.ownSems0 (fun k : PEmpty => k.elim) c ∗ Pipeline.scopedRest spec1 c)
    rw [Pipeline.ownSems0_none]
    iintro H
    isplitr; · iempintro
    isplitr; · iempintro
    iexact H
  hexit c := hexit1 m c

theorem reg_pre (c : Dev nD) : (reg m).pre c = iprop((∃ W, ⌜(K (F := F)).WBelow (SparseCore.T c : Thread nD τ) W 8⌝ ∗ owes (SparseCore.T c : Thread nD τ) (0 : CellTallies nD τ sig (HIx 1)) W) ∗ regionPre m c) := rfl
theorem reg_post (c : Dev nD) : (reg m).post c = iprop((∃ W, ⌜(K (F := F)).WBelow (SparseCore.T c : Thread nD τ) W 8⌝ ∗ owes (SparseCore.T c : Thread nD τ) (0 : CellTallies nD τ sig (HIx 1)) W) ∗ regionPost m c) := rfl

set_option backward.isDefEq.respectTransparency.types false in
/-- The region's step in the SparseCore program's layer: from the boundary, the TensorCore owing nothing with its recorded
    pairs at or below level 8, the four arrays as @main's earlier statements left them, the level facts and the
    pipeline's ghost state, the call of the pipeline's entry runs to the boundary, the same `owes` and the arrays
    with the result written, for any continuation. -/
theorem region_wp (d : Dev nD) {α : Type}
    (k : PUnit → Prog (TpuEff nD τ sig (Elt F) (SparseCore.Sig (ΛP (F := F)) 1) .tc) α) (Q : α → sProp 𝕄) :
    iprop((iprop(boundary (SparseCore.T d : Thread nD τ) ∗ (∃ W', ⌜(K (F := F)).WBelow (SparseCore.T d : Thread nD τ) W' 8⌝ ∗ owes (SparseCore.T d : Thread nD τ) (0 : CellTallies nD τ sig (HIx 1)) W') ∗ regionPost m d)
            -∗ wp frame (wpE ((K (F := F)).defs (D (F := F))) 𝒱 (SparseCore.T d : Thread nD τ) none) Set.univ (k ⟨⟩) Q)
        ∗ boundary (SparseCore.T d : Thread nD τ) ∗ (∃ W, ⌜(K (F := F)).WBelow (SparseCore.T d : Thread nD τ) W 8⌝ ∗ owes (SparseCore.T d : Thread nD τ) (0 : CellTallies nD τ sig (HIx 1)) W) ∗ regionPre m d
        ∗ levAts (K (F := F)).L (K (F := F)).lev ∗ pipeGhost (F := F) d)
      ⊢ wp frame (wpE ((K (F := F)).defs (D (F := F))) 𝒱 (SparseCore.T d : Thread nD τ) none) Set.univ (.op (.customCall (SparseCore.inner (Pipeline.entry 0)) ()) k) Q := by
  have hR := Pipeline.PerCore.RegionSeg.wp (pcfgs (F := F)) adm (dats m) (none : HIx 1) phinj EP (defs₀ (F := F)) 𝒱₀ (K (F := F)).L (K (F := F)).lev
    (reg m) d none (fun _ h => nomatch h) (fun _ => .ret ⟨⟩) (fun x => wp frame (wpE ((K (F := F)).defs (D (F := F))) 𝒱 (SparseCore.T d : Thread nD τ) none) Set.univ (k x) Q)
  have hL := (K (F := F)).wp_liftProg (D (F := F)) 𝒱 (SparseCore.T d : Thread nD τ) Set.univ none
    (.op (.customCall (Pipeline.entry 0) ()) fun _ => .ret ⟨⟩) (fun x => wp frame (wpE ((K (F := F)).defs (D (F := F))) 𝒱 (SparseCore.T d : Thread nD τ) none) Set.univ (k x) Q)
  rw [show (Prog.op (.customCall (SparseCore.inner (Pipeline.entry 0)) ()) k : Prog (TpuEff nD τ sig (Elt F) (SparseCore.Sig (ΛP (F := F)) 1) .tc) α)
      = ((SparseCore.liftProg (.op (.customCall (Pipeline.entry 0) ()) fun _ => .ret ⟨⟩)) >>= k) from rfl, wp_bind]
  refine BIBase.Entails.trans ?_ hL
  refine BIBase.Entails.trans ?_ hR
  rw [reg_pre, reg_post]
  unfold pipeGhost
  iintro ⟨Hk, Hb, HO, HA, Hlv, Hg, Ht⟩
  isplitl [Hk]
  · iintro ⟨Hb, HO, HP⟩
    rw [wp_ret]; imodintro
    iapply Hk
    isplitl [Hb]; · iexact Hb
    isplitl [HO]; · iexact HO
    iexact HP
  isplitl [Hb]; · iexact Hb
  isplitl [HO HA]
  · isplitl [HO]; · iexact HO
    iexact HA
  isplitl [Hlv]; · iexact Hlv
  isplitl [Hg]; · iexact Hg
  iexact Ht

/-! ## The pipeline's share of the launch -/

/-- The rounds library's launch element at the pipeline's staging cells and the transfers its loop issues. -/
def pipeU₀ : UP :=
  initOf (Pipeline.PerCore.cells (Pipeline.pinD (pcfgs (F := F)) adm) phinj) (Pipeline.PerCore.launchToks (Pipeline.pinD (pcfgs (F := F)) adm) phinj)

/-- Funding: from the launch element, every device's ghost state for the pipeline's cells and its duty tokens. -/
theorem fund_pipe :
    (BI.own (EP (F := F) (pipeU₀ (F := F))) : sProp 𝕄) ⊢ |==> bigSep Finset.univ fun d : Dev nD => pipeGhost (F := F) d := by
  unfold pipeU₀
  refine BI.Entails.trans (Pipeline.PerCore.fund_ghost (Pipeline.pinD (pcfgs (F := F)) adm) EP phinj) ?_
  refine BI.bupd_mono ?_
  rw [← bigSep_sep']
  refine bigSep_mono fun d _ => ?_
  unfold pipeGhost
  rw [Finset.univ_unique, BI.bigSep_singleton, BI.bigSep_singleton]
  exact BI.Entails.refl _

end Cert.KernelIdealProof

end
-- ==== Proof.KernelIdealMain.lean ====
/-
  @main on the TensorCore, the launch element, and the program's run.

  @main reshapes the indices (one host operation), hands every vector subcore its index slab, a read share of the table
  and its output chunks, takes them back with the chunks holding the looked-up rows, reshapes the bias to one row, and
  runs the TensorCore pipeline over the flat rows array; it ends holding the four arguments at their launch contents and
  the result array at what the pipeline's 64 points wrote. After its one SparseCore call the TensorCore owes nothing, so
  the pipeline is entered owing nothing and its own waits (index `none`) stay below every level the handshakes use.
  The launch element is the handshakes' rounds beside the pipeline's rounds; the transfers' counters start at one.
-/
import proofs.«206693_g6700148982047_cont_9to1_m_1101_3_alg».proof.Proof.KernelIdealSetup
import proofs.«206693_g6700148982047_cont_9to1_m_1101_3_alg».proof.Proof.KernelIdealSplit
import proofs.«206693_g6700148982047_cont_9to1_m_1101_3_alg».proof.Proof.KernelIdealTile
import proofs.«206693_g6700148982047_cont_9to1_m_1101_3_alg».proof.Proof.KernelIdealRegion

noncomputable section

namespace Cert.KernelIdealProof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable [∀ e, Nonempty (Elt F e)]

variable (m : (ℓ : Loc nD τ sig) → Buf (Elt F) ℓ) (ρ : Dev nD → PrngReg)

/-! ## The launch theorem's facts about the handshake semaphores -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

instance P_storable : (P (F := F) m).IsStorable where
  st q d c := match q with | 0 => by unfold P tileRes; infer_instance
  dn q d c := match q with | 0 => by unfold P tileRes; infer_instance
  go q d c i := match q with | 0 => by unfold P tileRes; infer_instance
  td q d c i := match q with | 0 => by unfold P tileRes; infer_instance

/-! ## The launch element: the handshakes' rounds, the pipeline's rounds, no counter -/

def u₀ : UU := (initOf (K (F := F)).hsCells (K (F := F)).hsToks, (pipeU₀ (F := F), 1))

omit [FloatOps F] in
theorem bigSep_emp' {I : Type} (s : Finset I) : (bigSep s fun _ => iprop(emp)) = (iprop(emp) : sProp 𝕄) := bigSep_emp_const s

theorem ownU_split (a : UH) (b : UP) (c : Counters) : (ownU ((a, (b, c)) : UU) : sProp 𝕄) ⊢ iprop(BI.own (EH a) ∗ BI.own (EP b)) := by
  have h0 : (ownU ((a, (b, c)) : UU) : sProp 𝕄)
      = BI.own ((uEmb (nD := nD) (sig := sig) (Ix := HIx 1) (Val := Elt F) (Name := ℕ) (U := UU) (Lvl := ℕ)).toEmb ((a, (b, c)) : UU)) := rfl
  rw [h0]
  iintro Hu
  ihave H := (own_pair_emb (uEmb (nD := nD) (sig := sig) (Ix := HIx 1) (Val := Elt F) (Name := ℕ) (U := UU) (Lvl := ℕ)).toEmb a (b, c)) $$ Hu
  icases H with ⟨Ha, Hbc⟩
  ihave H' := (own_pair_emb ((Emb.inr : Emb (UP × Counters) UU).trans (uEmb (nD := nD) (sig := sig) (Ix := HIx 1) (Val := Elt F) (Name := ℕ) (U := UU) (Lvl := ℕ)).toEmb) b c) $$ Hbc
  icases H' with ⟨Hb, -⟩
  isplitl [Ha]
  · iexact Ha
  · iexact Hb

theorem hu₀ : (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (fund_pipe (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev v0' : DevRef τ sig := Proc.devRef .tc (main_v0 : Ref sig .tc)
abbrev a3' : DevRef τ sig := Proc.devRef .tc (main_arg3 : Ref sig .tc)
abbrev v2' : DevRef τ sig := Proc.devRef .tc (main_v2 : Ref sig .tc)
/-- The two host operations of @main: the indices reshaped to [32, 50, 128], the bias to one row. -/
abbrev op0 : HloOp τ sig (Elt F) := StableHlo.reshape main_arg0 main_v0 rfl Facts₀.shapeCasts_S4096x50_S32x50x128
abbrev op2 : HloOp τ sig (Elt F) := StableHlo.reshape main_arg3 main_v2 rfl Facts₀.shapeCasts_S256_S1x256
abbrev S0 : Finset (DevRef τ sig) := {a0', v0'}
abbrev S2 : Finset (DevRef τ sig) := {a3', v2'}

/-- The launch valuation. -/
def V0 (d : Dev nD) : Valuation τ sig (Elt F) := fun b => m (d, b)

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (v0Loc d ↦{fullShare} W main_v0) ∗ (v1Loc d ↦{fullShare} W main_v1) ∗ (v2Loc d ↦{fullShare} W main_v2)
      ∗ (v3Loc d ↦{fullShare} W main_v3)) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem held_S0 (d : Dev nD) (W : Valuation τ sig (Elt F)) :
    (held (T d) S0 W : sProp 𝕄) = iprop((a0Loc d ↦{fullShare} W a0') ∗ (v0Loc d ↦{fullShare} W v0')) := by
  unfold held S0
  rw [SparseCore.bigSep_insert' (by decide), bigSep_singleton]
omit [FloatOps F] in
theorem held_S2 (d : Dev nD) (W : Valuation τ sig (Elt F)) :
    (held (T d) S2 W : sProp 𝕄) = iprop((a3Loc d ↦{fullShare} W a3') ∗ (v2Loc d ↦{fullShare} W v2')) := by
  unfold held S2
  rw [SparseCore.bigSep_insert' (by decide), bigSep_singleton]

theorem op0_a0 (d : Dev nD) : (op0 (F := F)).result (V0 m d) a0' = m (a0Loc d) :=
  (op0 (F := F)).result_of_not_mem (V0 m d) (b := a0') (show a0' ∉ ({v0'} : Finset (DevRef τ sig)) by decide)
theorem op0_v0 (d : Dev nD) : (op0 (F := F)).result (V0 m d) v0' = idx3 m d :=
  StableHlo.reshape_result main_arg0 main_v0 rfl Facts₀.shapeCasts_S4096x50_S32x50x128 _ _ (V0 m d)
theorem op2_a3 (d : Dev nD) : (op2 (F := F)).result (V0 m d) a3' = m (a3Loc d) :=
  (op2 (F := F)).result_of_not_mem (V0 m d) (b := a3') (show a3' ∉ ({v2'} : Finset (DevRef τ sig)) by decide)
theorem op2_v2 (d : Dev nD) : (op2 (F := F)).result (V0 m d) v2' = bias2 m d :=
  StableHlo.reshape_result main_arg3 main_v2 rfl Facts₀.shapeCasts_S256_S1x256 _ _ (V0 m d)

theorem held_S0_res (d : Dev nD) :
    (held (T d) S0 ((op0 (F := F)).result (V0 m d)) : sProp 𝕄) = iprop((a0Loc d ↦{fullShare} m (a0Loc d)) ∗ (v0Loc d ↦{fullShare} idx3 m d)) := by
  rw [held_S0, op0_a0, op0_v0]
theorem held_S2_res (d : Dev nD) :
    (held (T d) S2 ((op2 (F := F)).result (V0 m d)) : sProp 𝕄) = iprop((a3Loc d ↦{fullShare} m (a3Loc d)) ∗ (v2Loc d ↦{fullShare} bias2 m d)) := by
  rw [held_S2, op2_a3, op2_v2]

/-- The TensorCore's handshake state after the one call, apart from what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

/-- After its last call the TensorCore owes nothing. -/
theorem tcSt_one (d : Dev nD) :
    ((K (F := F)).tcSt EH d 1 : sProp 𝕄) = iprop((∃ W, ⌜(K (F := F)).WBelow (SparseCore.T d) W 8⌝ ∗ owes (SparseCore.T d) 0 W) ∗ tcRest (F := F) d) := by
  unfold SparseCore.Cfg.tcSt tcRest
  rw [(K (F := F)).Otc_end d (le_refl 1)]

/-- What @main leaves the claim: the four arguments at their launch contents and the result array. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ (v3Loc d ↦{fullShare} outF m d))

theorem hmain (κ : GSem nD τ sig → ℕ) (d : Dev nD) :
    iprop((K (F := F)).ctx EH (P m) κ ∗ (K (F := F)).tcSt EH d 0 ∗ (K (F := F)).tcRes m ρ d ∗ pipeGhost (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Hv0, Hv1, Hv2, Hv3⟩, -, -⟩, HG⟩
  -- the indices reshaped
  iapply (wp_hlo_within 𝒱 (SparseCore.T d) none Set.univ (op := op0) (S := S0) (Finset.Subset.refl _) (V := V0 m d)) $$ [Hb Ha0 Hv0]
  · isplitl [Hb]; · iexact Hb
    rw [held_S0]
    isplitl [Ha0]; · iexact Ha0
    iexact Hv0
  iintro ⟨Hb, Hheld⟩
  ihave Hh := (Entails.of_eq (held_S0_res m d)) $$ Hheld
  icases Hh with ⟨Ha0, Hv0⟩
  rw [wp_ret]; imodintro
  -- the call: every worker its slab, its read share of the table, its chunks; back with the chunks at the looked-up rows
  ihave Hsp := (split_all m d) $$ [Hv0 Ha1 Hv1]
  · isplitl [Hv0]; · iexact Hv0
    isplitl [Ha1]; · iexact Ha1
    iexact Hv1
  icases Hsp with ⟨Ha1r, Hstp⟩
  iapply ((K (F := F)).wp_run (D (F := F)) 𝒱 (EH := EH) (P := P m) κ d 0) $$ [Hst Hstp Hb Ha0 Ha1r Ha2 Ha3 Hv2 Hv3 HG]
  isplitr; · iexact Hctx
  isplitl [Hst]; · iexact Hst
  isplitl [Hstp]; · iexact Hstp
  iintro ⟨Hst, Hdn⟩
  ihave Hj := (join_all m d) $$ [Ha1r Hdn]
  · isplitl [Ha1r]; · iexact Ha1r
    iexact Hdn
  icases Hj with ⟨Hv0, Ha1, Hv1⟩
  -- the bias reshaped to one row
  iapply (wp_hlo_within 𝒱 (SparseCore.T d) none Set.univ (op := op2) (S := S2) (Finset.Subset.refl _) (V := V0 m d)) $$ [Hb Ha3 Hv2]
  · isplitl [Hb]; · iexact Hb
    rw [held_S2]
    isplitl [Ha3]; · iexact Ha3
    iexact Hv2
  iintro ⟨Hb, Hheld⟩
  ihave Hh := (Entails.of_eq (held_S2_res m d)) $$ Hheld
  icases Hh with ⟨Ha3, Hv2⟩
  rw [wp_ret]; imodintro
  -- the TensorCore region, entered owing nothing
  ihave Hst' := (Entails.of_eq (show ((K (F := F)).tcSt EH d ((0 : Fin 1).val + 1) : sProp 𝕄) = _ from tcSt_one (F := F) d)) $$ Hst
  icases Hst' with ⟨Ho, Hrest⟩
  ihave Hlev := (SparseCore.Cfg.ctx_levAts κ) $$ Hctx
  simp only [Prog.lift]
  iapply (region_wp m d (fun x => Prog.ret x) _) $$ [Hb Ho Hv1 Ha2 Hv2 Hv3 HG Hrest Ha0 Ha1 Ha3 Hv0]
  isplitl [Hrest Ha0 Ha1 Ha3 Hv0]
  · iintro ⟨Hb, Ho, Hpost⟩
    unfold regionPost
    icases Hpost with ⟨Hv1, Ha2, Hv2, Hv3⟩
    rw [wp_ret]; imodintro; imodintro
    isplitl [Ho Hrest]
    · iapply (Entails.of_eq (tcSt_one (F := F) d).symm)
      isplitl [Ho]; · iexact Ho
      iexact Hrest
    isplitl [Ha0]; · iexact Ha0
    isplitl [Ha1]; · iexact Ha1
    isplitl [Ha2]; · iexact Ha2
    isplitl [Ha3]; · iexact Ha3
    iexact Hv3
  isplitl [Hb]; · iexact Hb
  isplitl [Ho]; · iexact Ho
  isplitl [Hv1 Ha2 Hv2 Hv3]
  · unfold regionPre
    isplitl [Hv1]; · iexact Hv1
    isplitl [Ha2]; · iexact Ha2
    isplitl [Hv2]; · iexact Hv2
    iexact Hv3
  isplitr; · iexact Hlev
  iexact HG

/-! ## Reading the claim off the final memory -/

def fq (d : Dev nD) (s' : Phys nD τ sig (Elt F)) : Prop :=
  s'.mem.mem (v3Loc d) = outF m d ∧ s'.mem.mem (a0Loc d) = m (a0Loc d) ∧ s'.mem.mem (a1Loc d) = m (a1Loc d)
    ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp 𝕄) := by
  iintro ⟨⟨Ha0, Ha1, Ha2, Ha3, Hv3⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI Ha3]
  · isplitl [HSI] <;> iassumption
  icases H with ⟨%h3, HSI, -⟩
  ihave H := (SI_pointsTo_agree (st := s') (ℓ := v3Loc d) (I := Finset.univ) (q := fullShare) (f := outF m d)) $$ [HSI Hv3]
  · isplitl [HSI] <;> iassumption
  icases H with %h4
  ipureintro
  exact ⟨funext fun i => h4 i (Finset.mem_univ i), funext fun i => h0 i (Finset.mem_univ i), funext fun i => h1 i (Finset.mem_univ i),
    funext fun i => h2 i (Finset.mem_univ i), funext fun i => h3 i (Finset.mem_univ i)⟩

/-! ## The program's run -/

/-- Every final state has the result array at `outF` and the four arguments at their launch contents. -/
def QC : PUnit × MemSt nD τ sig (Elt F) → Prop := fun r => ∀ c : Dev nD,
  r.2.mem (v3Loc c) = outF m c ∧ r.2.mem (a0Loc c) = m (a0Loc c) ∧ r.2.mem (a1Loc c) = m (a1Loc c)
    ∧ r.2.mem (a2Loc c) = m (a2Loc c) ∧ r.2.mem (a3Loc c) = m (a3Loc c)

theorem run_main (hr : ∀ d : Dev nD, Cert.Spec.InRange (m (a0Loc d) : IVec Cert.Spec.SIdx 32)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hr)
    (fun q _ => match q with | 0 => SparseCore.Cfg.VecSplit.of_plain (vecSplit m))
    m ρ main (fun d => pipeGhost (F := F) d) (FIN m) (u₀ (F := F)) (sep_elim_left.trans (hu₀ m)) (hmain m ρ) (fq m) (hfin m) (QC m) (fun _ h => h)

end Cert.KernelIdealProof

end
-- ==== Proof.LibDotStd.lean ====
/-
  The index maps of a plain matrix product's dimension numbers.

  For dimension numbers with no batch axes, one free axis on each side and one contracted axis on each side — the shape
  of every row-times-column product — the left operand's free coordinate is the result's first coordinate and the
  right operand's free coordinate is the result's second, whatever the contraction position is. Together with the
  library's facts for the contracted coordinate these are the four index facts a sum-of-products reading needs.
-/
import Idealize.ShloMosaic.PureOps.Dims

namespace Cert.Lib.DotStd

open Idealize.ShloMosaic

variable {sl sr so : Shape} (d : DotDims sl sr so)

/-- With no batch axis and `a` the one free axis of the left operand, the left index on `a` is the result's first
    coordinate. -/
theorem lhsIdx_free (a : Fin sl.rank) (hb : d.lhsBatch = []) (hn : d.lhsNonContracting = [a]) (h0 : 0 < so.rank)
    (j : so.Idx) (c : d.contr.Idx) : (d.lhsIdx j c a).val = (j ⟨0, h0⟩).val := by
  unfold DotDims.lhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free axis on the left and `a` the one free axis of the right operand, the right index on
    `a` is the result's second coordinate. -/
theorem rhsIdx_free (a : Fin sr.rank) (hb : d.rhsBatch = []) (hlb : d.lhsBatch = []) (al : Fin sl.rank)
    (hln : d.lhsNonContracting = [al]) (hn : d.rhsNonContracting = [a]) (h1 : 1 < so.rank)
    (j : so.Idx) (c : d.contr.Idx) : (d.rhsIdx j c a).val = (j ⟨1, h1⟩).val := by
  unfold DotDims.rhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Cert.Lib.DotStd
-- ==== Proof.LibTrMatmul.lean ====
/-
  A matrix product into a zero accumulator whose dimension numbers contract the SECOND axis of both operands — an
  n-by-K array against an M-by-K array, the right operand read transposed — at an index.

  With no batch axis, the left operand's rows and the right operand's rows free, and the two column axes contracted,
  the entry at (p, q) of the product added to a zero array is the sum over k of left(p, k) · right(q, k). The record's
  six lists are taken as hypotheses; a printed record proves each by unfolding.
-/
import proofs.«206693_g6700148982047_cont_9to1_m_1101_3_alg».proof.Proof.LibDotStd
import Idealize.ShloMosaic.PureOps.Ideal.Laws
import Idealize.ShloMosaic.Lib.ValueIdx

noncomputable section

open scoped BigOperators

namespace Cert.Lib.TrMatmul

open Idealize.ShloMosaic Idealize.ShloMosaic.ValueIdx

/-- The matrix product into the zero splat, right operand transposed, at the ideal values, read at (p, q). -/
theorem matmul_tr_ix2 {n K M : ℕ} {φ₁ φ₂ : FTy}
    (d : DotDims (⟨2, ![n, K]⟩ : Shape) (⟨2, ![M, K]⟩ : Shape) (⟨2, ![n, M]⟩ : Shape)) (prec : Option ContractPrecision)
    (hlc : d.lhsContracting = [1]) (hrc : d.rhsContracting = [1]) (hln : d.lhsNonContracting = [0]) (hrn : d.rhsNonContracting = [0])
    (hlb : d.lhsBatch = []) (hrb : d.rhsBatch = [])
    (lhs : FVec Ideal (⟨2, ![n, K]⟩ : Shape) φ₁) (rhs : FVec Ideal (⟨2, ![M, K]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 q k) := by
  have hr : d.contr.rank = 1 := by rw [d.rank_contr, hlc]; rfl
  have hs : d.contr.size ⟨0, by omega⟩ = K := by
    unfold DotDims.contr
    simp [hlc, Shape.ofList]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact Cert.Lib.DotStd.lhsIdx_free d 0 hlb hln Nat.zero_lt_two _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact Cert.Lib.DotStd.rhsIdx_free d 0 hrb hlb 0 hln hrn Nat.one_lt_two _ _
    | ⟨1, _⟩ => exact (d.rhsIdx_val_of_single hrc _ _).trans hk)
  rw [el, er]

end Cert.Lib.TrMatmul

end
-- ==== Proof.Payload.lean ====
/-
  The projection body's arithmetic, read at an index on the extended reals.

  The body multiplies a [3200, 128] block of rows by the transposed [256, 128] weight into a zero accumulator, adds the
  bias row to every row, and recasts the [3200, 256] result as [64, 50, 256]: row `p·50 + l` of the product becomes the
  entry `(p, l)`.  So the entry at `(p, l, h)` is `∑ₖ rows[p·50 + l, k] · W[h, k] + bias[0, h]`.
-/
import proofs.«206693_g6700148982047_cont_9to1_m_1101_3_alg».proof.Proof.Gen.KernelIdeal.Skeleton
import proofs.«206693_g6700148982047_cont_9to1_m_1101_3_alg».proof.Proof.LibTrMatmul
import Idealize.ShloMosaic.Lib.ValueLayout

noncomputable section

open scoped BigOperators

namespace Cert.Payload

open Idealize.ShloMosaic Idealize.ShloMosaic.ValueIdx Cert.KernelIdeal

/-- A [3200, 256] array recast as [64, 50, 256] reads, at `(p, l, h)`, the operand at row `p·50 + l`, column `h`: the two
    indices have the same row-major position. -/
theorem cast_rows_apply {α : Type} (v : S3200x256.Idx → α) (hc : S3200x256.ShapeCasts S64x50x256)
    (p : Fin 64) (l : Fin 50) (h : Fin 256) :
    shapeCast S64x50x256 v hc (ix3 p l h) = v (ix2 (⟨p.val * 50 + l.val, by omega⟩ : Fin 3200) h) :=
  shapeCast_apply v hc _ _ (by
    rw [Shape.rowMajor_val_two, Shape.rowMajor_val_three]
    show (p.val * 50 + l.val) * 256 + h.val = (p.val * 50 + l.val) * 256 + h.val
    rfl)

theorem pay_apply [Cert.KernelIdeal.Facts] (x : Vec Ideal S3200x128 .f32) (w : Vec Ideal S256x128 .f32) (bv : Vec Ideal S1x256 .f32)
    (p : Fin 64) (l : Fin 50) (h : Fin 256) :
    Cert.KernelIdeal.Gen.k1_pay1 (F := Ideal) x w bv (ix3 p l h)
      = (∑ k : Fin 128, x (ix2 (⟨p.val * 50 + l.val, by omega⟩ : Fin 3200) k) * w (ix2 h k)) + bv (ix2 (0 : Fin 1) h) := by
  unfold Gen.k1_pay1
  rw [cast_rows_apply, addf_apply, shapeCast_self, shapeCast_self, broadcastTo_1b_ab_apply]
  simp only [matmul]
  rw [Cert.Lib.TrMatmul.matmul_tr_ix2 _ _ rfl rfl rfl rfl rfl rfl]

end Cert.Payload

end
-- ==== Proof.KernelIdealValue.lean ====
/-
  The projection region's result array, read at an index.

  One grid point `t` of the 64 computes rows `[64·t, 64·t + 64)` of the result from rows `[3200·t, 3200·t + 3200)` of the
  flat array of looked-up rows, the whole weight and the bias row: entry `(p, l, h)` of its block is
  `∑ₖ rows[3200·t + 50·p + l, k] · W[h, k] + bias[h]`, which is entry `(64·t + p, l, h)` of the projection of the flat
  array, since `(64·t + p)·50 + l = 3200·t + 50·p + l`.  The 64 blocks tile the result array, so after the 64
  write-backs the array is the projection.
-/
import proofs.«206693_g6700148982047_cont_9to1_m_1101_3_alg».proof.Proof.KernelIdealIndex
import proofs.«206693_g6700148982047_cont_9to1_m_1101_3_alg».proof.Proof.KernelIdealRegionData
import proofs.«206693_g6700148982047_cont_9to1_m_1101_3_alg».proof.Proof.Payload
import Idealize.ShloMosaic.Lib.Pipeline.Value

noncomputable section

open scoped BigOperators

namespace Cert.KernelIdealProof

open Cert.KernelIdeal Cert.KernelIdeal.Gen
open Idealize.ShloMosaic Idealize.ShloMosaic.ValueIdx
open Idealize.ShloMosaic.SparseCore.Cfg (HIx Pay)
open Idealize.ShloMosaic.Pipeline (Dat)

/-! ## One point's block -/

/-- ONE POINT'S BLOCK, at explicit coordinates: with `x` rows `[3200·t, 3200·t + 3200)` of the flat array `E`, `w` the
    weight and `bv` the bias as one row, the body's result at `(p, l, h)` is the projection of `E` at `(64·t + p, l, h)`. -/
theorem pay_block_ix (E : FVec Ideal Cert.Spec.SEmb .f32) (W : FVec Ideal Cert.Spec.SW .f32) (bias : FVec Ideal Cert.Spec.SB .f32)
    (x : Vec Ideal S3200x128 .f32) (w : Vec Ideal S256x128 .f32) (bv : Vec Ideal S1x256 .f32) (t : Fin 64)
    (hx : ∀ (r : Fin 3200) (k : Fin 128), x (ix2 r k) = E (ix2 (⟨3200 * t.val + r.val, by have := t.isLt; have := r.isLt; omega⟩ : Fin 204800) k))
    (hw : ∀ (h : Fin 256) (k : Fin 128), w (ix2 h k) = W (ix2 h k))
    (hbv : ∀ h : Fin 256, bv (ix2 (0 : Fin 1) h) = bias (ix1 h))
    (p : Fin 64) (l : Fin 50) (h : Fin 256) :
    Gen.k1_pay1 (F := Ideal) x w bv (ix3 p l h)
      = Cert.Spec.proj E W bias (ix3 (⟨64 * t.val + p.val, by have := t.isLt; have := p.isLt; omega⟩ : Fin 4096) l h) := by
  have ht := t.isLt; have hp := p.isLt; have hl := l.isLt
  rw [Cert.Payload.pay_apply, hbv]
  unfold Cert.Spec.proj
  refine congrArg (· + bias (ix1 h)) (Finset.sum_congr rfl fun k _ => ?_)
  rw [hx, hw]
  refine congrArg (fun r : Fin 204800 => E (ix2 r k) * W (ix2 h k)) (Fin.ext ?_)
  show 3200 * t.val + (p.val * 50 + l.val) = (64 * t.val + p.val) * 50 + l.val
  omega

/-- The same at any index `y` of the block. -/
theorem pay_block (E : FVec Ideal Cert.Spec.SEmb .f32) (W : FVec Ideal Cert.Spec.SW .f32) (bias : FVec Ideal Cert.Spec.SB .f32)
    (x : Vec Ideal S3200x128 .f32) (w : Vec Ideal S256x128 .f32) (bv : Vec Ideal S1x256 .f32) (t : Fin 64)
    (hx : ∀ (r : Fin 3200) (k : Fin 128), x (ix2 r k) = E (ix2 (⟨3200 * t.val + r.val, by have := t.isLt; have := r.isLt; omega⟩ : Fin 204800) k))
    (hw : ∀ (h : Fin 256) (k : Fin 128), w (ix2 h k) = W (ix2 h k))
    (hbv : ∀ h : Fin 256, bv (ix2 (0 : Fin 1) h) = bias (ix1 h))
    (y : S64x50x256.Idx) :
    Gen.k1_pay1 (F := Ideal) x w bv y
      = Cert.Spec.proj E W bias (ix3 (⟨64 * t.val + (y 0 : Fin 64).val, by have := t.isLt; have h0 : (y 0 : Fin 64).val < 64 := (y 0).isLt; omega⟩ : Fin 4096) (y 1 : Fin 50) (y 2 : Fin 256)) :=
  (congrArg (Gen.k1_pay1 (F := Ideal) x w bv) (eq_ix3 y)).trans
    (pay_block_ix E W bias x w bv t hx hw hbv (y 0 : Fin 64) (y 1 : Fin 50) (y 2 : Fin 256))

/-! ## The windows' index maps, decided over the 64 points -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- Point `t` reads row block `t` of the flat array, the one block of the weight and of the bias row, and writes block
    `t` of the result along its first axis. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

variable (m : (ℓ : Loc nD τ sig) → Buf (Elt Ideal) ℓ)

/-- The result array the region should leave: the projection of the looked-up rows. -/
abbrev projF (d : Dev nD) : S4096x50x256.Idx → Elt Ideal .f32 :=
  Cert.Spec.proj (embF m d) (m (a2Loc d) : FVec Ideal Cert.Spec.SW .f32) (m (a3Loc d) : FVec Ideal Cert.Spec.SB .f32)

/-- WHAT POINT `t` WRITES BACK is block `t` of the projection. -/
theorem flushed_eq (d : Dev nD) (t : Fin cfg1.N) :
    (dat1 m d).flushed 3 t = ((cfg1.win 3).blk t).view.read (Elt Ideal) (projF m d) := by
  show (cfg1.win 3).cut (grid1.coords t) ((dat1 m d).after 3 t) = _
  rw [after1_3]
  unfold out1_3
  rw [View.canon_unit_zero zeros3]
  simp only [View.ld_unit_zero (S := S3200x128) zeros2, View.ld_unit_zero (S := S256x128) zeros2, View.ld_unit_zero (S := S1x256) zeros2]
  obtain ⟨e00, e01, e10, e11, e20, e21, e30, e31, e32⟩ := idx_facts t
  have htl : t.val < 64 := t.isLt
  funext y
  show Gen.k1_pay1 (F := Ideal) (iblk m d 0 t) (iblk m d 1 t) (iblk m d 2 t) y = projF m d (((cfg1.win 3).blk t).view.emb y)
  refine (pay_block (embF m d) (m (a2Loc d)) (m (a3Loc d)) (iblk m d 0 t) (iblk m d 1 t) (iblk m d 2 t) ⟨t.val, htl⟩
    (fun r k => ?_) (fun h k => ?_) (fun h => ?_) y).trans (congrArg (projF m d) ?_)
  · -- rows [3200·t, 3200·t + 3200) of the flat array
    show V1 m d main_v1 (((cfg1.win 0).blk t).view.emb (ix2 r k)) = _
    rw [V1_main_v1]
    refine congrArg (embF m d) (funext fun a => Fin.ext ?_)
    match a with
    | ⟨0, _⟩ => show win1_0.index t (0 : Fin 2) * 3200 + 1 * r.val = 3200 * t.val + r.val; omega
    | ⟨1, _⟩ => show win1_0.index t (1 : Fin 2) * 128 + 1 * k.val = k.val; omega
  · -- the whole weight
    show V1 m d main_arg2 (((cfg1.win 1).blk t).view.emb (ix2 h k)) = _
    rw [V1_main_arg2]
    refine congrArg (m (a2Loc d)) (funext fun a => Fin.ext ?_)
    match a with
    | ⟨0, _⟩ => show win1_1.index t (0 : Fin 2) * 256 + 1 * h.val = h.val; omega
    | ⟨1, _⟩ => show win1_1.index t (1 : Fin 2) * 128 + 1 * k.val = k.val; omega
  · -- the bias row
    show V1 m d main_v2 (((cfg1.win 2).blk t).view.emb (ix2 (0 : Fin 1) h)) = _
    rw [V1_main_v2]
    refine Eq.trans (congrArg (bias2 m d) (funext fun a => Fin.ext ?_)) (bias2_apply m d h)
    match a with
    | ⟨0, _⟩ => show win1_2.index t (0 : Fin 2) * 1 + 1 * 0 = 0; omega
    | ⟨1, _⟩ => show win1_2.index t (1 : Fin 2) * 256 + 1 * h.val = h.val; omega
  · -- block `t` of the result
    funext a
    refine Fin.ext ?_
    match a with
    | ⟨0, _⟩ => show 64 * t.val + (y 0).val = win1_3.index t (0 : Fin 3) * 64 + 1 * (y 0).val; omega
    | ⟨1, _⟩ => show (y 1).val = win1_3.index t (1 : Fin 3) * 50 + 1 * (y 1).val; omega
    | ⟨2, _⟩ => show (y 2).val = win1_3.index t (2 : Fin 3) * 256 + 1 * (y 2).val; omega

/-- An index of the result array is in point `t`'s block iff each coordinate is in the block's range on its axis. -/
theorem mem_blk (t : Fin cfg1.N) (i : S4096x50x256.Idx) :
    i ∈ ((cfg1.win 3).blk t).view.set ↔ ∀ a : Fin 3, win1_3.index t a * S64x50x256.size a ≤ (i a).val ∧ (i a).val < win1_3.index t a * S64x50x256.size a + S64x50x256.size a := by
  show i ∈ ((View.whole main_v3).slice (win1_3.rect t)).set ↔ _
  rw [View.set_slice_whole, Rect.mem_set_unit]
  exact Iff.rfl

/-- THE BLOCKS TILE THE ARRAY: row `r` of the result is in the block of point `r / 64`. -/
theorem cover (i : S4096x50x256.Idx) : ∃ t : Fin cfg1.N, (cfg1.win 3).flush t = true ∧ i ∈ ((cfg1.win 3).blk t).view.set := by
  have hi0 : (i 0).val < 4096 := (i 0).isLt
  have hi1 : (i 1).val < 50 := (i 1).isLt
  have hi2 : (i 2).val < 256 := (i 2).isLt
  have hN : cfg1.N = 64 := N_1
  let t : Fin cfg1.N := ⟨(i 0).val / 64, by rw [hN]; omega⟩
  obtain ⟨-, -, -, -, -, -, e30, e31, e32⟩ := idx_facts t
  have et : t.val = (i 0).val / 64 := rfl
  refine ⟨t, flush1_3 t, ?_⟩
  rw [mem_blk]
  intro a
  match a with
  | ⟨0, _⟩ => show win1_3.index t (0 : Fin 3) * 64 ≤ (i 0).val ∧ (i 0).val < win1_3.index t (0 : Fin 3) * 64 + 64; omega
  | ⟨1, _⟩ => show win1_3.index t (1 : Fin 3) * 50 ≤ (i 1).val ∧ (i 1).val < win1_3.index t (1 : Fin 3) * 50 + 50; omega
  | ⟨2, _⟩ => show win1_3.index t (2 : Fin 3) * 256 ≤ (i 2).val ∧ (i 2).val < win1_3.index t (2 : Fin 3) * 256 + 256; omega

/-- THE RESULT ARRAY after the 64 write-backs is the projection of the looked-up rows. -/
theorem outF_eq_proj (d : Dev nD) :
    outF m d = Cert.Spec.proj (embF m d) (m (a2Loc d) : FVec Ideal Cert.Spec.SW .f32) (m (a3Loc d) : FVec Ideal Cert.Spec.SB .f32) :=
  (dat1 m d).arrAt_eq_of_cover 3 (projF m d) (fun t _ => flushed_eq m d t) cover

/-- And so it is the specification's result of the four arguments. -/
theorem outF_eq_out (d : Dev nD) :
    outF m d = Cert.Spec.out (m (a0Loc d) : IVec Cert.Spec.SIdx 32) (m (a1Loc d) : FVec Ideal Cert.Spec.STbl .f32)
      (m (a2Loc d) : FVec Ideal Cert.Spec.SW .f32) (m (a3Loc d) : FVec Ideal Cert.Spec.SB .f32) :=
  (outF_eq_proj m d).trans (Cert.Spec.proj_emb _ _ _ _)

end Cert.KernelIdealProof

end
-- ==== Proof.lean ====
/-
  The five claims, assembled.

  Both programs compute, at every (b, l, h), the sum over the 128 columns k of table[indices[b, l], k] · W[h, k], plus
  bias[h] (`Cert.Spec.out`): the kernel by looking the rows up on the vector subcores into one flat array and multiplying
  blocks of it by the transposed weights on the TensorCore; the reference by a gather (whose wrap-around and fill are
  inert for index words in [0, 99999], which the precondition gives) and one contraction. The two sums are over the same
  index set of the same products, so no finiteness of the floats is used. The frames are the runs with the value dropped;
  the idealization rewrote no operation, so nothing is owed for it.
-/
import proofs.«206693_g6700148982047_cont_9to1_m_1101_3_alg».proof.Defs
import proofs.«206693_g6700148982047_cont_9to1_m_1101_3_alg».proof.Proof.Gen.Kernel
import proofs.«206693_g6700148982047_cont_9to1_m_1101_3_alg».proof.Proof.Gen.KernelIdeal
import proofs.«206693_g6700148982047_cont_9to1_m_1101_3_alg».proof.Proof.Gen.ReferenceIdeal
import proofs.«206693_g6700148982047_cont_9to1_m_1101_3_alg».proof.Proof.Gen.Pre_input_domain
import proofs.«206693_g6700148982047_cont_9to1_m_1101_3_alg».proof.Proof.PreRange
import proofs.«206693_g6700148982047_cont_9to1_m_1101_3_alg».proof.Proof.RefSide
import proofs.«206693_g6700148982047_cont_9to1_m_1101_3_alg».proof.Proof.KernelMain
import proofs.«206693_g6700148982047_cont_9to1_m_1101_3_alg».proof.Proof.KernelIdealMain
import proofs.«206693_g6700148982047_cont_9to1_m_1101_3_alg».proof.Proof.KernelIdealValue
import Idealize.ShloMosaic.Adequacy
import Idealize.ShloMosaic.Init

noncomputable section

namespace Cert.Proof

open Idealize.ShloMosaic Idealize.SL.Sem

/-- The precondition puts every index word of the word-level program's index array in [0, 99999]. -/
theorem inRange_kernel (m : (ℓ : Loc Cert.Kernel.nD Cert.Kernel.τ Cert.Kernel.sig) → Buf (Elt Bits) ℓ) (h : Cert.Pre_Kernel m) (c : Dev Cert.Kernel.nD) :
    Cert.Spec.InRange (m ((c.tc : Thread Cert.Kernel.nD Cert.Kernel.τ).loc Cert.Kernel.main_arg0)) :=
  Cert.PreRange.inRange_of_pre _ _ _ _ (h c)

/-- The same of the idealized program's. -/
theorem inRange_kernelIdeal (m : (ℓ : Loc Cert.KernelIdeal.nD Cert.KernelIdeal.τ Cert.KernelIdeal.sig) → Buf (Elt Ideal) ℓ) (h : Cert.Pre_KernelIdeal m) (c : Dev Cert.KernelIdeal.nD) :
    Cert.Spec.InRange (m ((c.tc : Thread Cert.KernelIdeal.nD Cert.KernelIdeal.τ).loc Cert.KernelIdeal.main_arg0)) :=
  Cert.PreRange.inRange_of_pre _ _ _ _ (h c)

theorem frame_k : Cert.frame_Kernel := fun m g hpre =>
  (θ_run Cert.Kernel.defs _ _).mono (fun _ h c => (h c).2) (Cert.KernelProof.run_main (F := Bits) m g (inRange_kernel m hpre))

theorem frame_ki : Cert.frame_KernelIdeal := fun m g hpre =>
  (θ_run Cert.KernelIdeal.defs _ _).mono (fun _ h c => (h c).2) (Cert.KernelIdealProof.run_main (F := Ideal) m g (inRange_kernelIdeal m hpre))

theorem frame_ri : Cert.frame_ReferenceIdeal := fun m g _ =>
  (θ_run Cert.ReferenceIdeal.defs _ _).mono (fun _ h c => (h c).2) (Cert.RefSide.run_refOut (F := Ideal) m g)

/-- From memories agreeing on the arguments both programs end with the result array at `Cert.Spec.out` of the arguments. -/
theorem algebraic : Cert.algebraic_KernelIdeal_ReferenceIdeal := by
  intro m g m' g' hpre hagree
  have hr := inRange_kernelIdeal m hpre
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.KernelIdealProof.run_main (F := Ideal) m g hr)
    exact Cert.KernelIdealProof.outF_eq_out m c
  · have hr' : ∀ c : Dev Cert.ReferenceIdeal.nD, Cert.Spec.InRange (m' ((c.tc : Thread Cert.ReferenceIdeal.nD Cert.ReferenceIdeal.τ).loc Cert.ReferenceIdeal.main_arg0)) := fun c => by
      rw [(hagree c).1]; exact hr c
    refine (θ_run Cert.ReferenceIdeal.defs _ _).mono (fun _ h c => ⟨(h c).1.trans ?_, (h c).2⟩) (Cert.RefSide.run m' g' hr')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
